-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x4096 : Shape := ⟨3, ![16, 512, 4096]⟩
abbrev S32 : Shape := ⟨1, ![32]⟩
abbrev S32x8 : Shape := ⟨2, ![32, 8]⟩
abbrev S_ : Shape := ⟨0, ![]⟩

class Facts : Prop where
  bcast_S_S16x512x4096 : S_.BroadcastsInDim S16x512x4096 (![] : Fin 0 → Fin S16x512x4096.rank)
  reducesTo_S16x512x4096_S_d0_1_2 : S16x512x4096.ReducesTo [0, 1, 2] S_
  h_S_ : 0 < S_.numel
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_

variable [Facts]

def fn_part1 {F : FTy → Type} [FloatOps F] (main_arg4 : FVec F S32 .f32) (main_arg5 : FVec F S32x8 .f32) (main_arg6 : FVec F S32x8 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x8 .f32 := Host.absf main_arg5
  let main_cst_8 : FVec F S_ .f32 := constant S_ .f32 0x7F800000#32
  let main_v25 : FVec F S32x8 .f32 := broadcastInDim S32x8 ![] bcast_S_S32x8 main_cst_8
  let main_v26 : IVec S32x8 1 := cmpf .olt main_v24 main_v25
  let main_c_9 : IVec S_ 1 := constantI S_ 1 1#1
  let main_v27 : IVec S_ 1 := (fun x v => Host.reduce IntOp.andi x v reducesTo_S32x8_S_d0_1 h_S_) main_v26 main_c_9
  let main_v28 : IVec S_ 1 := andi main_v23 main_v27
  let main_v29 : FVec F S32x8 .f32 := Host.absf main_arg6
  let main_cst_10 : FVec F S_ .f32 := constant S_ .f32 0x7F800000#32
  let main_v30 : FVec F S32x8 .f32 := broadcastInDim S32x8 ![] bcast_S_S32x8 main_cst_10
  let main_v31 : IVec S32x8 1 := cmpf .olt main_v29 main_v30
  let main_c_11 : IVec S_ 1 := constantI S_ 1 1#1
  let main_v32 : IVec S_ 1 := (fun x v => Host.reduce IntOp.andi x v reducesTo_S32x8_S_d0_1 h_S_) main_v31 main_c_11
  let main_v33 : IVec S_ 1 := andi main_v28 main_v32
  main_v33

def fn {F : FTy → Type} [FloatOps F] (main_arg0 : FVec F S16x512x4096 .f32) (main_arg1 : FVec F S32 .f32) (main_arg2 : FVec F S32 .f32) (main_arg3 : FVec F S32 .f32) (main_arg4 : FVec F S32 .f32) (main_arg5 : FVec F S32x8 .f32) (main_arg6 : FVec F S32x8 .f32) : IVec S_ 1 :=
  let main_v0 : FVec F S16x512x4096 .f32 := Host.absf main_arg0
  let main_cst : FVec F S_ .f32 := constant S_ .f32 0x7F800000#32
  let main_v1 : FVec F S16x512x4096 .f32 := broadcastInDim S16x512x4096 ![] bcast_S_S16x512x4096 main_cst
  let main_v2 : IVec S16x512x4096 1 := cmpf .olt main_v0 main_v1
  let main_c : IVec S_ 1 := constantI S_ 1 1#1
  let main_v3 : IVec S_ 1 := (fun x v => Host.reduce IntOp.andi x v reducesTo_S16x512x4096_S_d0_1_2 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_v13 main_v16
-- ==== Kernel.lean ====
abbrev S16x512x4096 : Shape := ⟨3, ![16, 512, 4096]⟩
abbrev S32 : Shape := ⟨1, ![32]⟩
abbrev S32x8 : Shape := ⟨2, ![32, 8]⟩
abbrev S32x1 : Shape := ⟨2, ![32, 1]⟩
abbrev S1x512x4096 : Shape := ⟨3, ![1, 512, 4096]⟩
abbrev S1x512x1024 : Shape := ⟨3, ![1, 512, 1024]⟩
abbrev S512x1024 : Shape := ⟨2, ![512, 1024]⟩
abbrev S32x16x1024 : Shape := ⟨3, ![32, 16, 1024]⟩
abbrev S32x8x1024 : Shape := ⟨3, ![32, 8, 1024]⟩
abbrev S32x1x1 : Shape := ⟨3, ![32, 1, 1]⟩
abbrev S32x8x1 : Shape := ⟨3, ![32, 8, 1]⟩
abbrev S32x1024 : Shape := ⟨2, ![32, 1024]⟩
abbrev S32x1x1024 : Shape := ⟨3, ![32, 1, 1024]⟩
abbrev S8x32x1024 : Shape := ⟨3, ![8, 32, 1024]⟩
abbrev S256x1024 : Shape := ⟨2, ![256, 1024]⟩

abbrev nBuf : Space → Nat
  | .hbm => 12
  | .vmem => 13
  | .smem => 0
  | _ => 0

abbrev bufTy : (tb : Table) → Fin (tcTables nBuf tb) → BufTy
  | .hbm, ⟨0, _⟩ => ⟨S16x512x4096, .f32⟩
  | .hbm, ⟨1, _⟩ => ⟨S32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32x8, .f32⟩
  | .hbm, ⟨6, _⟩ => ⟨S32x8, .f32⟩
  | .hbm, ⟨7, _⟩ => ⟨S32x1, .f32⟩
  | .hbm, ⟨8, _⟩ => ⟨S32x1, .f32⟩
  | .hbm, ⟨9, _⟩ => ⟨S32x1, .f32⟩
  | .hbm, ⟨10, _⟩ => ⟨S32x1, .f32⟩
  | .hbm, ⟨11, _⟩ => ⟨S16x512x4096, .f32⟩
  | .local _ .vmem, ⟨0, _⟩ => ⟨S1x512x4096, .f32⟩
  | .local _ .vmem, ⟨1, _⟩ => ⟨S1x512x4096, .f32⟩
  | .local _ .vmem, ⟨2, _⟩ => ⟨S32x1, .f32⟩
  | .local _ .vmem, ⟨3, _⟩ => ⟨S32x1, .f32⟩
  | .local _ .vmem, ⟨4, _⟩ => ⟨S32x1, .f32⟩
  | .local _ .vmem, ⟨5, _⟩ => ⟨S32x1, .f32⟩
  | .local _ .vmem, ⟨6, _⟩ => ⟨S32x8, .f32⟩
  | .local _ .vmem, ⟨7, _⟩ => ⟨S32x8, .f32⟩
  | .local _ .vmem, ⟨8, _⟩ => ⟨S1x512x4096, .f32⟩
  | .local _ .vmem, ⟨9, _⟩ => ⟨S1x512x4096, .f32⟩
  | .local _ .vmem, ⟨10, _⟩ => ⟨S32x8, .f32⟩
  | .local _ .vmem, ⟨11, _⟩ => ⟨S32x1, .f32⟩
  | .local _ .vmem, ⟨12, _⟩ => ⟨S32x1, .f32⟩
  | _, _ => ⟨S16x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c1024_i32 : BitVec 32 := 1024#32
  let v8 : BitVec 32 := Scalar.muli c0_i32 c1024_i32
  v8
def k0_off1 (c0_i32 : BitVec 32) : Fin 3 → Nat :=
  let c0_4 : Index := 0#32
  let c0_5 : Index := 0#32
  let c1024_i32 : BitVec 32 := 1024#32
  let v8 : BitVec 32 := Scalar.muli c0_i32 c1024_i32
  let v9 : BitVec 32 := v8
  let v10 : Index := Scalar.indexCast v9
  ![0, 0, v10.toNat]
def k0_mult2 : BitVec 32 :=
  let c1_i32 : BitVec 32 := 1#32
  let c1024_i32_17 : BitVec 32 := 1024#32
  let v30 : BitVec 32 := Scalar.muli c1_i32 c1024_i32_17
  v30
def k0_mult3 : BitVec 32 :=
  let c2_i32 : BitVec 32 := 2#32
  let c1024_i32_31 : BitVec 32 := 1024#32
  let v52 : BitVec 32 := Scalar.muli c2_i32 c1024_i32_31
  v52
def k0_mult4 : BitVec 32 :=
  let c3_i32 : BitVec 32 := 3#32
  let c1024_i32_45 : BitVec 32 := 1024#32
  let v74 : BitVec 32 := Scalar.muli c3_i32 c1024_i32_45
  v74
def k0_mult5 : BitVec 32 :=
  let c0_i32_68 : BitVec 32 := 0#32
  let c1024_i32_69 : BitVec 32 := 1024#32
  let v106 : BitVec 32 := Scalar.muli c0_i32_68 c1024_i32_69
  v106
def k0_mult6 : BitVec 32 :=
  let c1_i32_78 : BitVec 32 := 1#32
  let c1024_i32_79 : BitVec 32 := 1024#32
  let v125 : BitVec 32 := Scalar.muli c1_i32_78 c1024_i32_79
  v125
def k0_mult7 : BitVec 32 :=
  let c2_i32_88 : BitVec 32 := 2#32
  let c1024_i32_89 : BitVec 32 := 1024#32
  let v144 : BitVec 32 := Scalar.muli c2_i32_88 c1024_i32_89
  v144
def k0_mult8 : BitVec 32 :=
  let c3_i32_98 : BitVec 32 := 3#32
  let c1024_i32_99 : BitVec 32 := 1024#32
  let v163 : BitVec 32 := Scalar.muli c3_i32_98 c1024_i32_99
  v163
def k0_mult9 : BitVec 32 :=
  let c0_i32_126 : BitVec 32 := 0#32
  let c1024_i32_127 : BitVec 32 := 1024#32
  let v205 : BitVec 32 := Scalar.muli c0_i32_126 c1024_i32_127
  v205
def k0_mult10 : BitVec 32 :=
  let c1_i32_134 : BitVec 32 := 1#32
  let c1024_i32_135 : BitVec 32 := 1024#32
  let v248 : BitVec 32 := Scalar.muli c1_i32_134 c1024_i32_135
  v248
def k0_mult11 : BitVec 32 :=
  let c2_i32_142 : BitVec 32 := 2#32
  let c1024_i32_143 : BitVec 32 := 1024#32
  let v291 : BitVec 32 := Scalar.muli c2_i32_142 c1024_i32_143
  v291
def k0_mult12 : BitVec 32 :=
  let c3_i32_150 : BitVec 32 := 3#32
  let c1024_i32_151 : BitVec 32 := 1024#32
  let v334 : BitVec 32 := Scalar.muli c3_i32_150 c1024_i32_151
  v334
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32_S32x1 : S32.ShapeCasts S32x1
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S32x1_S32x1_0_0 : ∀ a, (![0, 0] : Fin 2 → Nat) a + S32x1.size a ≤ S32x1.size a
  h_S32x1 : 0 < S32x1.numel
  shapeCasts_S32x1_S32x1 : S32x1.ShapeCasts S32x1
  h_S1x512x1024 : 0 < S1x512x1024.numel
  shapeCasts_S1x512x1024_S512x1024 : S1x512x1024.ShapeCasts S512x1024
  shapeCasts_S512x1024_S32x16x1024 : S512x1024.ShapeCasts S32x16x1024
  slices_S32x16x1024_o0_0_0_S32x8x1024 : S32x16x1024.Slices ![0, 0, 0] S32x8x1024
  slices_S32x16x1024_o0_8_0_S32x8x1024 : S32x16x1024.Slices ![0, 8, 0] S32x8x1024
  reduces_S32x8x1024_S32x8 : S32x8x1024.Reduces [2] S32x8
  reduces_S32x8_S32 : S32x8.Reduces [1] S32
  shapeCasts_S32x1_S32x1x1 : S32x1.ShapeCasts S32x1x1
  broadcasts_S32x1x1_S32x8x1024 : S32x1x1.Broadcasts S32x8x1024
  broadcasts_S32x1_S32x8 : S32x1.Broadcasts S32x8
  shapeCasts_S32x8_S32x8x1 : S32x8.ShapeCasts S32x8x1
  broadcasts_S32x8x1_S32x8x1024 : S32x8x1.Broadcasts S32x8x1024
  reduces_S32x8x1024_S32x1024 : S32x8x1024.Reduces [1] S32x1024
  broadcasts_S32x1_S32x1024 : S32x1.Broadcasts S32x1024
  shapeCasts_S32x1024_S32x1x1024 : S32x1024.ShapeCasts S32x1x1024
  broadcasts_S32x1x1024_S32x8x1024 : S32x1x1024.Broadcasts S32x8x1024
  transposes_S32x8x1024_p1_0_2_S8x32x1024 : S32x8x1024.Transposes [1, 0, 2] S8x32x1024
  shapeCasts_S8x32x1024_S256x1024 : S8x32x1024.ShapeCasts S256x1024
  concatenates_S256x1024_S256x1024_S512x1024_d0 : Shape.Concatenates [S256x1024, S256x1024] S512x1024 0
  shapeCasts_S512x1024_S1x512x1024 : S512x1024.ShapeCasts S1x512x1024
  hrank0 : 0 < grid0.rank
  k0_mult1_dvd : 1024 ∣ k0_mult1.toNat
  k0_off1_inb : ∀ (r : Fin 4), ∀ a, (k0_off1 (BitVec.ofNat 32 r.val)) a + S1x512x1024.size a ≤ S1x512x4096.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  k0_mult10_dvd : 1024 ∣ k0_mult10.toNat
  k0_mult11_dvd : 1024 ∣ k0_mult11.toNat
  k0_mult12_dvd : 1024 ∣ k0_mult12.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .f32 = 32 ∨ (Rect.block (s := S16x512x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x8.size a ≤ S32x8.size a
  hwx0_5 : ∀ i : grid0.Coords, EltTy.bits .f32 = 32 ∨ (Rect.block (s := S32x8) S32x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x8.size a ≤ S32x8.size a
  hwx0_6 : ∀ i : grid0.Coords, EltTy.bits .f32 = 32 ∨ (Rect.block (s := S32x8) S32x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x4096.size a ≤ S16x512x4096.size a
  hwx0_7 : ∀ i : grid0.Coords, EltTy.bits .f32 = 32 ∨ (Rect.block (s := S16x512x4096) S1x512x4096.size (cc0_transform_7 i) (hinb0_7 i)).WholeWords (EltTy.packing .f32)

variable [Facts₀]

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x512x4096 : Shape := ⟨3, ![16, 512, 4096]⟩
abbrev S32 : Shape := ⟨1, ![32]⟩
abbrev S32x8 : Shape := ⟨2, ![32, 8]⟩
abbrev S16x32x16x4096 : Shape := ⟨4, ![16, 32, 16, 4096]⟩
abbrev S16x32x8x4096 : Shape := ⟨4, ![16, 32, 8, 4096]⟩
abbrev S_ : Shape := ⟨0, ![]⟩
abbrev S16x32x8 : Shape := ⟨3, ![16, 32, 8]⟩
abbrev S1x32x1 : Shape := ⟨3, ![1, 32, 1]⟩
abbrev S16x32x8x1 : Shape := ⟨4, ![16, 32, 8, 1]⟩
abbrev S16x32 : Shape := ⟨2, ![16, 32]⟩
abbrev S16x32x1x1 : Shape := ⟨4, ![16, 32, 1, 1]⟩
abbrev S1x32x8x1 : Shape := ⟨4, ![1, 32, 8, 1]⟩
abbrev S16x32x4096 : Shape := ⟨3, ![16, 32, 4096]⟩
abbrev S16x32x1x4096 : Shape := ⟨4, ![16, 32, 1, 4096]⟩
abbrev S16x16x32x4096 : Shape := ⟨4, ![16, 16, 32, 4096]⟩

abbrev nBuf : Space → Nat
  | .hbm => 101
  | .vmem => 0
  | .smem => 0
  | _ => 0

abbrev bufTy : (tb : Table) → Fin (tcTables nBuf tb) → BufTy
  | .hbm, ⟨0, _⟩ => ⟨S16x512x4096, .f32⟩
  | .hbm, ⟨1, _⟩ => ⟨S32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32x8, .f32⟩
  | .hbm, ⟨6, _⟩ => ⟨S32x8, .f32⟩
  | .hbm, ⟨7, _⟩ => ⟨S16x32x16x4096, .f32⟩
  | .hbm, ⟨8, _⟩ => ⟨S16x32x8x4096, .f32⟩
  | .hbm, ⟨9, _⟩ => ⟨S16x32x8x4096, .f32⟩
  | .hbm, ⟨10, _⟩ => ⟨S_, .f32⟩
  | .hbm, ⟨11, _⟩ => ⟨S16x32x8, .f32⟩
  | .hbm, ⟨12, _⟩ => ⟨S_, .f32⟩
  | .hbm, ⟨13, _⟩ => ⟨S16x32x8, .f32⟩
  | .hbm, ⟨14, _⟩ => ⟨S16x32x8, .f32⟩
  | .hbm, ⟨15, _⟩ => ⟨S1x32x1, .f32⟩
  | .hbm, ⟨16, _⟩ => ⟨S16x32x8, .f32⟩
  | .hbm, ⟨17, _⟩ => ⟨S16x32x8, .f32⟩
  | .hbm, ⟨18, _⟩ => ⟨S1x32x1, .f32⟩
  | .hbm, ⟨19, _⟩ => ⟨S16x32x8, .f32⟩
  | .hbm, ⟨20, _⟩ => ⟨S16x32x8, .f32⟩
  | .hbm, ⟨21, _⟩ => ⟨S16x32x8, .f32⟩
  | .hbm, ⟨22, _⟩ => ⟨S16x32x8, .f32⟩
  | .hbm, ⟨23, _⟩ => ⟨S_, .f32⟩
  | .hbm, ⟨24, _⟩ => ⟨S16x32x8, .f32⟩
  | .hbm, ⟨25, _⟩ => ⟨S16x32x8, .f32⟩
  | .hbm, ⟨26, _⟩ => ⟨S_, .f32⟩
  | .hbm, ⟨27, _⟩ => ⟨S16x32x8, .f32⟩
  | .hbm, ⟨28, _⟩ => ⟨S16x32x8, .f32⟩
  | .hbm, ⟨29, _⟩ => ⟨S16x32x8x1, .f32⟩
  | .hbm, ⟨30, _⟩ => ⟨S16x32x8x4096, .f32⟩
  | .hbm, ⟨31, _⟩ => ⟨S16x32x8x4096, .f32⟩
  | .hbm, ⟨32, _⟩ => ⟨S_, .f32⟩
  | .hbm, ⟨33, _⟩ => ⟨S16x32, .f32⟩
  | .hbm, ⟨34, _⟩ => ⟨S16x32x1x1, .f32⟩
  | .hbm, ⟨35, _⟩ => ⟨S_, .f32⟩
  | .hbm, ⟨36, _⟩ => ⟨S16x32x1x1, .f32⟩
  | .hbm, ⟨37, _⟩ => ⟨S16x32x1x1, .f32⟩
  | .hbm, ⟨38, _⟩ => ⟨S_, .i32⟩
  | .hbm, ⟨39, _⟩ => ⟨S_, .f32⟩
  | .hbm, ⟨40, _⟩ => ⟨S16x32, .f32⟩
  | .hbm, ⟨41, _⟩ => ⟨S16x32x1x1, .f32⟩
  | .hbm, ⟨42, _⟩ => ⟨S_, .f32⟩
  | .hbm, ⟨43, _⟩ => ⟨S16x32x1x1, .f32⟩
  | .hbm, ⟨44, _⟩ => ⟨S16x32x1x1, .f32⟩
  | .hbm, ⟨45, _⟩ => ⟨S16x32x8x4096, .f32⟩
  | .hbm, ⟨46, _⟩ => ⟨S16x32x8x4096, .f32⟩
  | .hbm, ⟨47, _⟩ => ⟨S16x32x8x4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16x32, .f32⟩
  | .hbm, ⟨53, _⟩ => ⟨S16x32x1x1, .f32⟩
  | .hbm, ⟨54, _⟩ => ⟨S16x32x1x1, .f32⟩
  | .hbm, ⟨55, _⟩ => ⟨S16x32x1x1, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S16x32x1x1, .f32⟩
  | .hbm, ⟨61, _⟩ => ⟨S16x32x1x1, .f32⟩
  | .hbm, ⟨62, _⟩ => ⟨S16x32x8x4096, .f32⟩
  | .hbm, ⟨63, _⟩ => ⟨S16x32x8x4096, .f32⟩
  | .hbm, ⟨64, _⟩ => ⟨S_, .f32⟩
  | .hbm, ⟨65, _⟩ => ⟨S16x32x1x1, .f32⟩
  | .hbm, ⟨66, _⟩ => ⟨S16x32x1x1, .f32⟩
  | .hbm, ⟨67, _⟩ => ⟨S16x32x1x1, .f32⟩
  | .hbm, ⟨68, _⟩ => ⟨S16x32x8x4096, .f32⟩
  | .hbm, ⟨69, _⟩ => ⟨S16x32x8x4096, .f32⟩
  | .hbm, ⟨70, _⟩ => ⟨S1x32x8x1, .f32⟩
  | .hbm, ⟨71, _⟩ => ⟨S16x32x8x4096, .f32⟩
  | .hbm, ⟨72, _⟩ => ⟨S16x32x8x4096, .f32⟩
  | .hbm, ⟨73, _⟩ => ⟨S1x32x8x1, .f32⟩
  | .hbm, ⟨74, _⟩ => ⟨S16x32x8x4096, .f32⟩
  | .hbm, ⟨75, _⟩ => ⟨S16x32x8x4096, .f32⟩
  | .hbm, ⟨76, _⟩ => ⟨S_, .f32⟩
  | .hbm, ⟨77, _⟩ => ⟨S16x32x4096, .f32⟩
  | .hbm, ⟨78, _⟩ => ⟨S_, .f32⟩
  | .hbm, ⟨79, _⟩ => ⟨S16x32x4096, .f32⟩
  | .hbm, ⟨80, _⟩ => ⟨S16x32x4096, .f32⟩
  | .hbm, ⟨81, _⟩ => ⟨S1x32x1, .f32⟩
  | .hbm, ⟨82, _⟩ => ⟨S16x32x4096, .f32⟩
  | .hbm, ⟨83, _⟩ => ⟨S16x32x4096, .f32⟩
  | .hbm, ⟨84, _⟩ => ⟨S1x32x1, .f32⟩
  | .hbm, ⟨85, _⟩ => ⟨S16x32x4096, .f32⟩
  | .hbm, ⟨86, _⟩ => ⟨S16x32x4096, .f32⟩
  | .hbm, ⟨87, _⟩ => ⟨S16x32x4096, .f32⟩
  | .hbm, ⟨88, _⟩ => ⟨S16x32x4096, .f32⟩
  | .hbm, ⟨89, _⟩ => ⟨S_, .f32⟩
  | .hbm, ⟨90, _⟩ => ⟨S16x32x4096, .f32⟩
  | .hbm, ⟨91, _⟩ => ⟨S16x32x4096, .f32⟩
  | .hbm, ⟨92, _⟩ => ⟨S_, .f32⟩
  | .hbm, ⟨93, _⟩ => ⟨S16x32x4096, .f32⟩
  | .hbm, ⟨94, _⟩ => ⟨S16x32x4096, .f32⟩
  | .hbm, ⟨95, _⟩ => ⟨S16x32x1x4096, .f32⟩
  | .hbm, ⟨96, _⟩ => ⟨S16x32x8x4096, .f32⟩
  | .hbm, ⟨97, _⟩ => ⟨S16x32x8x4096, .f32⟩
  | .hbm, ⟨98, _⟩ => ⟨S16x32x16x4096, .f32⟩
  | .hbm, ⟨99, _⟩ => ⟨S16x16x32x4096, .f32⟩
  | .hbm, ⟨100, _⟩ => ⟨S16x512x4096, .f32⟩
  | _, _ => ⟨S16x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_cst_3 : Ref sig .tc := ⟨.hbm, 56, rfl⟩
abbrev main_call0_v13 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_5 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_6 : Ref sig .tc := ⟨.hbm, 76, rfl⟩
abbrev main_v39 : Ref sig .tc := ⟨.hbm, 77, rfl⟩
abbrev main_cst_7 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_8 : Ref sig .tc := ⟨.hbm, 89, rfl⟩
abbrev main_v50 : Ref sig .tc := ⟨.hbm, 90, rfl⟩
abbrev main_v51 : Ref sig .tc := ⟨.hbm, 91, rfl⟩
abbrev main_cst_9 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩

abbrev nD : Nat := 1
abbrev τ : Topo := Topo.v7x

variable {F : FTy → Type} [FloatOps F]

class Facts₀ : Prop where
  shapeCasts_S16x512x4096_S16x32x16x4096 : S16x512x4096.ShapeCasts S16x32x16x4096
  slices_S16x32x16x4096_S16x32x8x4096_0_0_0_0 : S16x32x16x4096.Slices ![0, 0, 0, 0] S16x32x8x4096
  slices_S16x32x16x4096_S16x32x8x4096_0_0_8_0 : S16x32x16x4096.Slices ![0, 0, 8, 0] S16x32x8x4096
  reducesTo_S16x32x8x4096_S16x32x8_d3 : S16x32x8x4096.ReducesTo [3] S16x32x8
  h_S_ : 0 < S_.numel
  bcast_S_S16x32x8 : S_.BroadcastsInDim S16x32x8 (![] : Fin 0 → Fin S16x32x8.rank)
  bcast_S32_S1x32x1_1 : S32.BroadcastsInDim S1x32x1 (![1] : Fin 1 → Fin S1x32x1.rank)
  bcast_S1x32x1_S16x32x8_0_1_2 : S1x32x1.BroadcastsInDim S16x32x8 (![0, 1, 2] : Fin 3 → Fin S16x32x8.rank)
  bcast_S16x32x8_S16x32x8x1_0_1_2 : S16x32x8.BroadcastsInDim S16x32x8x1 (![0, 1, 2] : Fin 3 → Fin S16x32x8x1.rank)
  bcast_S16x32x8x1_S16x32x8x4096_0_1_2_3 : S16x32x8x1.BroadcastsInDim S16x32x8x4096 (![0, 1, 2, 3] : Fin 4 → Fin S16x32x8x4096.rank)
  reducesTo_S16x32x8x4096_S16x32_d2_3 : S16x32x8x4096.ReducesTo [2, 3] S16x32
  bcast_S16x32_S16x32x1x1_0_1 : S16x32.BroadcastsInDim S16x32x1x1 (![0, 1] : Fin 2 → Fin S16x32x1x1.rank)
  bcast_S_S16x32x1x1 : S_.BroadcastsInDim S16x32x1x1 (![] : Fin 0 → Fin S16x32x1x1.rank)
  bcast_S16x32x1x1_S16x32x8x4096_0_1_2_3 : S16x32x1x1.BroadcastsInDim S16x32x8x4096 (![0, 1, 2, 3] : Fin 4 → Fin S16x32x8x4096.rank)
  bcast_S32x8_S1x32x8x1_1_2 : S32x8.BroadcastsInDim S1x32x8x1 (![1, 2] : Fin 2 → Fin S1x32x8x1.rank)
  bcast_S1x32x8x1_S16x32x8x4096_0_1_2_3 : S1x32x8x1.BroadcastsInDim S16x32x8x4096 (![0, 1, 2, 3] : Fin 4 → Fin S16x32x8x4096.rank)
  reducesTo_S16x32x8x4096_S16x32x4096_d2 : S16x32x8x4096.ReducesTo [2] S16x32x4096
  bcast_S_S16x32x4096 : S_.BroadcastsInDim S16x32x4096 (![] : Fin 0 → Fin S16x32x4096.rank)
  bcast_S1x32x1_S16x32x4096_0_1_2 : S1x32x1.BroadcastsInDim S16x32x4096 (![0, 1, 2] : Fin 3 → Fin S16x32x4096.rank)
  bcast_S16x32x4096_S16x32x1x4096_0_1_3 : S16x32x4096.BroadcastsInDim S16x32x1x4096 (![0, 1, 3] : Fin 3 → Fin S16x32x1x4096.rank)
  bcast_S16x32x1x4096_S16x32x8x4096_0_1_2_3 : S16x32x1x4096.BroadcastsInDim S16x32x8x4096 (![0, 1, 2, 3] : Fin 4 → Fin S16x32x8x4096.rank)
  concatenates_S16x32x8x4096_S16x32x8x4096_S16x32x16x4096_d2 : Shape.Concatenates [S16x32x8x4096, S16x32x8x4096] S16x32x16x4096 2
  transposes_S16x32x16x4096_S16x16x32x4096_0_2_1_3 : S16x32x16x4096.Transposes [0, 2, 1, 3] S16x16x32x4096
  shapeCasts_S16x16x32x4096_S16x512x4096 : S16x16x32x4096.ShapeCasts S16x512x4096

variable [Facts₀]

class Facts : Prop extends Facts₀ where

variable [Facts]
-- ==== Proof.KernelForms.lean ====
/-
  The layout steps of one chunk of the kernel body, read at an entry.

  A chunk is a [1, 512, 1024] piece of a sample: 1024 positions of all 512 channels. The body views it as
  [32, 16, 1024] (channel g·16 + k is slot k of group g), cuts it at slot offsets 0 and 8 into two [32, 8, 1024]
  halves, repeats per-group and per-slot factors over a half, sums a half over its 8 slots, and at the end lays
  the two gated halves out as [8·32, 1024] each (row h·32 + g holds slot h of group g), one above the other.
-/
import proofs.«147669_j46557445489505_2_alg».proof.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Forms

open Cert.KernelIdeal Idealize.ShloMosaic Idealize.ShloMosaic.ValueIdx

variable {α : Type}

/-- A half of a chunk at (g, h, l) is the chunk at channel g·16 + o + h, where o is the half's slot offset. -/
theorem half_apply (v : S1x512x1024.Idx → α) (h1 : S1x512x1024.ShapeCasts S512x1024)
    (h2 : S512x1024.ShapeCasts S32x16x1024) (o : Nat) (hs : S32x16x1024.Slices ![0, o, 0] S32x8x1024)
    (g : Fin 32) (h : Fin 8) (l : Fin 1024) (r : Fin 512) (hr : r.val = g.val * 16 + (o + h.val)) (ho : o + h.val < 16) :
    extractStridedSlice S32x8x1024 ![0, o, 0] (shapeCast S32x16x1024 (shapeCast S512x1024 v h1) h2) hs (ix3 g h l)
      = v (ix3 (0 : Fin 1) r l) := by
  refine (extractStridedSlice_apply _ _ hs (ix3 g h l) (ix3 g (⟨o + h.val, ho⟩ : Fin 16) l) ?_).trans ?_
  · intro a
    match a with
    | ⟨0, _⟩ => show g.val = 0 + g.val; omega
    | ⟨1, _⟩ => rfl
    | ⟨2, _⟩ => show l.val = 0 + l.val; omega
  refine (shapeCast_apply _ h2 (ix3 g (⟨o + h.val, ho⟩ : Fin 16) l) (ix2 r l) ?_).trans ?_
  · rw [Shape.rowMajor_val_two, Shape.rowMajor_val_three]
    show r.val * 1024 + l.val = (g.val * 16 + (o + h.val)) * 1024 + l.val
    rw [hr]
  refine shapeCast_apply _ h1 (ix2 r l) (ix3 (0 : Fin 1) r l) ?_
  rw [Shape.rowMajor_val_two, Shape.rowMajor_val_three]
  show ((0 : Fin 1).val * 512 + r.val) * 1024 + l.val = r.val * 1024 + l.val
  simp

/-- A per-group column [32, 1] repeated over a half. -/
theorem group_over_half (v : S32x1.Idx → α) (h1 : S32x1.ShapeCasts S32x1x1) (h2 : S32x1x1.Broadcasts S32x8x1024)
    (g : Fin 32) (h : Fin 8) (l : Fin 1024) :
    broadcastTo S32x8x1024 (shapeCast S32x1x1 v h1) h2 (ix3 g h l) = v (ix2 g (0 : Fin 1)) := by
  refine (broadcastTo_apply _ h2 (ix3 g h l) (ix3 g (0 : Fin 1) (0 : Fin 1)) ?_).trans ?_
  · intro a
    match a with
    | ⟨0, _⟩ => rfl
    | ⟨1, _⟩ => rfl
    | ⟨2, _⟩ => rfl
  refine shapeCast_apply _ h1 (ix3 g (0 : Fin 1) (0 : Fin 1)) (ix2 g (0 : Fin 1)) ?_
  rw [Shape.rowMajor_val_two, Shape.rowMajor_val_three]
  show g.val * 1 + (0 : Fin 1).val = (g.val * 1 + (0 : Fin 1).val) * 1 + (0 : Fin 1).val
  simp

/-- A per-group-per-slot matrix [32, 8] repeated along the positions of a half. -/
theorem slot_over_half (v : S32x8.Idx → α) (h1 : S32x8.ShapeCasts S32x8x1) (h2 : S32x8x1.Broadcasts S32x8x1024)
    (g : Fin 32) (h : Fin 8) (l : Fin 1024) :
    broadcastTo S32x8x1024 (shapeCast S32x8x1 v h1) h2 (ix3 g h l) = v (ix2 g h) := by
  refine (broadcastTo_apply _ h2 (ix3 g h l) (ix3 g h (0 : Fin 1)) ?_).trans ?_
  · intro a
    match a with
    | ⟨0, _⟩ => rfl
    | ⟨1, _⟩ => rfl
    | ⟨2, _⟩ => rfl
  refine shapeCast_apply _ h1 (ix3 g h (0 : Fin 1)) (ix2 g h) ?_
  rw [Shape.rowMajor_val_two, Shape.rowMajor_val_three]
  show g.val * 8 + h.val = (g.val * 8 + h.val) * 1 + (0 : Fin 1).val
  simp

/-- The same, when the matrix has already been given its unit last axis. -/
theorem slot1_over_half (v : S32x8x1.Idx → α) (h2 : S32x8x1.Broadcasts S32x8x1024)
    (g : Fin 32) (h : Fin 8) (l : Fin 1024) :
    broadcastTo S32x8x1024 v h2 (ix3 g h l) = v (ix3 g h (0 : Fin 1)) := by
  refine broadcastTo_apply _ h2 (ix3 g h l) (ix3 g h (0 : Fin 1)) ?_
  intro a
  match a with
  | ⟨0, _⟩ => rfl
  | ⟨1, _⟩ => rfl
  | ⟨2, _⟩ => rfl

/-- A [32, 8] matrix given a unit last axis, read back. -/
theorem slot_unit (v : S32x8.Idx → α) (h1 : S32x8.ShapeCasts S32x8x1) (g : Fin 32) (h : Fin 8) :
    shapeCast S32x8x1 v h1 (ix3 g h (0 : Fin 1)) = v (ix2 g h) := by
  refine shapeCast_apply _ h1 (ix3 g h (0 : Fin 1)) (ix2 g h) ?_
  rw [Shape.rowMajor_val_two, Shape.rowMajor_val_three]
  show g.val * 8 + h.val = (g.val * 8 + h.val) * 1 + (0 : Fin 1).val
  simp

/-- A per-group column [32, 1] repeated along the positions of a [32, 1024] tile. -/
theorem group_over_tile (v : S32x1.Idx → α) (h2 : S32x1.Broadcasts S32x1024) (g : Fin 32) (l : Fin 1024) :
    broadcastTo S32x1024 v h2 (ix2 g l) = v (ix2 g (0 : Fin 1)) := by
  refine broadcastTo_apply _ h2 (ix2 g l) (ix2 g (0 : Fin 1)) ?_
  intro a
  match a with
  | ⟨0, _⟩ => rfl
  | ⟨1, _⟩ => rfl

/-- A [32, 1024] tile repeated over the 8 slots of a half. -/
theorem tile_over_half (v : S32x1024.Idx → α) (h1 : S32x1024.ShapeCasts S32x1x1024) (h2 : S32x1x1024.Broadcasts S32x8x1024)
    (g : Fin 32) (h : Fin 8) (l : Fin 1024) :
    broadcastTo S32x8x1024 (shapeCast S32x1x1024 v h1) h2 (ix3 g h l) = v (ix2 g l) := by
  refine (broadcastTo_apply _ h2 (ix3 g h l) (ix3 g (0 : Fin 1) l) ?_).trans ?_
  · intro a
    match a with
    | ⟨0, _⟩ => rfl
    | ⟨1, _⟩ => rfl
    | ⟨2, _⟩ => rfl
  refine shapeCast_apply _ h1 (ix3 g (0 : Fin 1) l) (ix2 g l) ?_
  rw [Shape.rowMajor_val_two, Shape.rowMajor_val_three]
  show g.val * 1024 + l.val = (g.val * 1 + (0 : Fin 1).val) * 1024 + l.val
  simp

/-- The sum of a half over its 8 slots, on the extended reals. -/
theorem slot_sum (v : FVec Ideal S32x8x1024 .f32) (hr : S32x8x1024.Reduces [1] S32x1024)
    (hφ : FKind.Formats .f32) (hacc : (0x00000000#32 : BitVec 32) = 0x00000000#32) (g : Fin 32) (l : Fin 1024) :
    multiReduction .add [1] S32x1024 v 0x00000000#32 hr hφ hacc (ix2 g l) = ∑ h : Fin 8, v (ix3 g h l) := by
  refine (Ideal.multiReduction_add_single v 0x00000000#32 hr hφ hacc (ix2 g l)).trans ?_
  refine Finset.sum_congr rfl fun k _ => congrArg v (funext fun a => ?_)
  match a with
  | ⟨0, _⟩ => exact Fin.ext rfl
  | ⟨1, _⟩ => exact Fin.ext rfl
  | ⟨2, _⟩ => exact Fin.ext rfl

/-- The shuffled layout of the two gated halves: row r < 256 of the result holds slot r / 32 of group r % 32 of the
    first half, row 256 + r' slot r' / 32 of group r' % 32 of the second. -/
theorem shuffled_lo (a b : S32x8x1024.Idx → α) (ht : S32x8x1024.Transposes [1, 0, 2] S8x32x1024)
    (hc : S8x32x1024.ShapeCasts S256x1024) (hcat : Shape.Concatenates [S256x1024, S256x1024] S512x1024 0)
    (h1 : S512x1024.ShapeCasts S1x512x1024) (r : Fin 512) (l : Fin 1024) (hr : r.val < 256) (g : Fin 32) (h : Fin 8)
    (hg : r.val = h.val * 32 + g.val) :
    shapeCast S1x512x1024 (concatenate S512x1024 0 [⟨S256x1024, shapeCast S256x1024 (transpose S8x32x1024 [1, 0, 2] a ht) hc⟩,
      ⟨S256x1024, shapeCast S256x1024 (transpose S8x32x1024 [1, 0, 2] b ht) hc⟩] hcat) h1 (ix3 (0 : Fin 1) r l)
      = a (ix3 g h l) := by
  refine (shapeCast_apply _ h1 (ix3 (0 : Fin 1) r l) (ix2 r l) ?_).trans ?_
  · rw [Shape.rowMajor_val_two, Shape.rowMajor_val_three]
    show r.val * 1024 + l.val = ((0 : Fin 1).val * 512 + r.val) * 1024 + l.val
    simp
  refine (concatenate_pair_apply_left (t := S512x1024) (s₁ := S256x1024) (s₂ := S256x1024) (0 : Fin 2) _ _ hcat (ix2 r l) rfl (ix2 (⟨r.val, hr⟩ : Fin 256) l) ?_).trans ?_
  · intro c
    match c with
    | ⟨0, _⟩ => rfl
    | ⟨1, _⟩ => rfl
  refine (shapeCast_apply _ hc (ix2 (⟨r.val, hr⟩ : Fin 256) l) (ix3 h g l) ?_).trans ?_
  · rw [Shape.rowMajor_val_two, Shape.rowMajor_val_three]
    show (h.val * 32 + g.val) * 1024 + l.val = r.val * 1024 + l.val
    rw [hg]
  refine transpose_apply _ a ht (ix3 h g l) (ix3 g h l) ?_
  intro c
  match c with
  | ⟨0, _⟩ => rfl
  | ⟨1, _⟩ => rfl
  | ⟨2, _⟩ => rfl

theorem shuffled_hi (a b : S32x8x1024.Idx → α) (ht : S32x8x1024.Transposes [1, 0, 2] S8x32x1024)
    (hc : S8x32x1024.ShapeCasts S256x1024) (hcat : Shape.Concatenates [S256x1024, S256x1024] S512x1024 0)
    (h1 : S512x1024.ShapeCasts S1x512x1024) (r : Fin 512) (l : Fin 1024) (hr : 256 ≤ r.val) (g : Fin 32) (h : Fin 8)
    (hg : r.val = 256 + h.val * 32 + g.val) :
    shapeCast S1x512x1024 (concatenate S512x1024 0 [⟨S256x1024, shapeCast S256x1024 (transpose S8x32x1024 [1, 0, 2] a ht) hc⟩,
      ⟨S256x1024, shapeCast S256x1024 (transpose S8x32x1024 [1, 0, 2] b ht) hc⟩] hcat) h1 (ix3 (0 : Fin 1) r l)
      = b (ix3 g h l) := by
  refine (shapeCast_apply _ h1 (ix3 (0 : Fin 1) r l) (ix2 r l) ?_).trans ?_
  · rw [Shape.rowMajor_val_two, Shape.rowMajor_val_three]
    show r.val * 1024 + l.val = ((0 : Fin 1).val * 512 + r.val) * 1024 + l.val
    simp
  have hr' : r.val - 256 < 256 := by have := r.isLt; omega
  refine (concatenate_pair_apply_right (t := S512x1024) (s₁ := S256x1024) (s₂ := S256x1024) (0 : Fin 2) _ _ hcat (ix2 r l) rfl rfl (ix2 (⟨r.val - 256, hr'⟩ : Fin 256) l) ?_ ?_).trans ?_
  · intro c hc0
    match c with
    | ⟨0, _⟩ => exact absurd rfl hc0
    | ⟨1, _⟩ => rfl
  · show (r.val - 256) + 256 = r.val
    omega
  refine (shapeCast_apply _ hc (ix2 (⟨r.val - 256, hr'⟩ : Fin 256) l) (ix3 h g l) ?_).trans ?_
  · rw [Shape.rowMajor_val_two, Shape.rowMajor_val_three]
    show (h.val * 32 + g.val) * 1024 + l.val = (r.val - 256) * 1024 + l.val
    have : r.val - 256 = h.val * 32 + g.val := by omega
    rw [this]
  refine transpose_apply _ b ht (ix3 h g l) (ix3 g h l) ?_
  intro c
  match c with
  | ⟨0, _⟩ => rfl
  | ⟨1, _⟩ => rfl
  | ⟨2, _⟩ => rfl

end Cert.KernelIdeal.Forms

end
-- ==== Proof.GroupGate.lean ====
/-
  The function both programs compute, on the extended reals, entry by entry.

  The input x has 16 samples of 512 channels of length 4096. The 512 channels are 32 groups of 16 consecutive
  channels: channel g·16 + k is slot k of group g. Slots 0..7 of a group are gated per channel, slots 8..15 per
  position:

  * slot h < 8 of group g is multiplied by logistic (mean over the length of that channel · cw_w g + cw_b g);
  * slots 8..15 of group g are normalised together — mean mu and variance var over the 8 slots and the whole
    length, the variance being the mean of the squared deviations from mu —, scaled and shifted per slot by gn_w, gn_b,
    averaged over the 8 slots at each position, and slot 8 + h at position l is multiplied by
    logistic (that average · sw_w g + sw_b g).

  The result is shuffled: slot k of group g lands in channel k·32 + g.

  Every literal is kept as the float word both programs print (never evaluated): 4096, 32768, 8 and the epsilon.
-/
import Idealize.ShloMosaic.PureOps.Ideal
import Idealize.ShloMosaic.Lib.ValueIdx

noncomputable section

namespace Cert.GroupGate

open Idealize.ShloMosaic Idealize.ShloMosaic.ValueIdx
open scoped BigOperators

/-- The input array, the four per-group vectors' type, and the two per-group-per-slot matrices' type. -/
abbrev Arr3 := (⟨3, ![16, 512, 4096]⟩ : Shape).Idx → EReal
abbrev Vec32 := (⟨1, ![32]⟩ : Shape).Idx → EReal
abbrev Mat32x8 := (⟨2, ![32, 8]⟩ : Shape).Idx → EReal

/-- The length 4096, the count 8·4096 = 32768, the slot count 8 and the epsilon, as the words the programs print. -/
def len : EReal := Ideal.ofBits .f32 0x45800000#32
def cnt : EReal := Ideal.ofBits .f32 0x47000000#32
def eight : EReal := Ideal.ofBits .f32 0x41000000#32
def eps : EReal := Ideal.ofBits .f32 0x3727C5AC#32

/-- Channel of slot k of group g in the input: g·16 + k. -/
def chan (g : Fin 32) (k : Fin 16) : Fin 512 := ⟨g.val * 16 + k.val, by omega⟩

/-- Slot h of the first half, and slot 8 + h of the second half. -/
def lo (h : Fin 8) : Fin 16 := ⟨h.val, by omega⟩
def hi (h : Fin 8) : Fin 16 := ⟨8 + h.val, by omega⟩

/-- Mean over the length of channel (g, slot h) of sample b. -/
def chanMean (x : Arr3) (b : Fin 16) (g : Fin 32) (h : Fin 8) : EReal :=
  Ideal.div (∑ l : Fin 4096, x (ix3 b (chan g (lo h)) l)) len

/-- The per-channel gate of the first half. -/
def gate1 (x : Arr3) (cww cwb : Vec32) (b : Fin 16) (g : Fin 32) (h : Fin 8) : EReal :=
  Ideal.logistic (chanMean x b g h * cww (ix1 g) + cwb (ix1 g))

/-- Mean of the second half of group g of sample b over its 8 slots and the whole length. -/
def mu (x : Arr3) (b : Fin 16) (g : Fin 32) : EReal :=
  Ideal.div (∑ h : Fin 8, ∑ l : Fin 4096, x (ix3 b (chan g (hi h)) l)) cnt

/-- Its variance: the mean of the squared deviations from `mu`. -/
def var (x : Arr3) (b : Fin 16) (g : Fin 32) : EReal :=
  Ideal.div (∑ h : Fin 8, ∑ l : Fin 4096,
    (x (ix3 b (chan g (hi h)) l) - mu x b g) * (x (ix3 b (chan g (hi h)) l) - mu x b g)) cnt

/-- 1 / sqrt (var + eps). -/
def invStd (x : Arr3) (b : Fin 16) (g : Fin 32) : EReal := Ideal.rsqrt (var x b g + eps)

/-- The normalised, scaled and shifted entry of slot 8 + h at position l. -/
def normed (x : Arr3) (gnw gnb : Mat32x8) (b : Fin 16) (g : Fin 32) (h : Fin 8) (l : Fin 4096) : EReal :=
  (x (ix3 b (chan g (hi h)) l) - mu x b g) * invStd x b g * gnw (ix2 g h) + gnb (ix2 g h)

/-- Its mean over the 8 slots at position l. -/
def posMean (x : Arr3) (gnw gnb : Mat32x8) (b : Fin 16) (g : Fin 32) (l : Fin 4096) : EReal :=
  Ideal.div (∑ h : Fin 8, normed x gnw gnb b g h l) eight

/-- The per-position gate of the second half. -/
def gate2 (x : Arr3) (sww swb : Vec32) (gnw gnb : Mat32x8) (b : Fin 16) (g : Fin 32) (l : Fin 4096) : EReal :=
  Ideal.logistic (posMean x gnw gnb b g l * sww (ix1 g) + swb (ix1 g))

/-- The gated entry of slot k of group g. -/
def gated (x : Arr3) (cww cwb sww swb : Vec32) (gnw gnb : Mat32x8) (b : Fin 16) (g : Fin 32) (k : Fin 16)
    (l : Fin 4096) : EReal :=
  if hk : k.val < 8 then x (ix3 b (chan g k) l) * gate1 x cww cwb b g ⟨k.val, hk⟩
  else x (ix3 b (chan g k) l) * gate2 x sww swb gnw gnb b g l

/-- The result at sample b, output channel r, position l: output channel r holds slot r / 32 of group r % 32. -/
def outAt (x : Arr3) (cww cwb sww swb : Vec32) (gnw gnb : Mat32x8) (b : Fin 16) (r : Fin 512) (l : Fin 4096) : EReal :=
  gated x cww cwb sww swb gnw gnb b ⟨r.val % 32, Nat.mod_lt _ (by norm_num)⟩ ⟨r.val / 32, by omega⟩ l

/-- The whole result array. -/
def out (x : Arr3) (cww cwb sww swb : Vec32) (gnw gnb : Mat32x8) : Arr3 :=
  fun i => outAt x cww cwb sww swb gnw gnb (i 0) (i 1) (i 2)

theorem out_ix3 (x : Arr3) (cww cwb sww swb : Vec32) (gnw gnb : Mat32x8) (b : Fin 16) (r : Fin 512) (l : Fin 4096) :
    out x cww cwb sww swb gnw gnb (ix3 b r l) = outAt x cww cwb sww swb gnw gnb b r l := rfl

end Cert.GroupGate

end
-- ==== Proof.KernelChunk.lean ====
/-
  What the kernel body stores for one chunk of 1024 positions, entry by entry, as a function of the chunk and of
  the statistics computed before it: the group mean, the inverse standard deviation, the first gate, and the
  scale, shift and second-gate parameters. The body's four stores compute this same function; they are printed
  with different intermediate values named, so each is read on its own.
-/
import proofs.«147669_j46557445489505_2_alg».proof.Proof.Gen.KernelIdeal.Skeleton
import proofs.«147669_j46557445489505_2_alg».proof.Proof.KernelForms
import proofs.«147669_j46557445489505_2_alg».proof.Proof.GroupGate

noncomputable section

namespace Cert.KernelIdeal.Chunk

open Cert.KernelIdeal Cert.KernelIdeal.Gen Cert.KernelIdeal.Forms Cert.GroupGate
open Idealize.ShloMosaic Idealize.ShloMosaic.ValueIdx

/-- Output row r holds group r % 32; -/
def grp (r : Fin 512) : Fin 32 := ⟨r.val % 32, Nat.mod_lt _ (by norm_num)⟩
/-- in the upper half of the rows, slot r / 32 of the first half of the group; -/
def slotLo (r : Fin 512) (hr : r.val < 256) : Fin 8 := ⟨r.val / 32, by omega⟩
/-- in the lower half, slot (r - 256) / 32 of the second half. -/
def slotHi (r : Fin 512) (hr : 256 ≤ r.val) : Fin 8 := ⟨(r.val - 256) / 32, by have := r.isLt; omega⟩

/-- The second gate of a chunk at group g, position l: the logistic of the mean over the 8 slots of the
    normalised, scaled and shifted entries, times sw_w plus sw_b. -/
def gate2c (xc : S1x512x1024.Idx → EReal) (muv inv : S32x1.Idx → EReal) (gnw gnb : S32x8.Idx → EReal)
    (sww swb : S32x1.Idx → EReal) (g : Fin 32) (l : Fin 1024) : EReal :=
  Ideal.logistic (Ideal.div (∑ h : Fin 8, ((xc (ix3 (0 : Fin 1) (chan g (hi h)) l) - muv (ix2 g (0 : Fin 1)))
      * inv (ix2 g (0 : Fin 1)) * gnw (ix2 g h) + gnb (ix2 g h))) (Ideal.ofBits .f32 0x41000000#32)
    * sww (ix2 g (0 : Fin 1)) + swb (ix2 g (0 : Fin 1)))

/-- What the body stores at row r, position l of a chunk. -/
def chunkOut (xc : S1x512x1024.Idx → EReal) (muv inv : S32x1.Idx → EReal) (w1 gnw gnb : S32x8.Idx → EReal)
    (sww swb : S32x1.Idx → EReal) (r : Fin 512) (l : Fin 1024) : EReal :=
  if hr : r.val < 256 then
    xc (ix3 (0 : Fin 1) (chan (grp r) (lo (slotLo r hr))) l) * w1 (ix2 (grp r) (slotLo r hr))
  else
    xc (ix3 (0 : Fin 1) (chan (grp r) (hi (slotHi r (not_lt.mp hr)))) l)
      * gate2c xc muv inv gnw gnb sww swb (grp r) l

variable {α : Type}

theorem half_lo (v : S1x512x1024.Idx → α) (h1 : S1x512x1024.ShapeCasts S512x1024)
    (h2 : S512x1024.ShapeCasts S32x16x1024) (hs : S32x16x1024.Slices ![0, 0, 0] S32x8x1024)
    (g : Fin 32) (h : Fin 8) (l : Fin 1024) :
    extractStridedSlice S32x8x1024 ![0, 0, 0] (shapeCast S32x16x1024 (shapeCast S512x1024 v h1) h2) hs (ix3 g h l)
      = v (ix3 (0 : Fin 1) (chan g (lo h)) l) :=
  half_apply v h1 h2 0 hs g h l (chan g (lo h)) (by show g.val * 16 + h.val = g.val * 16 + (0 + h.val); omega) (by omega)

theorem half_hi (v : S1x512x1024.Idx → α) (h1 : S1x512x1024.ShapeCasts S512x1024)
    (h2 : S512x1024.ShapeCasts S32x16x1024) (hs : S32x16x1024.Slices ![0, 8, 0] S32x8x1024)
    (g : Fin 32) (h : Fin 8) (l : Fin 1024) :
    extractStridedSlice S32x8x1024 ![0, 8, 0] (shapeCast S32x16x1024 (shapeCast S512x1024 v h1) h2) hs (ix3 g h l)
      = v (ix3 (0 : Fin 1) (chan g (hi h)) l) :=
  half_apply v h1 h2 8 hs g h l (chan g (hi h)) rfl (by omega)

theorem rows_lo (a b : S32x8x1024.Idx → α) (ht : S32x8x1024.Transposes [1, 0, 2] S8x32x1024)
    (hc : S8x32x1024.ShapeCasts S256x1024) (hcat : Shape.Concatenates [S256x1024, S256x1024] S512x1024 0)
    (h1 : S512x1024.ShapeCasts S1x512x1024) (r : Fin 512) (l : Fin 1024) (hr : r.val < 256) :
    shapeCast S1x512x1024 (concatenate S512x1024 0 [⟨S256x1024, shapeCast S256x1024 (transpose S8x32x1024 [1, 0, 2] a ht) hc⟩,
      ⟨S256x1024, shapeCast S256x1024 (transpose S8x32x1024 [1, 0, 2] b ht) hc⟩] hcat) h1 (ix3 (0 : Fin 1) r l)
      = a (ix3 (grp r) (slotLo r hr) l) :=
  shuffled_lo a b ht hc hcat h1 r l hr (grp r) (slotLo r hr) (by show r.val = r.val / 32 * 32 + r.val % 32; omega)

theorem rows_hi (a b : S32x8x1024.Idx → α) (ht : S32x8x1024.Transposes [1, 0, 2] S8x32x1024)
    (hc : S8x32x1024.ShapeCasts S256x1024) (hcat : Shape.Concatenates [S256x1024, S256x1024] S512x1024 0)
    (h1 : S512x1024.ShapeCasts S1x512x1024) (r : Fin 512) (l : Fin 1024) (hr : 256 ≤ r.val) :
    shapeCast S1x512x1024 (concatenate S512x1024 0 [⟨S256x1024, shapeCast S256x1024 (transpose S8x32x1024 [1, 0, 2] a ht) hc⟩,
      ⟨S256x1024, shapeCast S256x1024 (transpose S8x32x1024 [1, 0, 2] b ht) hc⟩] hcat) h1 (ix3 (0 : Fin 1) r l)
      = b (ix3 (grp r) (slotHi r hr) l) :=
  shuffled_hi a b ht hc hcat h1 r l hr (grp r) (slotHi r hr)
    (by show r.val = 256 + (r.val - 256) / 32 * 32 + r.val % 32; omega)

/-- The first chunk's store: everything from the chunk and the statistics. -/
theorem pay30_apply (muv inv : FVec Ideal S32x1 .f32) (w1 : FVec Ideal S32x8 .f32) (gnw gnb : Vec Ideal S32x8 .f32)
    (sww swb : FVec Ideal S32x1 .f32) (xc : Vec Ideal S1x512x1024 .f32) (r : Fin 512) (l : Fin 1024) :
    k0_pay30 (F := Ideal) muv inv w1 gnw gnb sww swb xc (ix3 (0 : Fin 1) r l)
      = chunkOut xc muv inv w1 gnw gnb sww swb r l := by
  unfold k0_pay30 chunkOut gate2c
  by_cases hr : r.val < 256
  · rw [dif_pos hr, rows_lo _ _ _ _ _ _ r l hr]
    simp only [mulf_apply, half_lo, slot_over_half]
  · rw [dif_neg hr, rows_hi _ _ _ _ _ _ r l (not_lt.mp hr)]
    simp only [mulf_apply, addf_apply, divf_apply, half_hi, tile_over_half, group_over_tile, broadcast_apply, logistic,
      Ideal.logistic_def, Ideal.ofBits_def]
    refine congrArg (fun s : EReal => xc (ix3 (0 : Fin 1) (chan (grp r) (hi (slotHi r (not_lt.mp hr)))) l)
      * Ideal.logistic (Ideal.div s (Ideal.ofBits .f32 0x41000000#32) * sww (ix2 (grp r) (0 : Fin 1))
        + swb (ix2 (grp r) (0 : Fin 1)))) ?_
    refine (slot_sum _ _ _ _ (grp r) l).trans ?_
    simp only [mulf_apply, addf_apply, subf_apply, half_hi, slot_over_half, group_over_half]

/-- The second chunk's store: the two halves and the first gate's column are handed in already cut. -/
theorem pay35_apply (muv inv : FVec Ideal S32x1 .f32) (w1 : FVec Ideal S32x8 .f32) (gnw gnb : Vec Ideal S32x8 .f32)
    (sww swb : FVec Ideal S32x1 .f32) (xc : Vec Ideal S1x512x1024 .f32) (r : Fin 512) (l : Fin 1024) :
    k0_pay35 (F := Ideal) muv inv gnw gnb sww swb (k0_pay32 xc) (k0_pay33 xc) (k0_pay34 w1) (ix3 (0 : Fin 1) r l)
      = chunkOut xc muv inv w1 gnw gnb sww swb r l := by
  unfold k0_pay35 k0_pay32 k0_pay33 k0_pay31 k0_pay34 chunkOut gate2c
  by_cases hr : r.val < 256
  · rw [dif_pos hr, rows_lo _ _ _ _ _ _ r l hr]
    simp only [mulf_apply, half_lo, slot_over_half]
  · rw [dif_neg hr, rows_hi _ _ _ _ _ _ r l (not_lt.mp hr)]
    simp only [mulf_apply, addf_apply, divf_apply, half_hi, tile_over_half, group_over_tile, broadcast_apply, logistic,
      Ideal.logistic_def, Ideal.ofBits_def]
    refine congrArg (fun s : EReal => xc (ix3 (0 : Fin 1) (chan (grp r) (hi (slotHi r (not_lt.mp hr)))) l)
      * Ideal.logistic (Ideal.div s (Ideal.ofBits .f32 0x41000000#32) * sww (ix2 (grp r) (0 : Fin 1))
        + swb (ix2 (grp r) (0 : Fin 1)))) ?_
    refine (slot_sum _ _ _ _ (grp r) l).trans ?_
    simp only [mulf_apply, addf_apply, subf_apply, half_hi, slot_over_half, group_over_half]

/-- The third chunk's store: the gated first half and the centred, scaled second half are handed in. -/
theorem pay40_apply (muv inv : FVec Ideal S32x1 .f32) (w1 : FVec Ideal S32x8 .f32) (gnw gnb : Vec Ideal S32x8 .f32)
    (sww swb : FVec Ideal S32x1 .f32) (xc : Vec Ideal S1x512x1024 .f32) (r : Fin 512) (l : Fin 1024) :
    k0_pay40 (F := Ideal) gnw gnb sww swb (k0_pay37 xc) (k0_pay38 w1 xc) (k0_pay39 muv inv xc) (ix3 (0 : Fin 1) r l)
      = chunkOut xc muv inv w1 gnw gnb sww swb r l := by
  unfold k0_pay40 k0_pay39 k0_pay38 k0_pay37 k0_pay36 chunkOut gate2c
  by_cases hr : r.val < 256
  · rw [dif_pos hr, rows_lo _ _ _ _ _ _ r l hr]
    simp only [mulf_apply, half_lo, slot_over_half]
  · rw [dif_neg hr, rows_hi _ _ _ _ _ _ r l (not_lt.mp hr)]
    simp only [mulf_apply, addf_apply, divf_apply, half_hi, tile_over_half, group_over_tile, broadcast_apply, logistic,
      Ideal.logistic_def, Ideal.ofBits_def]
    refine congrArg (fun s : EReal => xc (ix3 (0 : Fin 1) (chan (grp r) (hi (slotHi r (not_lt.mp hr)))) l)
      * Ideal.logistic (Ideal.div s (Ideal.ofBits .f32 0x41000000#32) * sww (ix2 (grp r) (0 : Fin 1))
        + swb (ix2 (grp r) (0 : Fin 1)))) ?_
    refine (slot_sum _ _ _ _ (grp r) l).trans ?_
    simp only [mulf_apply, addf_apply, subf_apply, half_hi, slot_over_half, group_over_half]

/-- The fourth chunk's store: the gated first half and the sum over the 8 slots are handed in. -/
theorem pay1_apply (muv inv : FVec Ideal S32x1 .f32) (w1 : FVec Ideal S32x8 .f32) (gnw gnb : Vec Ideal S32x8 .f32)
    (sww swb : FVec Ideal S32x1 .f32) (xc : Vec Ideal S1x512x1024 .f32) (r : Fin 512) (l : Fin 1024) :
    k0_pay1 (F := Ideal) sww swb (k0_pay42 xc) (k0_pay43 w1 xc) (k0_pay44 muv inv gnw gnb xc) (ix3 (0 : Fin 1) r l)
      = chunkOut xc muv inv w1 gnw gnb sww swb r l := by
  unfold k0_pay1 k0_pay44 k0_pay43 k0_pay42 k0_pay41 chunkOut gate2c
  by_cases hr : r.val < 256
  · rw [dif_pos hr, rows_lo _ _ _ _ _ _ r l hr]
    simp only [mulf_apply, half_lo, slot_over_half]
  · rw [dif_neg hr, rows_hi _ _ _ _ _ _ r l (not_lt.mp hr)]
    simp only [mulf_apply, addf_apply, divf_apply, half_hi, tile_over_half, group_over_tile, broadcast_apply, logistic,
      Ideal.logistic_def, Ideal.ofBits_def]
    refine congrArg (fun s : EReal => xc (ix3 (0 : Fin 1) (chan (grp r) (hi (slotHi r (not_lt.mp hr)))) l)
      * Ideal.logistic (Ideal.div s (Ideal.ofBits .f32 0x41000000#32) * sww (ix2 (grp r) (0 : Fin 1))
        + swb (ix2 (grp r) (0 : Fin 1)))) ?_
    refine (slot_sum _ _ _ _ (grp r) l).trans ?_
    simp only [mulf_apply, addf_apply, subf_apply, half_hi, slot_over_half, group_over_half]

/-- With the chunk a run of 1024 positions of sample b of the whole input, and the statistics and parameters the
    specification's, what the body stores for the chunk is the specification's result there. -/
theorem chunkOut_eq (X : Arr3) (cww cwb sww' swb' : Vec32) (gnw' gnb' : Mat32x8) (b : Fin 16) (j : Fin 4)
    (xc : S1x512x1024.Idx → EReal) (muv inv : S32x1.Idx → EReal) (w1 gnw gnb : S32x8.Idx → EReal)
    (sww swb : S32x1.Idx → EReal)
    (hxc : ∀ (ch : Fin 512) (l' : Fin 1024), xc (ix3 (0 : Fin 1) ch l') = X (ix3 b ch ⟨1024 * j.val + l'.val, by omega⟩))
    (hmu : ∀ g : Fin 32, muv (ix2 g (0 : Fin 1)) = mu X b g)
    (hinv : ∀ g : Fin 32, inv (ix2 g (0 : Fin 1)) = invStd X b g)
    (hw1 : ∀ (g : Fin 32) (h : Fin 8), w1 (ix2 g h) = gate1 X cww cwb b g h)
    (hgnw : ∀ (g : Fin 32) (h : Fin 8), gnw (ix2 g h) = gnw' (ix2 g h))
    (hgnb : ∀ (g : Fin 32) (h : Fin 8), gnb (ix2 g h) = gnb' (ix2 g h))
    (hsww : ∀ g : Fin 32, sww (ix2 g (0 : Fin 1)) = sww' (ix1 g))
    (hswb : ∀ g : Fin 32, swb (ix2 g (0 : Fin 1)) = swb' (ix1 g))
    (r : Fin 512) (l' : Fin 1024) :
    chunkOut xc muv inv w1 gnw gnb sww swb r l'
      = outAt X cww cwb sww' swb' gnw' gnb' b r ⟨1024 * j.val + l'.val, by omega⟩ := by
  unfold chunkOut outAt gated
  by_cases hr : r.val < 256
  · have hk : (⟨r.val / 32, by omega⟩ : Fin 16).val < 8 := by show r.val / 32 < 8; omega
    rw [dif_pos hr, dif_pos hk, hxc, hw1]
    rfl
  · have hk : ¬ (⟨r.val / 32, by omega⟩ : Fin 16).val < 8 := by show ¬ r.val / 32 < 8; omega
    have hch : chan (grp r) (hi (slotHi r (not_lt.mp hr))) = chan ⟨r.val % 32, Nat.mod_lt _ (by norm_num)⟩ ⟨r.val / 32, by omega⟩ := by
      apply Fin.ext
      show r.val % 32 * 16 + (8 + (r.val - 256) / 32) = r.val % 32 * 16 + r.val / 32
      omega
    rw [dif_neg hr, dif_neg hk, hxc, hch]
    congr 1
    unfold gate2c gate2 posMean normed eight
    simp only [hxc, hmu, hinv, hgnw, hgnb, hsww, hswb]
    rfl

end Cert.KernelIdeal.Chunk

end
-- ==== Proof.KernelBlock.lean ====
/-
  What one grid point leaves in its block of the result. The body's four stores, one per chunk of 1024 positions,
  tile the [1, 512, 4096] block; each store's payload is the chunk function of KernelChunk at the chunk's
  positions, so the block read back is ONE function of the block index: the specification's result for the
  sample the point works on.
-/
import proofs.«147669_j46557445489505_2_alg».proof.Proof.Gen.KernelIdeal.Frame
import proofs.«147669_j46557445489505_2_alg».proof.Proof.KernelChunk

set_option maxRecDepth 16384

noncomputable section

namespace Cert.KernelIdeal.Block

open Cert.KernelIdeal Cert.KernelIdeal.Gen Cert.KernelIdeal.Chunk Cert.GroupGate
open Idealize.ShloMosaic Idealize.ShloMosaic.ValueIdx

theorem hz2 : (![0, 0] : Fin 2 → Nat) = fun _ => 0 := funext fun a => by fin_cases a <;> rfl

/-- A chunk loaded from the block: positions 1024·j … 1024·j + 1023 of every channel. -/
theorem chunk_apply (arg1 : Memref sig .tc .vmem S1x512x4096 .f32) (harg1 : arg1.IsWhole) (x0 : Vec Ideal S1x512x4096 .f32)
    (off : Fin 3 → Nat) (inb : ∀ a, off a + S1x512x1024.size a ≤ S1x512x4096.size a)
    (j : Nat) (hj : j < 4) (h0 : off 0 = 0) (h1 : off 1 = 0) (h2 : off 2 = 1024 * j) (ch : Fin 512) (l' : Fin 1024) :
    View.readAt (Elt Ideal) arg1.view (Rect.unit (s := S1x512x4096) off S1x512x1024.size inb).toLoadRect (harg1.unread x0)
        (ix3 (0 : Fin 1) ch l')
      = x0 (ix3 (0 : Fin 1) ch ⟨1024 * j + l'.val, by omega⟩) := by
  rw [View.readAt_eq_ld, harg1.read_unread]
  refine congrArg x0 (funext fun a => Fin.ext ?_)
  match a with
  | ⟨0, _⟩ => show off 0 + 1 * (0 : Fin 1).val = (0 : Fin 1).val; rw [h0]; simp
  | ⟨1, _⟩ => show off 1 + 1 * ch.val = ch.val; omega
  | ⟨2, _⟩ => show off 2 + 1 * l'.val = 1024 * j + l'.val; omega

/-- A whole [32, 8] buffer loaded through its whole rectangle is its contents. -/
theorem whole8 (arg : Memref sig .tc .vmem S32x8 .f32) (harg : arg.IsWhole) (x : Vec Ideal S32x8 .f32)
    (inb : ∀ a, (![0, 0] : Fin 2 → Nat) a + S32x8.size a ≤ S32x8.size a) :
    View.readAt (Elt Ideal) arg.view (Rect.unit (s := S32x8) ![0, 0] S32x8.size inb).toLoadRect (harg.unread x) = x := by
  rw [View.readAt_eq_ld, harg.read_unread, View.ld_unit_zero (S := S32x8) hz2]

/-- A whole [32, 1] buffer loaded through its whole rectangle and cast to its own shape is its contents. -/
theorem col1 (arg : Memref sig .tc .vmem S32x1 .f32) (harg : arg.IsWhole) (x : Vec Ideal S32x1 .f32)
    (inb : ∀ a, (![0, 0] : Fin 2 → Nat) a + S32x1.size a ≤ S32x1.size a) (hc : S32x1.ShapeCasts S32x1) :
    shapeCast S32x1 (View.readAt (Elt Ideal) arg.view (Rect.unit (s := S32x1) ![0, 0] S32x1.size inb).toLoadRect (harg.unread x)) hc = x := by
  rw [View.readAt_eq_ld, harg.read_unread, View.ld_unit_zero (S := S32x1) hz2]
  exact shapeCast_self x hc

/-- THE BLOCK: when the input block is sample b of the array X, the [32, 1] and [32, 8] blocks are the parameter
    arrays, and the run's mean, inverse deviation and first gate are the specification's, the output block at
    (0, r, l) is the specification's result at (b, r, l). -/
theorem block_value (c : Dev nD) (i : grid0.Coords) (arg1 : Memref sig .tc .vmem S1x512x4096 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x1 .f32) (harg5 : arg5.IsWhole) (arg6 : Memref sig .tc .vmem S32x8 .f32) (harg6 : arg6.IsWhole) (arg7 : Memref sig .tc .vmem S32x8 .f32) (harg7 : arg7.IsWhole) (arg8 : Memref sig .tc .vmem S1x512x4096 .f32) (harg8 : arg8.IsWhole) (arg9 : Memref sig .tc .vmem S32x8 .f32) (harg9 : arg9.IsWhole) (arg10 : Memref sig .tc .vmem S32x1 .f32) (harg10 : arg10.IsWhole) (arg11 : Memref sig .tc .vmem S32x1 .f32) (harg11 : arg11.IsWhole)
    (x0 : Vec Ideal S1x512x4096 .f32) (x1 x2 x3 x4 : Vec Ideal S32x1 .f32) (x5 x6 : Vec Ideal S32x8 .f32)
    (X : Arr3) (cww cwb sww swb : Vec32) (gnw gnb : Mat32x8) (b : Fin 16)
    (hx : ∀ (r : Fin 512) (l : Fin 4096), x0 (ix3 (0 : Fin 1) r l) = X (ix3 b r l))
    (hmu : ∀ g : Fin 32, kernelRun0_A.sl.r_2 (F := Ideal) c arg1 harg1 arg10 x0 (ix2 g (0 : Fin 1)) = mu X b g)
    (hinv : ∀ g : Fin 32, kernelRun0_A.sl.r_5 (F := Ideal) c arg1 harg1 arg10 arg11 x0 (ix2 g (0 : Fin 1)) = invStd X b g)
    (hw1 : ∀ (g : Fin 32) (h : Fin 8), kernelRun0_A.sl.r_6 (F := Ideal) c arg1 harg1 arg2 harg2 arg3 harg3 arg9 x0 x1 x2 (ix2 g h) = gate1 X cww cwb b g h)
    (h3 : ∀ g : Fin 32, x3 (ix2 g (0 : Fin 1)) = sww (ix1 g)) (h4 : ∀ g : Fin 32, x4 (ix2 g (0 : Fin 1)) = swb (ix1 g))
    (h5 : ∀ (g : Fin 32) (h : Fin 8), x5 (ix2 g h) = gnw (ix2 g h)) (h6 : ∀ (g : Fin 32) (h : Fin 8), x6 (ix2 g h) = gnb (ix2 g h))
    (y : S1x512x4096.Idx) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 y = outAt X cww cwb sww swb gnw gnb b (y 1) (y 2) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5 x6)]
  refine View.canon_apply_of_pieces (fun y => outAt X cww cwb sww swb gnw gnb b (y 1) (y 2)) _ ?_ y
    (cover0_A_7 c i arg1 harg1 arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  intro p hp x
  simp only [List.mem_cons, List.not_mem_nil, or_false] at hp
  rcases hp with rfl | rfl | rfl | rfl
  · -- the store of positions 3072 … 4095
    obtain ⟨ch, l', rfl⟩ : ∃ (ch : Fin 512) (l' : Fin 1024), x = ix3 (0 : Fin 1) ch l' :=
      ⟨x 1, x 2, funext fun a => by
        match a with
        | ⟨0, _⟩ => exact Fin.ext (Nat.lt_one_iff.mp (x 0).isLt)
        | ⟨1, _⟩ => rfl
        | ⟨2, _⟩ => rfl⟩
    refine (pay1_apply (kernelRun0_A.sl.r_2 c arg1 harg1 arg10 x0) (kernelRun0_A.sl.r_5 c arg1 harg1 arg10 arg11 x0) (kernelRun0_A.sl.r_6 c arg1 harg1 arg2 harg2 arg3 harg3 arg9 x0 x1 x2) (kernelRun0_A.sl.r_7 c arg6 harg6 x5) (kernelRun0_A.sl.r_8 c arg7 harg7 x6) (kernelRun0_A.sl.r_9 c arg4 harg4 x3) (kernelRun0_A.sl.r_10 c arg5 harg5 x4) _ ch l').trans ?_
    refine (chunkOut_eq X cww cwb sww swb gnw gnb b (⟨3, by omega⟩ : Fin 4) _ _ _ _ _ _ _ _
      (fun ch l' => (chunk_apply arg1 harg1 x0 _ _ 3 (by omega) rfl rfl rfl ch l').trans (hx ch _))
      hmu hinv hw1
      (fun g h => (congrFun (whole8 arg6 harg6 x5 _) (ix2 g h)).trans (h5 g h))
      (fun g h => (congrFun (whole8 arg7 harg7 x6 _) (ix2 g h)).trans (h6 g h))
      (fun g => (congrFun (col1 arg4 harg4 x3 _ _) (ix2 g (0 : Fin 1))).trans (h3 g))
      (fun g => (congrFun (col1 arg5 harg5 x4 _ _) (ix2 g (0 : Fin 1))).trans (h4 g)) ch l').trans ?_
    exact congr (congrArg (outAt X cww cwb sww swb gnw gnb b) (Fin.ext (by show ch.val = 0 + 1 * ch.val; omega)))
      (Fin.ext (by show 1024 * 3 + l'.val = 3072 + 1 * l'.val; omega))
  · -- the store of positions 2048 … 3071
    obtain ⟨ch, l', rfl⟩ : ∃ (ch : Fin 512) (l' : Fin 1024), x = ix3 (0 : Fin 1) ch l' :=
      ⟨x 1, x 2, funext fun a => by
        match a with
        | ⟨0, _⟩ => exact Fin.ext (Nat.lt_one_iff.mp (x 0).isLt)
        | ⟨1, _⟩ => rfl
        | ⟨2, _⟩ => rfl⟩
    refine (pay40_apply (kernelRun0_A.sl.r_2 c arg1 harg1 arg10 x0) (kernelRun0_A.sl.r_5 c arg1 harg1 arg10 arg11 x0) (kernelRun0_A.sl.r_6 c arg1 harg1 arg2 harg2 arg3 harg3 arg9 x0 x1 x2) (kernelRun0_A.sl.r_7 c arg6 harg6 x5) (kernelRun0_A.sl.r_8 c arg7 harg7 x6) (kernelRun0_A.sl.r_9 c arg4 harg4 x3) (kernelRun0_A.sl.r_10 c arg5 harg5 x4) _ ch l').trans ?_
    refine (chunkOut_eq X cww cwb sww swb gnw gnb b (⟨2, by omega⟩ : Fin 4) _ _ _ _ _ _ _ _
      (fun ch l' => (chunk_apply arg1 harg1 x0 _ _ 2 (by omega) rfl rfl rfl ch l').trans (hx ch _))
      hmu hinv hw1
      (fun g h => (congrFun (whole8 arg6 harg6 x5 _) (ix2 g h)).trans (h5 g h))
      (fun g h => (congrFun (whole8 arg7 harg7 x6 _) (ix2 g h)).trans (h6 g h))
      (fun g => (congrFun (col1 arg4 harg4 x3 _ _) (ix2 g (0 : Fin 1))).trans (h3 g))
      (fun g => (congrFun (col1 arg5 harg5 x4 _ _) (ix2 g (0 : Fin 1))).trans (h4 g)) ch l').trans ?_
    exact congr (congrArg (outAt X cww cwb sww swb gnw gnb b) (Fin.ext (by show ch.val = 0 + 1 * ch.val; omega)))
      (Fin.ext (by show 1024 * 2 + l'.val = 2048 + 1 * l'.val; omega))
  · -- the store of positions 1024 … 2047
    obtain ⟨ch, l', rfl⟩ : ∃ (ch : Fin 512) (l' : Fin 1024), x = ix3 (0 : Fin 1) ch l' :=
      ⟨x 1, x 2, funext fun a => by
        match a with
        | ⟨0, _⟩ => exact Fin.ext (Nat.lt_one_iff.mp (x 0).isLt)
        | ⟨1, _⟩ => rfl
        | ⟨2, _⟩ => rfl⟩
    refine (pay35_apply (kernelRun0_A.sl.r_2 c arg1 harg1 arg10 x0) (kernelRun0_A.sl.r_5 c arg1 harg1 arg10 arg11 x0) (kernelRun0_A.sl.r_6 c arg1 harg1 arg2 harg2 arg3 harg3 arg9 x0 x1 x2) (kernelRun0_A.sl.r_7 c arg6 harg6 x5) (kernelRun0_A.sl.r_8 c arg7 harg7 x6) (kernelRun0_A.sl.r_9 c arg4 harg4 x3) (kernelRun0_A.sl.r_10 c arg5 harg5 x4) _ ch l').trans ?_
    refine (chunkOut_eq X cww cwb sww swb gnw gnb b (⟨1, by omega⟩ : Fin 4) _ _ _ _ _ _ _ _
      (fun ch l' => (chunk_apply arg1 harg1 x0 _ _ 1 (by omega) rfl rfl rfl ch l').trans (hx ch _))
      hmu hinv hw1
      (fun g h => (congrFun (whole8 arg6 harg6 x5 _) (ix2 g h)).trans (h5 g h))
      (fun g h => (congrFun (whole8 arg7 harg7 x6 _) (ix2 g h)).trans (h6 g h))
      (fun g => (congrFun (col1 arg4 harg4 x3 _ _) (ix2 g (0 : Fin 1))).trans (h3 g))
      (fun g => (congrFun (col1 arg5 harg5 x4 _ _) (ix2 g (0 : Fin 1))).trans (h4 g)) ch l').trans ?_
    exact congr (congrArg (outAt X cww cwb sww swb gnw gnb b) (Fin.ext (by show ch.val = 0 + 1 * ch.val; omega)))
      (Fin.ext (by show 1024 * 1 + l'.val = 1024 + 1 * l'.val; omega))
  · -- the store of positions 0 … 1023
    obtain ⟨ch, l', rfl⟩ : ∃ (ch : Fin 512) (l' : Fin 1024), x = ix3 (0 : Fin 1) ch l' :=
      ⟨x 1, x 2, funext fun a => by
        match a with
        | ⟨0, _⟩ => exact Fin.ext (Nat.lt_one_iff.mp (x 0).isLt)
        | ⟨1, _⟩ => rfl
        | ⟨2, _⟩ => rfl⟩
    refine (pay30_apply (kernelRun0_A.sl.r_2 c arg1 harg1 arg10 x0) (kernelRun0_A.sl.r_5 c arg1 harg1 arg10 arg11 x0) (kernelRun0_A.sl.r_6 c arg1 harg1 arg2 harg2 arg3 harg3 arg9 x0 x1 x2) (kernelRun0_A.sl.r_7 c arg6 harg6 x5) (kernelRun0_A.sl.r_8 c arg7 harg7 x6) (kernelRun0_A.sl.r_9 c arg4 harg4 x3) (kernelRun0_A.sl.r_10 c arg5 harg5 x4) _ ch l').trans ?_
    refine (chunkOut_eq X cww cwb sww swb gnw gnb b (⟨0, by omega⟩ : Fin 4) _ _ _ _ _ _ _ _
      (fun ch l' => (chunk_apply arg1 harg1 x0 _ _ 0 (by omega) rfl rfl rfl ch l').trans (hx ch _))
      hmu hinv hw1
      (fun g h => (congrFun (whole8 arg6 harg6 x5 _) (ix2 g h)).trans (h5 g h))
      (fun g h => (congrFun (whole8 arg7 harg7 x6 _) (ix2 g h)).trans (h6 g h))
      (fun g => (congrFun (col1 arg4 harg4 x3 _ _) (ix2 g (0 : Fin 1))).trans (h3 g))
      (fun g => (congrFun (col1 arg5 harg5 x4 _ _) (ix2 g (0 : Fin 1))).trans (h4 g)) ch l').trans ?_
    exact congr (congrArg (outAt X cww cwb sww swb gnw gnb b) (Fin.ext (by show ch.val = 0 + 1 * ch.val; omega)))
      (Fin.ext (by show 1024 * 0 + l'.val = 0 + 1 * l'.val; omega))

end Cert.KernelIdeal.Block

end
-- ==== Proof.LibLastAxisSum.lean ====
/-
  A sum along the last axis of an `[a, b, c]` vector, read at an entry.

  A kernel's `multi_reduction <add>` over axis 2 of an `[a, b, c]` vector, from the zero accumulator, is on the
  extended reals the plain sum: entry `(p, q)` of the `[a, b]` result is the sum over `k` of the operand at
  `(p, q, k)`.
-/
import Idealize.ShloMosaic.PureOps.Ideal.Laws
import Idealize.ShloMosaic.Lib.ValueIdx

namespace LastAxisSum

open Idealize.ShloMosaic Idealize.ShloMosaic.ValueIdx

variable {a b c : ℕ}

/-- Entry `(p, q)` of the result with the coordinate `k` of the summed axis put back is the entry `(p, q, k)`. -/
theorem lift_last (h : Shape.Reduces ⟨3, ![a, b, c]⟩ [2] ⟨2, ![a, b]⟩) (p : Fin a) (q : Fin b) (k : Fin c) :
    h.lift (ix2 p q) k = ix3 p q k := by
  funext d
  apply Fin.ext
  match d with
  | ⟨0, _⟩ => rfl
  | ⟨1, _⟩ => rfl
  | ⟨2, _⟩ => rfl

/-- The sum over the last axis, at entry `(p, q)`. -/
theorem lastSum_apply (v : FVec Ideal ⟨3, ![a, b, c]⟩ .f32) (h : Shape.Reduces ⟨3, ![a, b, c]⟩ [2] ⟨2, ![a, b]⟩)
    (hφ : FKind.Formats .f32) (hacc : (0x00000000#32 : BitVec 32) = FKind.add.neutral .f32 hφ) (p : Fin a) (q : Fin b) :
    multiReduction .add [2] ⟨2, ![a, b]⟩ v 0x00000000#32 h hφ hacc (ix2 p q) = ∑ k : Fin c, v (ix3 p q k) := by
  refine (Ideal.multiReduction_add_single v 0x00000000#32 h hφ hacc (ix2 p q)).trans ?_
  exact Finset.sum_congr rfl fun k _ => congrArg v (lift_last h p q k)

end LastAxisSum
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.KernelStatsReads.lean ====
/-
  The kernel's statistics payloads, read entry by entry on the extended reals.

  A chunk is a [1, 512, 1024] piece of one sample: 512 channels by 1024 positions. The kernel views its 512 channels as
  32 groups of 16 slots (channel g·16 + k is slot k of group g), cuts the slots into the first eight and the last eight,
  sums each slot over the chunk's positions, and for the last eight also sums over the slots. This module reads each
  of those operations at an entry: a first-half accumulator step adds, at (g, h), the sum over the chunk's positions of
  channel g·16 + h; a second-half accumulator step adds, at group g, the sum over the eight slots and the positions of
  channel g·16 + 8 + h; a squared-deviation step adds the same double sum of (x − m)·(x − m) for a given per-group m.
-/
import proofs.«147669_j46557445489505_2_alg».proof.Proof.Gen.KernelIdeal.Skeleton
import proofs.«147669_j46557445489505_2_alg».proof.Proof.GroupGate
import proofs.«147669_j46557445489505_2_alg».proof.Proof.LibLastAxisSum
import proofs.«147669_j46557445489505_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stats

open Cert.KernelIdeal Cert.KernelIdeal.Gen Idealize.ShloMosaic Idealize.ShloMosaic.ValueIdx
open Cert.GroupGate (chan lo hi len cnt eps)
open scoped BigOperators

/-- The chunk viewed as 32 groups of 16 slots: entry (g, k, l) is channel g·16 + k at position l. -/
theorem grouped_apply (v : Vec Ideal S1x512x1024 .f32) (g : Fin 32) (k : Fin 16) (l : Fin 1024) :
    shapeCast S32x16x1024 (shapeCast S512x1024 v shapeCasts_S1x512x1024_S512x1024) shapeCasts_S512x1024_S32x16x1024
        (ix3 g k l)
      = v (ix3 (0 : Fin 1) (chan g k) l) := by
  refine (shapeCast_apply _ _ (ix3 g k l) (ix2 (chan g k) l) ?_).trans ?_
  · rw [Shape.rowMajor_val_two, Shape.rowMajor_val_three]
    rfl
  · exact shapeCast_1ab_ab_apply v _ (chan g k) l

/-- The first eight slots of a grouped chunk. -/
theorem loSlice_apply (w : FVec Ideal S32x16x1024 .f32) (g : Fin 32) (h : Fin 8) (l : Fin 1024) :
    extractStridedSlice S32x8x1024 ![0, 0, 0] w slices_S32x16x1024_o0_0_0_S32x8x1024 (ix3 g h l) = w (ix3 g (lo h) l) :=
  slice3_axis1_apply 0 w _ g h l (lo h) (by show h.val = 0 + h.val; omega)

/-- The last eight slots of a grouped chunk. -/
theorem hiSlice_apply (w : FVec Ideal S32x16x1024 .f32) (g : Fin 32) (h : Fin 8) (l : Fin 1024) :
    extractStridedSlice S32x8x1024 ![0, 8, 0] w slices_S32x16x1024_o0_8_0_S32x8x1024 (ix3 g h l) = w (ix3 g (hi h) l) :=
  slice3_axis1_apply 8 w _ g h l (hi h) rfl

/-- The sum over the positions of a [32, 8, 1024] vector, at (g, h). -/
theorem laneSum_apply (u : FVec Ideal S32x8x1024 .f32) (g : Fin 32) (h : Fin 8) :
    multiReduction .add [2] S32x8 u 0x00000000#32 reduces_S32x8x1024_S32x8 (.inl rfl) rfl (ix2 g h)
      = ∑ l : Fin 1024, u (ix3 g h l) :=
  LastAxisSum.lastSum_apply u _ _ _ g h

/-- The sum over the eight slots and the positions, recast to a column, at group g. -/
theorem groupSum_apply (u : FVec Ideal S32x8x1024 .f32) (g : Fin 32) :
    shapeCast S32x1
        (multiReduction .add [1] S32
          (multiReduction .add [2] S32x8 u 0x00000000#32 reduces_S32x8x1024_S32x8 (.inl rfl) rfl)
          0x00000000#32 reduces_S32x8_S32 (.inl rfl) rfl)
        shapeCasts_S32_S32x1 (ix2 g (0 : Fin 1))
      = ∑ h : Fin 8, ∑ l : Fin 1024, u (ix3 g h l) := by
  refine (Gcn.Lib.shapeCast_a_a1_apply _ _ g 0).trans ?_
  refine (Gcn.Lib.rowSum_apply _ _ _ _ g).trans ?_
  exact Finset.sum_congr rfl fun h _ => laneSum_apply u g h

/-- A per-group column spread over the slots and the positions. -/
theorem spread_apply (m : FVec Ideal S32x1 .f32) (g : Fin 32) (h : Fin 8) (l : Fin 1024) :
    broadcastTo S32x8x1024 (shapeCast S32x1x1 m shapeCasts_S32x1_S32x1x1) broadcasts_S32x1x1_S32x8x1024 (ix3 g h l)
      = m (ix2 g (0 : Fin 1)) := by
  refine (broadcastTo_apply _ _ (ix3 g h l) (ix3 g (0 : Fin 1) (0 : Fin 1)) fun ax => ?_).trans ?_
  · match ax with
    | ⟨0, _⟩ => rfl
    | ⟨1, _⟩ => rfl
    | ⟨2, _⟩ => rfl
  · refine shapeCast_apply m _ _ (ix2 g (0 : Fin 1)) ?_
    rw [Shape.rowMajor_val_two, Shape.rowMajor_val_three]
    show g.val * 1 + 0 = (g.val * 1 + 0) * 1 + 0
    omega

/-! ## The accumulator steps -/

/-- A first-half step adds, at (g, h), the sum over the chunk's positions of channel g·16 + h. -/
theorem loStep_apply (v : Vec Ideal S1x512x1024 .f32) (a : FVec Ideal S32x8 .f32) (g : Fin 32) (h : Fin 8) :
    shapeCast S32x8
        (addf (F := Ideal) a (multiReduction .add [2] S32x8
          (extractStridedSlice S32x8x1024 ![0, 0, 0]
            (shapeCast S32x16x1024 (shapeCast S512x1024 v shapeCasts_S1x512x1024_S512x1024) shapeCasts_S512x1024_S32x16x1024)
            slices_S32x16x1024_o0_0_0_S32x8x1024)
          0x00000000#32 reduces_S32x8x1024_S32x8 (.inl rfl) rfl))
        shapeCasts_S32x8_S32x8 (ix2 g h)
      = a (ix2 g h) + ∑ l : Fin 1024, v (ix3 (0 : Fin 1) (chan g (lo h)) l) := by
  refine (congrFun (shapeCast_self _ _) _).trans ?_
  refine congrArg (a (ix2 g h) + ·) ((laneSum_apply _ g h).trans ?_)
  exact Finset.sum_congr rfl fun l _ => (loSlice_apply _ g h l).trans (grouped_apply v g (lo h) l)

/-- A second-half step on an already cut slice adds, at group g, the sum over its slots and positions. -/
theorem hiStepOf_apply (u : FVec Ideal S32x8x1024 .f32) (a : FVec Ideal S32x1 .f32) (g : Fin 32) :
    shapeCast S32x1
        (addf (F := Ideal) a (shapeCast S32x1
          (multiReduction .add [1] S32
            (multiReduction .add [2] S32x8 u 0x00000000#32 reduces_S32x8x1024_S32x8 (.inl rfl) rfl)
            0x00000000#32 reduces_S32x8_S32 (.inl rfl) rfl)
          shapeCasts_S32_S32x1))
        shapeCasts_S32x1_S32x1 (ix2 g (0 : Fin 1))
      = a (ix2 g (0 : Fin 1)) + ∑ h : Fin 8, ∑ l : Fin 1024, u (ix3 g h l) := by
  refine (congrFun (shapeCast_self _ _) _).trans ?_
  exact congrArg (a (ix2 g (0 : Fin 1)) + ·) (groupSum_apply u g)

/-- The last eight slots of a chunk: entry (g, h, l) is channel g·16 + 8 + h at position l. -/
theorem hiPart_apply (v : Vec Ideal S1x512x1024 .f32) (g : Fin 32) (h : Fin 8) (l : Fin 1024) :
    extractStridedSlice S32x8x1024 ![0, 8, 0]
        (shapeCast S32x16x1024 (shapeCast S512x1024 v shapeCasts_S1x512x1024_S512x1024) shapeCasts_S512x1024_S32x16x1024)
        slices_S32x16x1024_o0_8_0_S32x8x1024 (ix3 g h l)
      = v (ix3 (0 : Fin 1) (chan g (hi h)) l) :=
  (hiSlice_apply _ g h l).trans (grouped_apply v g (hi h) l)

/-- The squared deviation from a per-group value m of the last eight slots of a chunk. -/
theorem devSq_apply (m : FVec Ideal S32x1 .f32) (v : Vec Ideal S1x512x1024 .f32) (g : Fin 32) (h : Fin 8) (l : Fin 1024) :
    mulf
        (subf (extractStridedSlice S32x8x1024 ![0, 8, 0]
            (shapeCast S32x16x1024 (shapeCast S512x1024 v shapeCasts_S1x512x1024_S512x1024) shapeCasts_S512x1024_S32x16x1024)
            slices_S32x16x1024_o0_8_0_S32x8x1024)
          (broadcastTo S32x8x1024 (shapeCast S32x1x1 m shapeCasts_S32x1_S32x1x1) broadcasts_S32x1x1_S32x8x1024))
        (subf (extractStridedSlice S32x8x1024 ![0, 8, 0]
            (shapeCast S32x16x1024 (shapeCast S512x1024 v shapeCasts_S1x512x1024_S512x1024) shapeCasts_S512x1024_S32x16x1024)
            slices_S32x16x1024_o0_8_0_S32x8x1024)
          (broadcastTo S32x8x1024 (shapeCast S32x1x1 m shapeCasts_S32x1_S32x1x1) broadcasts_S32x1x1_S32x8x1024))
        (ix3 g h l)
      = (v (ix3 (0 : Fin 1) (chan g (hi h)) l) - m (ix2 g (0 : Fin 1)))
          * (v (ix3 (0 : Fin 1) (chan g (hi h)) l) - m (ix2 g (0 : Fin 1))) := by
  have e : subf (extractStridedSlice S32x8x1024 ![0, 8, 0]
            (shapeCast S32x16x1024 (shapeCast S512x1024 v shapeCasts_S1x512x1024_S512x1024) shapeCasts_S512x1024_S32x16x1024)
            slices_S32x16x1024_o0_8_0_S32x8x1024)
          (broadcastTo S32x8x1024 (shapeCast S32x1x1 m shapeCasts_S32x1_S32x1x1) broadcasts_S32x1x1_S32x8x1024) (ix3 g h l)
        = v (ix3 (0 : Fin 1) (chan g (hi h)) l) - m (ix2 g (0 : Fin 1)) :=
    (subf_apply _ _ _).trans (congrArg₂ (· - ·) (hiPart_apply v g h l) (spread_apply m g h l))
  exact (mulf_apply _ _ _).trans (congrArg₂ (· * ·) e e)

/-! ## The payloads -/

theorem pay5_apply (v : Vec Ideal S1x512x1024 .f32) (a : FVec Ideal S32x8 .f32) (g : Fin 32) (h : Fin 8) :
    k0_pay5 (F := Ideal) v a (ix2 g h) = a (ix2 g h) + ∑ l : Fin 1024, v (ix3 (0 : Fin 1) (chan g (lo h)) l) :=
  loStep_apply v a g h

theorem pay8_apply (v : Vec Ideal S1x512x1024 .f32) (a : FVec Ideal S32x8 .f32) (g : Fin 32) (h : Fin 8) :
    k0_pay8 (F := Ideal) v a (ix2 g h) = a (ix2 g h) + ∑ l : Fin 1024, v (ix3 (0 : Fin 1) (chan g (lo h)) l) :=
  loStep_apply v a g h

theorem pay12_apply (v : Vec Ideal S1x512x1024 .f32) (a : FVec Ideal S32x8 .f32) (g : Fin 32) (h : Fin 8) :
    k0_pay12 (F := Ideal) v a (ix2 g h) = a (ix2 g h) + ∑ l : Fin 1024, v (ix3 (0 : Fin 1) (chan g (lo h)) l) :=
  loStep_apply v a g h

theorem pay15_apply (v : Vec Ideal S1x512x1024 .f32) (a : FVec Ideal S32x8 .f32) (g : Fin 32) (h : Fin 8) :
    k0_pay15 (F := Ideal) v a (ix2 g h) = a (ix2 g h) + ∑ l : Fin 1024, v (ix3 (0 : Fin 1) (chan g (lo h)) l) :=
  loStep_apply v a g h

/-- A second-half step adds, at group g, the sum over the eight slots and the chunk's positions of channel g·16 + 8 + h. -/
theorem hiStep_sum (v : Vec Ideal S1x512x1024 .f32) (g : Fin 32) :
    (∑ h : Fin 8, ∑ l : Fin 1024, extractStridedSlice S32x8x1024 ![0, 8, 0]
        (shapeCast S32x16x1024 (shapeCast S512x1024 v shapeCasts_S1x512x1024_S512x1024) shapeCasts_S512x1024_S32x16x1024)
        slices_S32x16x1024_o0_8_0_S32x8x1024 (ix3 g h l))
      = ∑ h : Fin 8, ∑ l : Fin 1024, v (ix3 (0 : Fin 1) (chan g (hi h)) l) :=
  Finset.sum_congr rfl fun h _ => Finset.sum_congr rfl fun l _ => hiPart_apply v g h l

theorem pay6_apply (v : Vec Ideal S1x512x1024 .f32) (a : FVec Ideal S32x1 .f32) (g : Fin 32) :
    k0_pay6 (F := Ideal) v a (ix2 g (0 : Fin 1))
      = a (ix2 g (0 : Fin 1)) + ∑ h : Fin 8, ∑ l : Fin 1024, v (ix3 (0 : Fin 1) (chan g (hi h)) l) :=
  (hiStepOf_apply _ a g).trans (congrArg (a (ix2 g (0 : Fin 1)) + ·) (hiStep_sum v g))

theorem pay9_apply (v : Vec Ideal S1x512x1024 .f32) (a : FVec Ideal S32x1 .f32) (g : Fin 32) :
    k0_pay9 (F := Ideal) v a (ix2 g (0 : Fin 1))
      = a (ix2 g (0 : Fin 1)) + ∑ h : Fin 8, ∑ l : Fin 1024, v (ix3 (0 : Fin 1) (chan g (hi h)) l) :=
  (hiStepOf_apply _ a g).trans (congrArg (a (ix2 g (0 : Fin 1)) + ·) (hiStep_sum v g))

theorem pay13_apply (v : Vec Ideal S1x512x1024 .f32) (a : FVec Ideal S32x1 .f32) (g : Fin 32) :
    k0_pay13 (F := Ideal) (k0_pay11 v) a (ix2 g (0 : Fin 1))
      = a (ix2 g (0 : Fin 1)) + ∑ h : Fin 8, ∑ l : Fin 1024, v (ix3 (0 : Fin 1) (chan g (hi h)) l) :=
  (hiStepOf_apply _ a g).trans (congrArg (a (ix2 g (0 : Fin 1)) + ·) (hiStep_sum v g))

theorem pay16_apply (v : Vec Ideal S1x512x1024 .f32) (a : FVec Ideal S32x1 .f32) (g : Fin 32) :
    k0_pay16 (F := Ideal) v a (ix2 g (0 : Fin 1))
      = a (ix2 g (0 : Fin 1)) + ∑ h : Fin 8, ∑ l : Fin 1024, v (ix3 (0 : Fin 1) (chan g (hi h)) l) :=
  (hiStepOf_apply _ a g).trans (congrArg (a (ix2 g (0 : Fin 1)) + ·) (hiStep_sum v g))

/-- The sum of the squared deviations a step adds at group g. -/
theorem devStep_sum (m : FVec Ideal S32x1 .f32) (v : Vec Ideal S1x512x1024 .f32) (g : Fin 32) :
    (∑ h : Fin 8, ∑ l : Fin 1024, mulf
        (subf (extractStridedSlice S32x8x1024 ![0, 8, 0]
            (shapeCast S32x16x1024 (shapeCast S512x1024 v shapeCasts_S1x512x1024_S512x1024) shapeCasts_S512x1024_S32x16x1024)
            slices_S32x16x1024_o0_8_0_S32x8x1024)
          (broadcastTo S32x8x1024 (shapeCast S32x1x1 m shapeCasts_S32x1_S32x1x1) broadcasts_S32x1x1_S32x8x1024))
        (subf (extractStridedSlice S32x8x1024 ![0, 8, 0]
            (shapeCast S32x16x1024 (shapeCast S512x1024 v shapeCasts_S1x512x1024_S512x1024) shapeCasts_S512x1024_S32x16x1024)
            slices_S32x16x1024_o0_8_0_S32x8x1024)
          (broadcastTo S32x8x1024 (shapeCast S32x1x1 m shapeCasts_S32x1_S32x1x1) broadcasts_S32x1x1_S32x8x1024))
        (ix3 g h l))
      = ∑ h : Fin 8, ∑ l : Fin 1024,
          (v (ix3 (0 : Fin 1) (chan g (hi h)) l) - m (ix2 g (0 : Fin 1)))
            * (v (ix3 (0 : Fin 1) (chan g (hi h)) l) - m (ix2 g (0 : Fin 1))) :=
  Finset.sum_congr rfl fun h _ => Finset.sum_congr rfl fun l _ => devSq_apply m v g h l

theorem pay20_apply (s : FVec Ideal S32x1 .f32) (v : Vec Ideal S1x512x1024 .f32) (a : FVec Ideal S32x1 .f32) (g : Fin 32) :
    k0_pay20 (F := Ideal) s v a (ix2 g (0 : Fin 1))
      = a (ix2 g (0 : Fin 1)) + ∑ h : Fin 8, ∑ l : Fin 1024,
          (v (ix3 (0 : Fin 1) (chan g (hi h)) l) - k0_pay18 (F := Ideal) s (ix2 g (0 : Fin 1)))
            * (v (ix3 (0 : Fin 1) (chan g (hi h)) l) - k0_pay18 (F := Ideal) s (ix2 g (0 : Fin 1))) :=
  (hiStepOf_apply _ a g).trans (congrArg (a (ix2 g (0 : Fin 1)) + ·) (devStep_sum (k0_pay18 s) v g))

theorem pay22_apply (s : FVec Ideal S32x1 .f32) (v : Vec Ideal S1x512x1024 .f32) (a : FVec Ideal S32x1 .f32) (g : Fin 32) :
    k0_pay22 (F := Ideal) (k0_pay21 s v) a (ix2 g (0 : Fin 1))
      = a (ix2 g (0 : Fin 1)) + ∑ h : Fin 8, ∑ l : Fin 1024,
          (v (ix3 (0 : Fin 1) (chan g (hi h)) l) - k0_pay18 (F := Ideal) s (ix2 g (0 : Fin 1)))
            * (v (ix3 (0 : Fin 1) (chan g (hi h)) l) - k0_pay18 (F := Ideal) s (ix2 g (0 : Fin 1))) :=
  (hiStepOf_apply _ a g).trans (congrArg (a (ix2 g (0 : Fin 1)) + ·) (devStep_sum (k0_pay18 s) v g))

theorem pay23_apply (m : FVec Ideal S32x1 .f32) (v : Vec Ideal S1x512x1024 .f32) (a : FVec Ideal S32x1 .f32) (g : Fin 32) :
    k0_pay23 (F := Ideal) m v a (ix2 g (0 : Fin 1))
      = a (ix2 g (0 : Fin 1)) + ∑ h : Fin 8, ∑ l : Fin 1024,
          (v (ix3 (0 : Fin 1) (chan g (hi h)) l) - m (ix2 g (0 : Fin 1)))
            * (v (ix3 (0 : Fin 1) (chan g (hi h)) l) - m (ix2 g (0 : Fin 1))) :=
  (hiStepOf_apply _ a g).trans (congrArg (a (ix2 g (0 : Fin 1)) + ·) (devStep_sum m v g))

theorem pay25_apply (m : FVec Ideal S32x1 .f32) (v : Vec Ideal S1x512x1024 .f32) (a : FVec Ideal S32x1 .f32) (g : Fin 32) :
    k0_pay25 (F := Ideal) (k0_pay24 m v) a (ix2 g (0 : Fin 1))
      = a (ix2 g (0 : Fin 1)) + ∑ h : Fin 8, ∑ l : Fin 1024,
          (v (ix3 (0 : Fin 1) (chan g (hi h)) l) - m (ix2 g (0 : Fin 1)))
            * (v (ix3 (0 : Fin 1) (chan g (hi h)) l) - m (ix2 g (0 : Fin 1))) :=
  (hiStepOf_apply _ a g).trans (congrArg (a (ix2 g (0 : Fin 1)) + ·) (devStep_sum m v g))

/-- The zeroed accumulators. -/
theorem pay2_apply (g : Fin 32) (h : Fin 8) : (k0_pay2 : FVec Ideal S32x8 .f32) (ix2 g h) = 0 := by
  show shapeCast S32x8 (broadcast S32x8 (Ideal.ofBits .f32 0x00000000#32)) shapeCasts_S32x8_S32x8 (ix2 g h) = 0
  exact (congrFun (shapeCast_self _ _) _).trans Ideal.ofBits_zero_f32

theorem pay3_apply (g : Fin 32) : (k0_pay3 : FVec Ideal S32x1 .f32) (ix2 g (0 : Fin 1)) = 0 := by
  show shapeCast S32x1 (broadcast S32x1 (Ideal.ofBits .f32 0x00000000#32)) shapeCasts_S32x1_S32x1 (ix2 g (0 : Fin 1)) = 0
  exact (congrFun (shapeCast_self _ _) _).trans Ideal.ofBits_zero_f32

theorem pay19_apply (g : Fin 32) : (k0_pay19 : FVec Ideal S32x1 .f32) (ix2 g (0 : Fin 1)) = 0 := by
  show shapeCast S32x1 (broadcast S32x1 (Ideal.ofBits .f32 0x00000000#32)) shapeCasts_S32x1_S32x1 (ix2 g (0 : Fin 1)) = 0
  exact (congrFun (shapeCast_self _ _) _).trans Ideal.ofBits_zero_f32

/-- The channel means, the group mean, the reciprocal deviation and the first gate, from the finished accumulators. -/
theorem pay17_apply (a : FVec Ideal S32x8 .f32) (g : Fin 32) (h : Fin 8) :
    k0_pay17 (F := Ideal) a (ix2 g h) = Ideal.div (a (ix2 g h)) len := rfl

theorem pay18_apply (a : FVec Ideal S32x1 .f32) (g : Fin 32) :
    k0_pay18 (F := Ideal) a (ix2 g (0 : Fin 1)) = Ideal.div (a (ix2 g (0 : Fin 1))) cnt := rfl

theorem pay26_apply (a : FVec Ideal S32x1 .f32) (g : Fin 32) :
    k0_pay26 (F := Ideal) a (ix2 g (0 : Fin 1))
      = Ideal.rsqrt (max (Ideal.div (a (ix2 g (0 : Fin 1))) cnt) (Ideal.ofBits .f32 0x00000000#32) + eps) := rfl

theorem pay27_apply (ca : FVec Ideal S32x8 .f32) (w b : FVec Ideal S32x1 .f32) (g : Fin 32) (h : Fin 8) :
    k0_pay27 (F := Ideal) ca w b (ix2 g h)
      = Ideal.logistic (ca (ix2 g h) * w (ix2 g (0 : Fin 1)) + b (ix2 g (0 : Fin 1))) := by
  have ew : broadcastTo S32x8 (shapeCast S32x1 w shapeCasts_S32x1_S32x1) broadcasts_S32x1_S32x8 (ix2 g h)
      = w (ix2 g (0 : Fin 1)) :=
    (Gcn.Lib.broadcastTo_a1_ab_apply _ _ g h).trans (congrFun (shapeCast_self _ _) _)
  have eb : broadcastTo S32x8 (shapeCast S32x1 b shapeCasts_S32x1_S32x1) broadcasts_S32x1_S32x8 (ix2 g h)
      = b (ix2 g (0 : Fin 1)) :=
    (Gcn.Lib.broadcastTo_a1_ab_apply _ _ g h).trans (congrFun (shapeCast_self _ _) _)
  show Ideal.logistic (ca (ix2 g h) * broadcastTo S32x8 (shapeCast S32x1 w shapeCasts_S32x1_S32x1) broadcasts_S32x1_S32x8 (ix2 g h)
      + broadcastTo S32x8 (shapeCast S32x1 b shapeCasts_S32x1_S32x1) broadcasts_S32x1_S32x8 (ix2 g h)) = _
  rw [ew, eb]

end Cert.KernelIdeal.Stats

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.KernelStatsSums.lean ====
/-
  The arithmetic behind the kernel's statistics, on the extended reals.

  A sum over 4096 positions is the sum of the sums over four consecutive chunks of 1024 positions, so four chunk
  contributions accumulated from zero give the whole sum — by associativity and commutativity of the addition alone,
  with no finiteness of the terms. A square is never negative on the extended reals (the square of either infinity
  is +∞), so a sum of squares divided by the positive real 32768 is not negative: the variance is not negative.
-/
import proofs.«147669_j46557445489505_2_alg».proof.Proof.GroupGate
import proofs.«147669_j46557445489505_2_alg».proof.Proof.LibGroupedSum
import Idealize.ShloMosaic.Lib.ValueIdx
import Idealize.ShloMosaic.PureOps.Ideal.Laws

noncomputable section

namespace Cert.KernelIdeal.Stats

open Idealize.ShloMosaic Idealize.ShloMosaic.ValueIdx
open Cert.GroupGate (chan lo hi len cnt eps Arr3 Vec32)
open scoped BigOperators

/-! ## A sum over the whole length, chunk by chunk -/

/-- The four chunk sums, accumulated from zero, are the sum over the 4096 positions. -/
theorem sum_four_chunks (f : Fin 4096 → EReal) :
    (((0 + ∑ l : Fin 1024, f ⟨0 + l.val, by omega⟩) + ∑ l : Fin 1024, f ⟨1024 + l.val, by omega⟩)
        + ∑ l : Fin 1024, f ⟨2048 + l.val, by omega⟩) + ∑ l : Fin 1024, f ⟨3072 + l.val, by omega⟩
      = ∑ k : Fin 4096, f k := by
  rw [GroupedSum.sum_groups (J := 4) (B := 1024) rfl f, Fin.sum_univ_four, zero_add]
  rfl

/-- The same with a sum over the eight slots inside each chunk's contribution. -/
theorem sum_four_chunks_slots (f : Fin 8 → Fin 4096 → EReal) :
    (((0 + ∑ h : Fin 8, ∑ l : Fin 1024, f h ⟨0 + l.val, by omega⟩)
          + ∑ h : Fin 8, ∑ l : Fin 1024, f h ⟨1024 + l.val, by omega⟩)
        + ∑ h : Fin 8, ∑ l : Fin 1024, f h ⟨2048 + l.val, by omega⟩)
        + ∑ h : Fin 8, ∑ l : Fin 1024, f h ⟨3072 + l.val, by omega⟩
      = ∑ h : Fin 8, ∑ k : Fin 4096, f h k := by
  rw [zero_add, ← Finset.sum_add_distrib, ← Finset.sum_add_distrib, ← Finset.sum_add_distrib]
  refine Finset.sum_congr rfl fun h _ => ?_
  have e := sum_four_chunks (f h)
  rw [zero_add] at e
  exact e

/-- Equal entries and equal centres give equal squared deviations. -/
theorem dev_congr {x x' m m' : EReal} (e₁ : x = x') (e₂ : m = m') : (x - m) * (x - m) = (x' - m') * (x' - m') := by
  rw [e₁, e₂]

/-! ## The variance is not negative -/

/-- The count 8 · 4096 is the real 32768. -/
theorem cnt_eq : cnt = ((32768 : ℝ) : EReal) := by
  unfold Cert.GroupGate.cnt
  simp [Ideal.ofBits, Ideal.ieee]
  rw [← EReal.coe_mul]
  exact congrArg _ (by norm_num)

/-- A square is not negative on the extended reals. -/
theorem mul_self_nonneg_ereal (a : EReal) : 0 ≤ a * a := by
  induction a using EReal.rec with
  | bot => rw [EReal.bot_mul_bot]; exact le_top
  | coe r => rw [← EReal.coe_mul]; exact EReal.coe_nonneg.mpr (mul_self_nonneg r)
  | top => rw [EReal.top_mul_top]; exact le_top

/-- A non-negative extended real divided by the count is not negative. -/
theorem div_cnt_nonneg {s : EReal} (hs : 0 ≤ s) : 0 ≤ Ideal.div s cnt := by
  have hp : (0 : EReal) < cnt := by rw [cnt_eq]; exact EReal.coe_pos.mpr (by norm_num)
  unfold Ideal.div
  rw [if_neg hp.ne']
  exact mul_nonneg hs (EReal.inv_nonneg_of_nonneg hp.le)

/-- The variance is not negative. -/
theorem var_nonneg (X : Arr3) (b : Fin 16) (g : Fin 32) : 0 ≤ Cert.GroupGate.var X b g :=
  div_cnt_nonneg (Finset.sum_nonneg fun h _ => Finset.sum_nonneg fun l _ => mul_self_nonneg_ereal _)

end Cert.KernelIdeal.Stats

end
-- ==== Proof.KernelStatsLoads.lean ====
/-
  What the kernel's loads read.

  The sample's block is 512 channels by 4096 positions, resident whole; a chunk load reads 1024 consecutive positions
  of every channel from a position offset, so its entry (channel r, position l) is the block's entry at position
  offset + l — the array's entry of the sample at that position. The per-group column blocks are loaded whole.
-/
import proofs.«147669_j46557445489505_2_alg».proof.Proof.Gen.KernelIdeal.Skeleton
import proofs.«147669_j46557445489505_2_alg».proof.Proof.GroupGate
import Idealize.ShloMosaic.Lib.Pipeline.Value
import Idealize.ShloMosaic.Lib.ValueIdx

noncomputable section

namespace Cert.KernelIdeal.Stats

open Cert.KernelIdeal Cert.KernelIdeal.Gen Idealize.ShloMosaic Idealize.ShloMosaic.ValueIdx
open Cert.GroupGate (chan lo hi len cnt eps Arr3 Vec32)
open scoped BigOperators

/-! ## What the loads read -/

/-- The chunk at position offset o of the block, read at (channel r, position l): sample b of the array at position o + l. -/
theorem chunk_apply (arg1 : Memref sig .tc .vmem S1x512x4096 .f32) (harg1 : arg1.IsWhole)
    (x0 : Vec Ideal S1x512x4096 .f32) (X : Arr3) (b : Fin 16) (hx : ∀ (r : Fin 512) (l : Fin 4096), x0 (ix3 (0 : Fin 1) r l) = X (ix3 b r l))
    (o : ℕ) (ho : o + 1024 ≤ 4096)
    (inb : ∀ a : Fin S1x512x4096.rank, (![0, 0, o] : Fin 3 → ℕ) a + S1x512x1024.size a ≤ S1x512x4096.size a)
    (r : Fin 512) (l : Fin 1024) :
    View.readAt (Elt Ideal) arg1.view (Rect.unit (s := S1x512x4096) ![0, 0, o] S1x512x1024.size inb).toLoadRect (harg1.unread x0)
        (ix3 (0 : Fin 1) r l)
      = X (ix3 b r ⟨o + l.val, by omega⟩) := by
  rw [View.readAt_eq_ld, harg1.read_unread]
  refine Eq.trans (congrArg x0 (funext fun a => Fin.ext ?_)) (hx r ⟨o + l.val, by omega⟩)
  match a with
  | ⟨0, _⟩ => rfl
  | ⟨1, _⟩ => show 0 + 1 * r.val = r.val; omega
  | ⟨2, _⟩ => show o + 1 * l.val = o + l.val; omega

/-- A whole per-group column block, loaded: its contents. -/
theorem column_read (arg : Memref sig .tc .vmem S32x1 .f32) (harg : arg.IsWhole) (x : Vec Ideal S32x1 .f32) :
    View.readAt (Elt Ideal) arg.view (Rect.unit (s := S32x1) ![0, 0] S32x1.size inb_S32x1_S32x1_0_0).toLoadRect (harg.unread x) = x := by
  rw [View.readAt_eq_ld, harg.read_unread]
  exact View.ld_unit_zero (funext fun a => by match a with | ⟨0, _⟩ => rfl | ⟨1, _⟩ => rfl) _ x

end Cert.KernelIdeal.Stats

end
-- ==== Proof.KernelStatsFirstHalf.lean ====
/-
  The first half of each group: the channel means and the per-channel gate.

  A small buffer, zeroed and then updated once per chunk, accumulates per group g and slot h < 8 the sum over the
  positions of channel g·16 + h. Each update reads the buffer back, adds the chunk's sum and stores the whole buffer
  again, so after the fourth update it holds (((0 + S₀) + S₁) + S₂) + S₃, the sum over the whole length. Divided by
  the length it is the channel mean, and the gate is the logistic of that mean scaled and shifted per group.
-/
import proofs.«147669_j46557445489505_2_alg».proof.Proof.Gen.KernelIdeal.Frame
import proofs.«147669_j46557445489505_2_alg».proof.Proof.GroupGate
import proofs.«147669_j46557445489505_2_alg».proof.Proof.KernelStatsReads
import proofs.«147669_j46557445489505_2_alg».proof.Proof.KernelStatsSums
import proofs.«147669_j46557445489505_2_alg».proof.Proof.KernelStatsLoads
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stats

open Cert.KernelIdeal Cert.KernelIdeal.Gen Idealize.ShloMosaic Idealize.ShloMosaic.ValueIdx
open Cert.GroupGate (chan lo hi len cnt eps Arr3 Vec32)
open scoped BigOperators

section

variable (c : Dev nD) (arg1 : Memref sig .tc .vmem S1x512x4096 .f32) (harg1 : arg1.IsWhole)
  (arg2 arg3 : Memref sig .tc .vmem S32x1 .f32) (harg2 : arg2.IsWhole) (harg3 : arg3.IsWhole)
  (arg9 : Memref sig .tc .vmem S32x8 .f32)
  (x0 : Vec Ideal S1x512x4096 .f32) (x1 x2 : Vec Ideal S32x1 .f32)
  (X : Arr3) (cww cwb : Vec32) (b : Fin 16)

/-! ## The first-half sums -/

/-- After the four chunks the first buffer holds, at (g, h), the sum over the length of channel g·16 + h. -/
theorem loAcc_apply (hx : ∀ (r : Fin 512) (l : Fin 4096), x0 (ix3 (0 : Fin 1) r l) = X (ix3 b r l)) (g : Fin 32) (h : Fin 8) :
    (kernelRun0_A.sl.v96 (F := Ideal) c arg1 harg1 arg9 x0 (ix2 g h) : EReal)
      = ∑ l : Fin 4096, X (ix3 b (chan g (lo h)) l) := by
  have e0 : (kernelRun0_A.sl.v16 (F := Ideal) c arg9 (ix2 g h) : EReal) = 0 :=
    (congrFun (View.readCov_cons_toLoadRect _ _ _ _) _).trans (pay2_apply g h)
  have e1 : (kernelRun0_A.sl.v38 (F := Ideal) c arg1 harg1 arg9 x0 (ix2 g h) : EReal)
      = 0 + ∑ l : Fin 1024, X (ix3 b (chan g (lo h)) ⟨0 + l.val, by omega⟩) :=
    (congrFun (View.readCov_cons_toLoadRect _ _ _ _) _).trans ((pay5_apply _ _ g h).trans
      (congrArg₂ (· + ·) e0 (Finset.sum_congr rfl fun l _ =>
        chunk_apply arg1 harg1 x0 X b hx 0 (by norm_num) _ (chan g (lo h)) l)))
  have e2 : (kernelRun0_A.sl.v60 (F := Ideal) c arg1 harg1 arg9 x0 (ix2 g h) : EReal)
      = (0 + ∑ l : Fin 1024, X (ix3 b (chan g (lo h)) ⟨0 + l.val, by omega⟩))
        + ∑ l : Fin 1024, X (ix3 b (chan g (lo h)) ⟨1024 + l.val, by omega⟩) :=
    (congrFun (View.readCov_cons_toLoadRect _ _ _ _) _).trans ((pay8_apply _ _ g h).trans
      (congrArg₂ (· + ·) e1 (Finset.sum_congr rfl fun l _ =>
        chunk_apply arg1 harg1 x0 X b hx 1024 (by norm_num) _ (chan g (lo h)) l)))
  have e3 : (kernelRun0_A.sl.v82 (F := Ideal) c arg1 harg1 arg9 x0 (ix2 g h) : EReal)
      = ((0 + ∑ l : Fin 1024, X (ix3 b (chan g (lo h)) ⟨0 + l.val, by omega⟩))
          + ∑ l : Fin 1024, X (ix3 b (chan g (lo h)) ⟨1024 + l.val, by omega⟩))
        + ∑ l : Fin 1024, X (ix3 b (chan g (lo h)) ⟨2048 + l.val, by omega⟩) :=
    (congrFun (View.readCov_cons_toLoadRect _ _ _ _) _).trans ((pay12_apply _ _ g h).trans
      (congrArg₂ (· + ·) e2 (Finset.sum_congr rfl fun l _ =>
        chunk_apply arg1 harg1 x0 X b hx 2048 (by norm_num) _ (chan g (lo h)) l)))
  have e4 : (kernelRun0_A.sl.v96 (F := Ideal) c arg1 harg1 arg9 x0 (ix2 g h) : EReal)
      = (((0 + ∑ l : Fin 1024, X (ix3 b (chan g (lo h)) ⟨0 + l.val, by omega⟩))
          + ∑ l : Fin 1024, X (ix3 b (chan g (lo h)) ⟨1024 + l.val, by omega⟩))
          + ∑ l : Fin 1024, X (ix3 b (chan g (lo h)) ⟨2048 + l.val, by omega⟩))
        + ∑ l : Fin 1024, X (ix3 b (chan g (lo h)) ⟨3072 + l.val, by omega⟩) :=
    (congrFun (View.readCov_cons_toLoadRect _ _ _ _) _).trans ((pay15_apply _ _ g h).trans
      (congrArg₂ (· + ·) e3 (Finset.sum_congr rfl fun l _ =>
        chunk_apply arg1 harg1 x0 X b hx 3072 (by norm_num) _ (chan g (lo h)) l)))
  exact e4.trans (sum_four_chunks fun k => X (ix3 b (chan g (lo h)) k))

/-- The channel means. -/
theorem chanMean_apply (hx : ∀ (r : Fin 512) (l : Fin 4096), x0 (ix3 (0 : Fin 1) r l) = X (ix3 b r l)) (g : Fin 32) (h : Fin 8) :
    kernelRun0_A.sl.r_1 (F := Ideal) c arg1 harg1 arg9 x0 (ix2 g h) = Cert.GroupGate.chanMean X b g h :=
  congrArg (fun s => Ideal.div s len) (loAcc_apply c arg1 harg1 arg9 x0 X b hx g h)

/-- The per-channel gate of the first half. -/
theorem gate1_apply (hx : ∀ (r : Fin 512) (l : Fin 4096), x0 (ix3 (0 : Fin 1) r l) = X (ix3 b r l))
    (h1 : ∀ g : Fin 32, x1 (ix2 g (0 : Fin 1)) = cww (ix1 g)) (h2 : ∀ g : Fin 32, x2 (ix2 g (0 : Fin 1)) = cwb (ix1 g))
    (g : Fin 32) (h : Fin 8) :
    kernelRun0_A.sl.r_6 (F := Ideal) c arg1 harg1 arg2 harg2 arg3 harg3 arg9 x0 x1 x2 (ix2 g h)
      = Cert.GroupGate.gate1 X cww cwb b g h := by
  refine (pay27_apply _ _ _ g h).trans ?_
  rw [chanMean_apply c arg1 harg1 arg9 x0 X b hx g h, column_read arg2 harg2 x1, column_read arg3 harg3 x2, h1 g, h2 g]
  rfl

end

end Cert.KernelIdeal.Stats

end
-- ==== Proof.KernelStatsSecondHalf.lean ====
/-
  The second half of each group: the group mean.

  A small buffer, zeroed and then updated once per chunk, accumulates per group g the sum over the slots 8..15 and the
  positions. After the fourth update it holds (((0 + S₀) + S₁) + S₂) + S₃ with S_j the double sum over chunk j, which is
  the double sum over the whole length; divided by the count 8 · 4096 it is the group mean.
-/
import proofs.«147669_j46557445489505_2_alg».proof.Proof.Gen.KernelIdeal.Frame
import proofs.«147669_j46557445489505_2_alg».proof.Proof.GroupGate
import proofs.«147669_j46557445489505_2_alg».proof.Proof.KernelStatsReads
import proofs.«147669_j46557445489505_2_alg».proof.Proof.KernelStatsSums
import proofs.«147669_j46557445489505_2_alg».proof.Proof.KernelStatsLoads
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stats

open Cert.KernelIdeal Cert.KernelIdeal.Gen Idealize.ShloMosaic Idealize.ShloMosaic.ValueIdx
open Cert.GroupGate (chan lo hi len cnt eps Arr3 Vec32)
open scoped BigOperators

section

variable (c : Dev nD) (arg1 : Memref sig .tc .vmem S1x512x4096 .f32) (harg1 : arg1.IsWhole)
  (arg10 arg11 : Memref sig .tc .vmem S32x1 .f32)
  (x0 : Vec Ideal S1x512x4096 .f32) (X : Arr3) (b : Fin 16)

/-! ## The second-half sums -/

/-- After the four chunks the second buffer holds, at group g, the sum over the second-half slots and the length. -/
theorem hiAcc_apply (hx : ∀ (r : Fin 512) (l : Fin 4096), x0 (ix3 (0 : Fin 1) r l) = X (ix3 b r l)) (g : Fin 32) :
    (kernelRun0_A.sl.v99 (F := Ideal) c arg1 harg1 arg10 x0 (ix2 g (0 : Fin 1)) : EReal)
      = ∑ h : Fin 8, ∑ l : Fin 4096, X (ix3 b (chan g (hi h)) l) := by
  have e0 : (kernelRun0_A.sl.v23 (F := Ideal) c arg10 (ix2 g (0 : Fin 1)) : EReal) = 0 :=
    (congrFun (View.readCov_cons_toLoadRect _ _ _ _) _).trans (pay3_apply g)
  have e1 : (kernelRun0_A.sl.v45 (F := Ideal) c arg1 harg1 arg10 x0 (ix2 g (0 : Fin 1)) : EReal)
      = 0 + ∑ h : Fin 8, ∑ l : Fin 1024, X (ix3 b (chan g (hi h)) ⟨0 + l.val, by omega⟩) :=
    (congrFun (View.readCov_cons_toLoadRect _ _ _ _) _).trans ((pay6_apply _ _ g).trans
      (congrArg₂ (· + ·) e0 (Finset.sum_congr rfl fun h _ => Finset.sum_congr rfl fun l _ =>
        chunk_apply arg1 harg1 x0 X b hx 0 (by norm_num) _ (chan g (hi h)) l)))
  have e2 : (kernelRun0_A.sl.v67 (F := Ideal) c arg1 harg1 arg10 x0 (ix2 g (0 : Fin 1)) : EReal)
      = (0 + ∑ h : Fin 8, ∑ l : Fin 1024, X (ix3 b (chan g (hi h)) ⟨0 + l.val, by omega⟩))
        + ∑ h : Fin 8, ∑ l : Fin 1024, X (ix3 b (chan g (hi h)) ⟨1024 + l.val, by omega⟩) :=
    (congrFun (View.readCov_cons_toLoadRect _ _ _ _) _).trans ((pay9_apply _ _ g).trans
      (congrArg₂ (· + ·) e1 (Finset.sum_congr rfl fun h _ => Finset.sum_congr rfl fun l _ =>
        chunk_apply arg1 harg1 x0 X b hx 1024 (by norm_num) _ (chan g (hi h)) l)))
  have e3 : (kernelRun0_A.sl.v89 (F := Ideal) c arg1 harg1 arg10 x0 (ix2 g (0 : Fin 1)) : EReal)
      = ((0 + ∑ h : Fin 8, ∑ l : Fin 1024, X (ix3 b (chan g (hi h)) ⟨0 + l.val, by omega⟩))
          + ∑ h : Fin 8, ∑ l : Fin 1024, X (ix3 b (chan g (hi h)) ⟨1024 + l.val, by omega⟩))
        + ∑ h : Fin 8, ∑ l : Fin 1024, X (ix3 b (chan g (hi h)) ⟨2048 + l.val, by omega⟩) :=
    (congrFun (View.readCov_cons_toLoadRect _ _ _ _) _).trans ((pay13_apply _ _ g).trans
      (congrArg₂ (· + ·) e2 (Finset.sum_congr rfl fun h _ => Finset.sum_congr rfl fun l _ =>
        chunk_apply arg1 harg1 x0 X b hx 2048 (by norm_num) _ (chan g (hi h)) l)))
  have e4 : (kernelRun0_A.sl.v99 (F := Ideal) c arg1 harg1 arg10 x0 (ix2 g (0 : Fin 1)) : EReal)
      = (((0 + ∑ h : Fin 8, ∑ l : Fin 1024, X (ix3 b (chan g (hi h)) ⟨0 + l.val, by omega⟩))
          + ∑ h : Fin 8, ∑ l : Fin 1024, X (ix3 b (chan g (hi h)) ⟨1024 + l.val, by omega⟩))
          + ∑ h : Fin 8, ∑ l : Fin 1024, X (ix3 b (chan g (hi h)) ⟨2048 + l.val, by omega⟩))
        + ∑ h : Fin 8, ∑ l : Fin 1024, X (ix3 b (chan g (hi h)) ⟨3072 + l.val, by omega⟩) :=
    (congrFun (View.readCov_cons_toLoadRect _ _ _ _) _).trans ((pay16_apply _ _ g).trans
      (congrArg₂ (· + ·) e3 (Finset.sum_congr rfl fun h _ => Finset.sum_congr rfl fun l _ =>
        chunk_apply arg1 harg1 x0 X b hx 3072 (by norm_num) _ (chan g (hi h)) l)))
  exact e4.trans (sum_four_chunks_slots fun h k => X (ix3 b (chan g (hi h)) k))

/-- The group mean. -/
theorem mu_apply (hx : ∀ (r : Fin 512) (l : Fin 4096), x0 (ix3 (0 : Fin 1) r l) = X (ix3 b r l)) (g : Fin 32) :
    kernelRun0_A.sl.r_2 (F := Ideal) c arg1 harg1 arg10 x0 (ix2 g (0 : Fin 1)) = Cert.GroupGate.mu X b g :=
  congrArg (fun s => Ideal.div s cnt) (hiAcc_apply c arg1 harg1 arg10 x0 X b hx g)

end

end Cert.KernelIdeal.Stats

end
-- ==== Proof.KernelStats.lean ====
/-
  The kernel's per-sample statistics on the extended reals: the group mean, the reciprocal standard deviation of the
  second half of each group, and the per-channel gate of the first half.

  The third small buffer accumulates, chunk by chunk, per group the sum over the slots 8..15 and the positions of the
  squared deviation from the group mean; after the fourth update it holds that sum over the whole length. Divided by
  the count it is the variance, which is not negative, so clamping it at zero before adding the epsilon changes nothing.
  (The group mean and the gate are proved in the two modules this one imports.)
-/
import proofs.«147669_j46557445489505_2_alg».proof.Proof.Gen.KernelIdeal.Frame
import proofs.«147669_j46557445489505_2_alg».proof.Proof.GroupGate
import proofs.«147669_j46557445489505_2_alg».proof.Proof.KernelStatsReads
import proofs.«147669_j46557445489505_2_alg».proof.Proof.KernelStatsSums
import proofs.«147669_j46557445489505_2_alg».proof.Proof.KernelStatsLoads
import Idealize.ShloMosaic.Lib.Pipeline.Value
import Idealize.ShloMosaic.Lib.ValueIdx
import Idealize.ShloMosaic.Lib.ValueLayout
import Idealize.ShloMosaic.PureOps.Ideal.Laws
import proofs.«147669_j46557445489505_2_alg».proof.Proof.KernelStatsFirstHalf
import proofs.«147669_j46557445489505_2_alg».proof.Proof.KernelStatsSecondHalf

noncomputable section

namespace Cert.KernelIdeal.Stats

open Cert.KernelIdeal Cert.KernelIdeal.Gen Idealize.ShloMosaic Idealize.ShloMosaic.ValueIdx
open Cert.GroupGate (chan lo hi len cnt eps Arr3 Vec32)
open scoped BigOperators

section

variable (c : Dev nD) (arg1 : Memref sig .tc .vmem S1x512x4096 .f32) (harg1 : arg1.IsWhole)
  (arg10 arg11 : Memref sig .tc .vmem S32x1 .f32)
  (x0 : Vec Ideal S1x512x4096 .f32) (X : Arr3) (b : Fin 16)

/-! ## The squared deviations -/

/-- After the four chunks the third buffer holds, at group g, the sum of the squared deviations from the group mean. -/
theorem devAcc_apply (hx : ∀ (r : Fin 512) (l : Fin 4096), x0 (ix3 (0 : Fin 1) r l) = X (ix3 b r l)) (g : Fin 32) :
    (kernelRun0_A.sl.v182 (F := Ideal) c arg1 harg1 arg10 arg11 x0 (ix2 g (0 : Fin 1)) : EReal)
      = ∑ h : Fin 8, ∑ l : Fin 4096,
          (X (ix3 b (chan g (hi h)) l) - Cert.GroupGate.mu X b g) * (X (ix3 b (chan g (hi h)) l) - Cert.GroupGate.mu X b g) := by
  have hm : k0_pay18 (F := Ideal) (kernelRun0_A.sl.v99 (F := Ideal) c arg1 harg1 arg10 x0) (ix2 g (0 : Fin 1))
      = Cert.GroupGate.mu X b g := mu_apply c arg1 harg1 arg10 x0 X b hx g
  have hm' : kernelRun0_A.sl.r_2 (F := Ideal) c arg1 harg1 arg10 x0 (ix2 g (0 : Fin 1)) = Cert.GroupGate.mu X b g :=
    mu_apply c arg1 harg1 arg10 x0 X b hx g
  have e0 : (kernelRun0_A.sl.v118 (F := Ideal) c arg11 (ix2 g (0 : Fin 1)) : EReal) = 0 :=
    (congrFun (View.readCov_cons_toLoadRect _ _ _ _) _).trans (pay19_apply g)
  have e1 : (kernelRun0_A.sl.v137 (F := Ideal) c arg1 harg1 arg10 arg11 x0 (ix2 g (0 : Fin 1)) : EReal)
      = 0 + ∑ h : Fin 8, ∑ l : Fin 1024,
            (X (ix3 b (chan g (hi h)) ⟨0 + l.val, by omega⟩) - Cert.GroupGate.mu X b g)
              * (X (ix3 b (chan g (hi h)) ⟨0 + l.val, by omega⟩) - Cert.GroupGate.mu X b g) :=
    (congrFun (View.readCov_cons_toLoadRect _ _ _ _) _).trans ((pay20_apply _ _ _ g).trans
      (congrArg₂ (· + ·) e0 (Finset.sum_congr rfl fun h _ => Finset.sum_congr rfl fun l _ =>
        dev_congr (chunk_apply arg1 harg1 x0 X b hx 0 (by norm_num) _ (chan g (hi h)) l) hm)))
  have e2 : (kernelRun0_A.sl.v156 (F := Ideal) c arg1 harg1 arg10 arg11 x0 (ix2 g (0 : Fin 1)) : EReal)
      = (0 + ∑ h : Fin 8, ∑ l : Fin 1024,
            (X (ix3 b (chan g (hi h)) ⟨0 + l.val, by omega⟩) - Cert.GroupGate.mu X b g)
              * (X (ix3 b (chan g (hi h)) ⟨0 + l.val, by omega⟩) - Cert.GroupGate.mu X b g))
        + ∑ h : Fin 8, ∑ l : Fin 1024,
            (X (ix3 b (chan g (hi h)) ⟨1024 + l.val, by omega⟩) - Cert.GroupGate.mu X b g)
              * (X (ix3 b (chan g (hi h)) ⟨1024 + l.val, by omega⟩) - Cert.GroupGate.mu X b g) :=
    (congrFun (View.readCov_cons_toLoadRect _ _ _ _) _).trans ((pay22_apply _ _ _ g).trans
      (congrArg₂ (· + ·) e1 (Finset.sum_congr rfl fun h _ => Finset.sum_congr rfl fun l _ =>
        dev_congr (chunk_apply arg1 harg1 x0 X b hx 1024 (by norm_num) _ (chan g (hi h)) l) hm)))
  have e3 : (kernelRun0_A.sl.v175 (F := Ideal) c arg1 harg1 arg10 arg11 x0 (ix2 g (0 : Fin 1)) : EReal)
      = ((0 + ∑ h : Fin 8, ∑ l : Fin 1024,
            (X (ix3 b (chan g (hi h)) ⟨0 + l.val, by omega⟩) - Cert.GroupGate.mu X b g)
              * (X (ix3 b (chan g (hi h)) ⟨0 + l.val, by omega⟩) - Cert.GroupGate.mu X b g))
          + ∑ h : Fin 8, ∑ l : Fin 1024,
            (X (ix3 b (chan g (hi h)) ⟨1024 + l.val, by omega⟩) - Cert.GroupGate.mu X b g)
              * (X (ix3 b (chan g (hi h)) ⟨1024 + l.val, by omega⟩) - Cert.GroupGate.mu X b g))
        + ∑ h : Fin 8, ∑ l : Fin 1024,
            (X (ix3 b (chan g (hi h)) ⟨2048 + l.val, by omega⟩) - Cert.GroupGate.mu X b g)
              * (X (ix3 b (chan g (hi h)) ⟨2048 + l.val, by omega⟩) - Cert.GroupGate.mu X b g) :=
    (congrFun (View.readCov_cons_toLoadRect _ _ _ _) _).trans ((pay23_apply _ _ _ g).trans
      (congrArg₂ (· + ·) e2 (Finset.sum_congr rfl fun h _ => Finset.sum_congr rfl fun l _ =>
        dev_congr (chunk_apply arg1 harg1 x0 X b hx 2048 (by norm_num) _ (chan g (hi h)) l) hm')))
  have e4 : (kernelRun0_A.sl.v182 (F := Ideal) c arg1 harg1 arg10 arg11 x0 (ix2 g (0 : Fin 1)) : EReal)
      = (((0 + ∑ h : Fin 8, ∑ l : Fin 1024,
            (X (ix3 b (chan g (hi h)) ⟨0 + l.val, by omega⟩) - Cert.GroupGate.mu X b g)
              * (X (ix3 b (chan g (hi h)) ⟨0 + l.val, by omega⟩) - Cert.GroupGate.mu X b g))
          + ∑ h : Fin 8, ∑ l : Fin 1024,
            (X (ix3 b (chan g (hi h)) ⟨1024 + l.val, by omega⟩) - Cert.GroupGate.mu X b g)
              * (X (ix3 b (chan g (hi h)) ⟨1024 + l.val, by omega⟩) - Cert.GroupGate.mu X b g))
          + ∑ h : Fin 8, ∑ l : Fin 1024,
            (X (ix3 b (chan g (hi h)) ⟨2048 + l.val, by omega⟩) - Cert.GroupGate.mu X b g)
              * (X (ix3 b (chan g (hi h)) ⟨2048 + l.val, by omega⟩) - Cert.GroupGate.mu X b g))
        + ∑ h : Fin 8, ∑ l : Fin 1024,
            (X (ix3 b (chan g (hi h)) ⟨3072 + l.val, by omega⟩) - Cert.GroupGate.mu X b g)
              * (X (ix3 b (chan g (hi h)) ⟨3072 + l.val, by omega⟩) - Cert.GroupGate.mu X b g) :=
    (congrFun (View.readCov_cons_toLoadRect _ _ _ _) _).trans ((pay25_apply _ _ _ g).trans
      (congrArg₂ (· + ·) e3 (Finset.sum_congr rfl fun h _ => Finset.sum_congr rfl fun l _ =>
        dev_congr (chunk_apply arg1 harg1 x0 X b hx 3072 (by norm_num) _ (chan g (hi h)) l) hm')))
  exact e4.trans (sum_four_chunks_slots fun h k =>
    (X (ix3 b (chan g (hi h)) k) - Cert.GroupGate.mu X b g) * (X (ix3 b (chan g (hi h)) k) - Cert.GroupGate.mu X b g))

/-- The reciprocal standard deviation: the clamp at zero is idle on a variance that is not negative. -/
theorem invStd_apply (hx : ∀ (r : Fin 512) (l : Fin 4096), x0 (ix3 (0 : Fin 1) r l) = X (ix3 b r l)) (g : Fin 32) :
    kernelRun0_A.sl.r_5 (F := Ideal) c arg1 harg1 arg10 arg11 x0 (ix2 g (0 : Fin 1)) = Cert.GroupGate.invStd X b g := by
  refine (pay26_apply _ g).trans ?_
  rw [devAcc_apply c arg1 harg1 arg10 arg11 x0 X b hx g, Ideal.ofBits_zero_f32]
  show Ideal.rsqrt (max (Cert.GroupGate.var X b g) 0 + eps) = Ideal.rsqrt (Cert.GroupGate.var X b g + eps)
  rw [max_eq_left (var_nonneg X b g)]

end

end Cert.KernelIdeal.Stats

end
-- ==== Proof.KernelFinal.lean ====
/-
  From blocks to the array: grid point t works on sample t. Its input block is sample t of x, the parameter blocks
  are the whole parameter arrays (the [32] vectors reshaped to columns on the host), what it writes back is the
  specification's result on sample t (KernelBlock), and the 16 blocks tile the result array.
-/
import proofs.«147669_j46557445489505_2_alg».proof.Proof.Gen.KernelIdeal.Value
import proofs.«147669_j46557445489505_2_alg».proof.Proof.KernelBlock
import proofs.«147669_j46557445489505_2_alg».proof.Proof.KernelStats
import Idealize.ShloMosaic.Lib.StableHlo.Run

set_option maxRecDepth 16384

noncomputable section

namespace Cert.KernelIdeal.Final

open Cert.KernelIdeal Cert.KernelIdeal.Gen Cert.KernelIdeal.Value Cert.GroupGate
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The sample a grid point works on. -/
def sampleOf (t : Fin cfg0.N) : Fin 16 := ⟨t.val, by have h := t.isLt; have hN : cfg0.N = 16 := N_0; omega⟩

/-- The printed index maps, decided over the 16 points: the input and output blocks of x move with the point
    along the sample axis; every parameter block is block 0. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- A [32] vector reshaped to a [32, 1] column, read at (g, 0). -/
theorem column_apply (v : S32.Idx → EReal) (h : S32.ShapeCasts S32x1) (g : Fin 32) :
    shapeCast S32x1 v h (ix2 g (0 : Fin 1)) = v (ix1 g) := by
  refine shapeCast_apply v h (ix2 g (0 : Fin 1)) (ix1 g) ?_
  rw [Shape.rowMajor_val_two, Shape.rowMajor_val_one]
  show g.val = g.val * 1 + (0 : Fin 1).val
  simp

/-- The four columns the host makes before the region. -/
theorem V_v0 (c : Dev nD) : (V m c main_v0 : S32x1.Idx → EReal) = shapeCast S32x1 (m ((c : Thread nD τ).loc main_arg1)) shapeCasts_S32_S32x1 := by
  dsimp only [Gen.V, Gen.hostOps0]; after_results; rfl
theorem V_v1 (c : Dev nD) : (V m c main_v1 : S32x1.Idx → EReal) = shapeCast S32x1 (m ((c : Thread nD τ).loc main_arg2)) shapeCasts_S32_S32x1 := by
  dsimp only [Gen.V, Gen.hostOps0]; after_results; rfl
theorem V_v2 (c : Dev nD) : (V m c main_v2 : S32x1.Idx → EReal) = shapeCast S32x1 (m ((c : Thread nD τ).loc main_arg3)) shapeCasts_S32_S32x1 := by
  dsimp only [Gen.V, Gen.hostOps0]; after_results; rfl
theorem V_v3 (c : Dev nD) : (V m c main_v3 : S32x1.Idx → EReal) = shapeCast S32x1 (m ((c : Thread nD τ).loc main_arg4)) shapeCasts_S32_S32x1 := by
  dsimp only [Gen.V, Gen.hostOps0]; after_results; rfl

/-- The input block of x at point t is sample t of x. -/
theorem blk0 (c : Dev nD) (t : Fin cfg0.N) (r : Fin 512) (l : Fin 4096) :
    (iblk m c 0 t : S1x512x4096.Idx → EReal) (ix3 (0 : Fin 1) r l) = (m ((c : Thread nD τ).loc main_arg0)) (ix3 (sampleOf t) r l) := by
  show V m c (Pipeline.arrRef spec0 0) (((cfg0.win 0).blk t).view.emb (ix3 (0 : Fin 1) r l)) = _
  rw [show V m c (Pipeline.arrRef spec0 0) = (m ((c : Thread nD τ).loc main_arg0)) from V_main_arg0 m c]
  obtain ⟨e0, e1, e2, -⟩ := idx_facts t
  refine congrArg _ (funext fun a => Fin.ext ?_)
  match a with
  | ⟨0, _⟩ => show win0_0.index t (0 : Fin 3) * 1 + 1 * (0 : Fin 1).val = t.val; rw [e0]; simp
  | ⟨1, _⟩ => show win0_0.index t (1 : Fin 3) * 512 + 1 * r.val = r.val; rw [e1]; simp
  | ⟨2, _⟩ => show win0_0.index t (2 : Fin 3) * 4096 + 1 * l.val = l.val; rw [e2]; simp

/-- The parameter blocks at any point are the whole parameter arrays. -/
theorem blk1 (c : Dev nD) (t : Fin cfg0.N) (g : Fin 32) :
    (iblk m c 1 t : S32x1.Idx → EReal) (ix2 g (0 : Fin 1)) = (m ((c : Thread nD τ).loc main_arg1)) (ix1 g) := by
  show V m c (Pipeline.arrRef spec0 1) (((cfg0.win 1).blk t).view.emb (ix2 g (0 : Fin 1))) = _
  obtain ⟨-, -, -, -, -, -, e0, e1, -⟩ := idx_facts t
  have he : ((cfg0.win 1).blk t).view.emb (ix2 g (0 : Fin 1)) = ix2 g (0 : Fin 1) := by
    funext a; apply Fin.ext
    match a with
    | ⟨0, _⟩ => show win0_1.index t (0 : Fin 2) * 32 + 1 * g.val = g.val; rw [e0]; simp
    | ⟨1, _⟩ => show win0_1.index t (1 : Fin 2) * 1 + 1 * (0 : Fin 1).val = (0 : Fin 1).val; rw [e1]; simp
  rw [he, show V m c (Pipeline.arrRef spec0 1) = V m c main_v0 from rfl, V_v0, column_apply]

theorem blk2 (c : Dev nD) (t : Fin cfg0.N) (g : Fin 32) :
    (iblk m c 2 t : S32x1.Idx → EReal) (ix2 g (0 : Fin 1)) = (m ((c : Thread nD τ).loc main_arg2)) (ix1 g) := by
  show V m c (Pipeline.arrRef spec0 2) (((cfg0.win 2).blk t).view.emb (ix2 g (0 : Fin 1))) = _
  obtain ⟨-, -, -, -, -, -, -, -, e0, e1, -⟩ := idx_facts t
  have he : ((cfg0.win 2).blk t).view.emb (ix2 g (0 : Fin 1)) = ix2 g (0 : Fin 1) := by
    funext a; apply Fin.ext
    match a with
    | ⟨0, _⟩ => show win0_2.index t (0 : Fin 2) * 32 + 1 * g.val = g.val; rw [e0]; simp
    | ⟨1, _⟩ => show win0_2.index t (1 : Fin 2) * 1 + 1 * (0 : Fin 1).val = (0 : Fin 1).val; rw [e1]; simp
  rw [he, show V m c (Pipeline.arrRef spec0 2) = V m c main_v1 from rfl, V_v1, column_apply]

theorem blk3 (c : Dev nD) (t : Fin cfg0.N) (g : Fin 32) :
    (iblk m c 3 t : S32x1.Idx → EReal) (ix2 g (0 : Fin 1)) = (m ((c : Thread nD τ).loc main_arg3)) (ix1 g) := by
  show V m c (Pipeline.arrRef spec0 3) (((cfg0.win 3).blk t).view.emb (ix2 g (0 : Fin 1))) = _
  obtain ⟨-, -, -, -, -, -, -, -, -, -, e0, e1, -⟩ := idx_facts t
  have he : ((cfg0.win 3).blk t).view.emb (ix2 g (0 : Fin 1)) = ix2 g (0 : Fin 1) := by
    funext a; apply Fin.ext
    match a with
    | ⟨0, _⟩ => show win0_3.index t (0 : Fin 2) * 32 + 1 * g.val = g.val; rw [e0]; simp
    | ⟨1, _⟩ => show win0_3.index t (1 : Fin 2) * 1 + 1 * (0 : Fin 1).val = (0 : Fin 1).val; rw [e1]; simp
  rw [he, show V m c (Pipeline.arrRef spec0 3) = V m c main_v2 from rfl, V_v2, column_apply]

theorem blk4 (c : Dev nD) (t : Fin cfg0.N) (g : Fin 32) :
    (iblk m c 4 t : S32x1.Idx → EReal) (ix2 g (0 : Fin 1)) = (m ((c : Thread nD τ).loc main_arg4)) (ix1 g) := by
  show V m c (Pipeline.arrRef spec0 4) (((cfg0.win 4).blk t).view.emb (ix2 g (0 : Fin 1))) = _
  obtain ⟨-, -, -, -, -, -, -, -, -, -, -, -, e0, e1, -⟩ := idx_facts t
  have he : ((cfg0.win 4).blk t).view.emb (ix2 g (0 : Fin 1)) = ix2 g (0 : Fin 1) := by
    funext a; apply Fin.ext
    match a with
    | ⟨0, _⟩ => show win0_4.index t (0 : Fin 2) * 32 + 1 * g.val = g.val; rw [e0]; simp
    | ⟨1, _⟩ => show win0_4.index t (1 : Fin 2) * 1 + 1 * (0 : Fin 1).val = (0 : Fin 1).val; rw [e1]; simp
  rw [he, show V m c (Pipeline.arrRef spec0 4) = V m c main_v3 from rfl, V_v3, column_apply]

theorem blk5 (c : Dev nD) (t : Fin cfg0.N) (g : Fin 32) (h : Fin 8) :
    (iblk m c 5 t : S32x8.Idx → EReal) (ix2 g h) = (m ((c : Thread nD τ).loc main_arg5)) (ix2 g h) := by
  show V m c (Pipeline.arrRef spec0 5) (((cfg0.win 5).blk t).view.emb (ix2 g h)) = _
  obtain ⟨-, -, -, -, -, -, -, -, -, -, -, -, -, -, e0, e1, -⟩ := idx_facts t
  have he : ((cfg0.win 5).blk t).view.emb (ix2 g h) = ix2 g h := by
    funext a; apply Fin.ext
    match a with
    | ⟨0, _⟩ => show win0_5.index t (0 : Fin 2) * 32 + 1 * g.val = g.val; rw [e0]; simp
    | ⟨1, _⟩ => show win0_5.index t (1 : Fin 2) * 8 + 1 * h.val = h.val; rw [e1]; simp
  rw [he, show V m c (Pipeline.arrRef spec0 5) = (m ((c : Thread nD τ).loc main_arg5)) from V_main_arg5 m c]

theorem blk6 (c : Dev nD) (t : Fin cfg0.N) (g : Fin 32) (h : Fin 8) :
    (iblk m c 6 t : S32x8.Idx → EReal) (ix2 g h) = (m ((c : Thread nD τ).loc main_arg6)) (ix2 g h) := by
  show V m c (Pipeline.arrRef spec0 6) (((cfg0.win 6).blk t).view.emb (ix2 g h)) = _
  obtain ⟨-, -, -, -, -, -, -, -, -, -, -, -, -, -, -, -, e0, e1⟩ := idx_facts t
  have he : ((cfg0.win 6).blk t).view.emb (ix2 g h) = ix2 g h := by
    funext a; apply Fin.ext
    match a with
    | ⟨0, _⟩ => show win0_6.index t (0 : Fin 2) * 32 + 1 * g.val = g.val; rw [e0]; simp
    | ⟨1, _⟩ => show win0_6.index t (1 : Fin 2) * 8 + 1 * h.val = h.val; rw [e1]; simp
  rw [he, show V m c (Pipeline.arrRef spec0 6) = (m ((c : Thread nD τ).loc main_arg6)) from V_main_arg6 m c]

/-- An entry of the result array is in point t's block iff each coordinate is in the block's range on its axis. -/
theorem mem_blk7 (t : Fin cfg0.N) (i : S16x512x4096.Idx) :
    i ∈ ((cfg0.win 7).blk t).view.set ↔ ∀ a : Fin 3, win0_7.index t a * S1x512x4096.size a ≤ (i a).val
      ∧ (i a).val < win0_7.index t a * S1x512x4096.size a + S1x512x4096.size a := by
  show i ∈ ((View.whole main_v4).slice (win0_7.rect t)).set ↔ _
  rw [View.set_slice_whole, Rect.mem_set_unit]
  exact Iff.rfl

/-- Every entry of the result array lies in the block of the point that works on its sample. -/
theorem cover (i : S16x512x4096.Idx) :
    ∃ t : Fin cfg0.N, (cfg0.win 7).flush t = true ∧ i ∈ ((cfg0.win 7).blk t).view.set := by
  have hN : cfg0.N = 16 := N_0
  have hi0 : (i 0).val < 16 := (i 0).isLt
  have hi1 : (i 1).val < 512 := (i 1).isLt
  have hi2 : (i 2).val < 4096 := (i 2).isLt
  obtain ⟨t, ht⟩ : ∃ t : Fin cfg0.N, t.val = (i 0).val := ⟨⟨(i 0).val, by rw [hN]; exact hi0⟩, rfl⟩
  refine ⟨t, flush0_7 t, ?_⟩
  rw [mem_blk7]
  obtain ⟨-, -, -, e0, e1, e2, -⟩ := idx_facts t
  intro a
  match a with
  | ⟨0, _⟩ => show win0_7.index t (0 : Fin 3) * 1 ≤ (i 0).val ∧ (i 0).val < win0_7.index t (0 : Fin 3) * 1 + 1; rw [e0]; omega
  | ⟨1, _⟩ => show win0_7.index t (1 : Fin 3) * 512 ≤ (i 1).val ∧ (i 1).val < win0_7.index t (1 : Fin 3) * 512 + 512; rw [e1]; omega
  | ⟨2, _⟩ => show win0_7.index t (2 : Fin 3) * 4096 ≤ (i 2).val ∧ (i 2).val < win0_7.index t (2 : Fin 3) * 4096 + 4096; rw [e2]; omega

/-- The result array: the specification's function of the seven argument arrays. -/
abbrev result (c : Dev nD) : Buf (Elt Ideal) ((c : Thread nD τ).loc main_v4) :=
  Cert.GroupGate.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- WHAT POINT t WRITES BACK is block t of the result: the body's block is the specification's result on sample t,
    and the block's entry (0, r, l) is the array's entry (t, r, l). -/
theorem flushed_eq (c : Dev nD) (t : Fin cfg0.N) (_hf : (cfg0.win 7).flush t = true) :
    (dats m 0 c).flushed 7 t = ((cfg0.win 7).blk t).view.read (Elt Ideal) (result m c) := by
  rw [flushed7_A]
  funext y
  refine (Block.block_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (iblk m c 6 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (sampleOf t) (blk0 m c t)
      (Stats.mu_apply c (ms0_0 t) (hs0_0 t) scM0_1 (iblk m c 0 t) (m ((c : Thread nD τ).loc main_arg0)) (sampleOf t) (blk0 m c t))
      (Stats.invStd_apply c (ms0_0 t) (hs0_0 t) scM0_1 scM0_2 (iblk m c 0 t) (m ((c : Thread nD τ).loc main_arg0)) (sampleOf t) (blk0 m c t))
      (Stats.gate1_apply c (ms0_0 t) (hs0_0 t) (ms0_1 t) (ms0_2 t) (hs0_1 t) (hs0_2 t) scM0_0 (iblk m c 0 t) (iblk m c 1 t) (iblk m c 2 t)
        (m ((c : Thread nD τ).loc main_arg0)) (m ((c : Thread nD τ).loc main_arg1)) (m ((c : Thread nD τ).loc main_arg2)) (sampleOf t) (blk0 m c t) (blk1 m c t) (blk2 m c t))
      (blk3 m c t) (blk4 m c t) (blk5 m c t) (blk6 m c t) y).trans ?_
  rw [View.read_apply]
  obtain ⟨-, -, -, e0, e1, e2, -⟩ := idx_facts t
  have hy0 : (y 0).val < 1 := (y 0).isLt
  show outAt _ _ _ _ _ _ _ (sampleOf t) (y 1) (y 2)
    = outAt _ _ _ _ _ _ _ ((((cfg0.win 7).blk t).view.emb y) 0) ((((cfg0.win 7).blk t).view.emb y) 1) ((((cfg0.win 7).blk t).view.emb y) 2)
  refine congr (congr (congrArg (outAt _ _ _ _ _ _ _) (Fin.ext ?_)) (Fin.ext ?_)) (Fin.ext ?_)
  · show t.val = win0_7.index t (0 : Fin 3) * 1 + 1 * (y 0).val
    rw [e0]; omega
  · show (y 1).val = win0_7.index t (1 : Fin 3) * 512 + 1 * (y 1).val
    rw [e1]; omega
  · show (y 2).val = win0_7.index t (2 : Fin 3) * 4096 + 1 * (y 2).val
    rw [e2]; omega

/-- So the result array ends holding the specification's function of the arguments. -/
theorem final (c : Dev nD) : (dats m 0 c).arrAt 7 cfg0.N = result m c :=
  (dats m 0 c).arrAt_eq_of_cover 7 (result m c) (flushed_eq m c) cover

/-- The idealized kernel's run: every weakly fair execution ends with the result array at the specification's
    function of the arguments, and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Final

end
-- ==== Proof.RefRun.lean ====
/-
  The reference program's @main as one straight line of host operations, and its run.

  @main calls the outlined variance function once, which calls the outlined select once; a call means the
  callee's body on the operands, so the two bodies are listed in place over the call's own buffers. The
  line has 94 operations: 71 of @main, 20 of the variance function, 3 of the select. Every weakly fair
  execution of the program ends with each buffer holding the fold of these operations over the launch
  contents.
-/
import proofs.«147669_j46557445489505_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 94 operations in program order, the two calls replaced by their bodies over the calls' buffers. -/
abbrev ops : List (HloOp τ sig (Elt F)) :=
  [ StableHlo.reshape main_arg0 main_v0 rfl shapeCasts_S16x512x4096_S16x32x16x4096,
    StableHlo.unary main_v0 main_v1 ((extractStridedSlice S16x32x8x4096 ![0, 0, 0, 0] · slices_S16x32x16x4096_S16x32x8x4096_0_0_0_0) : (⟨S16x32x16x4096, .f32⟩ : BufTy).Contents (Elt F) → (⟨S16x32x8x4096, .f32⟩ : BufTy).Contents (Elt F)),
    StableHlo.unary main_v0 main_v2 ((extractStridedSlice S16x32x8x4096 ![0, 0, 8, 0] · slices_S16x32x16x4096_S16x32x8x4096_0_0_8_0) : (⟨S16x32x16x4096, .f32⟩ : BufTy).Contents (Elt F) → (⟨S16x32x8x4096, .f32⟩ : BufTy).Contents (Elt F)),
    StableHlo.nullary main_cst (constant S_ .f32 0x00000000#32),
    StableHlo.binary main_v1 main_cst main_v3 ((fun x v => Host.reduceAdd x v reducesTo_S16x32x8x4096_S16x32x8_d3 h_S_) : (⟨S16x32x8x4096, .f32⟩ : BufTy).Contents (Elt F) → (⟨S_, .f32⟩ : BufTy).Contents (Elt F) → (⟨S16x32x8, .f32⟩ : BufTy).Contents (Elt F)),
    StableHlo.nullary main_cst_0 (constant S_ .f32 0x45800000#32),
    StableHlo.unary main_cst_0 main_v4 (broadcastInDim S16x32x8 ![] bcast_S_S16x32x8 : (⟨S_, .f32⟩ : BufTy).Contents (Elt F) → (⟨S16x32x8, .f32⟩ : BufTy).Contents (Elt F)),
    StableHlo.binary main_v3 main_v4 main_v5 (Host.divf : (⟨S16x32x8, .f32⟩ : BufTy).Contents (Elt F) → (⟨S16x32x8, .f32⟩ : BufTy).Contents (Elt F) → (⟨S16x32x8, .f32⟩ : BufTy).Contents (Elt F)),
    StableHlo.unary main_arg1 main_v6 (broadcastInDim S1x32x1 ![1] bcast_S32_S1x32x1_1 : (⟨S32, .f32⟩ : BufTy).Contents (Elt F) → (⟨S1x32x1, .f32⟩ : BufTy).Contents (Elt F)),
    StableHlo.unary main_v6 main_v7 (broadcastInDim S16x32x8 ![0, 1, 2] bcast_S1x32x1_S16x32x8_0_1_2 : (⟨S1x32x1, .f32⟩ : BufTy).Contents (Elt F) → (⟨S16x32x8, .f32⟩ : BufTy).Contents (Elt F)),
    StableHlo.binary main_v5 main_v7 main_v8 (mulf : (⟨S16x32x8, .f32⟩ : BufTy).Contents (Elt F) → (⟨S16x32x8, .f32⟩ : BufTy).Contents (Elt F) → (⟨S16x32x8, .f32⟩ : BufTy).Contents (Elt F)),
    StableHlo.unary main_arg2 main_v9 (broadcastInDim S1x32x1 ![1] bcast_S32_S1x32x1_1 : (⟨S32, .f32⟩ : BufTy).Contents (Elt F) → (⟨S1x32x1, .f32⟩ : BufTy).Contents (Elt F)),
    StableHlo.unary main_v9 main_v10 (broadcastInDim S16x32x8 ![0, 1, 2] bcast_S1x32x1_S16x32x8_0_1_2 : (⟨S1x32x1, .f32⟩ : BufTy).Contents (Elt F) → (⟨S16x32x8, .f32⟩ : BufTy).Contents (Elt F)),
    StableHlo.binary main_v8 main_v10 main_v11 (addf : (⟨S16x32x8, .f32⟩ : BufTy).Contents (Elt F) → (⟨S16x32x8, .f32⟩ : BufTy).Contents (Elt F) → (⟨S16x32x8, .f32⟩ : BufTy).Contents (Elt F)),
    StableHlo.unary main_v11 main_v12 (Host.negf : (⟨S16x32x8, .f32⟩ : BufTy).Contents (Elt F) → (⟨S16x32x8, .f32⟩ : BufTy).Contents (Elt F)),
    StableHlo.unary main_v12 main_v13 (Host.exp : (⟨S16x32x8, .f32⟩ : BufTy).Contents (Elt F) → (⟨S16x32x8, .f32⟩ : BufTy).Contents (Elt F)),
    StableHlo.nullary main_cst_1 (constant S_ .f32 0x3F800000#32),
    StableHlo.unary main_cst_1 main_v14 (broadcastInDim S16x32x8 ![] bcast_S_S16x32x8 : (⟨S_, .f32⟩ : BufTy).Contents (Elt F) → (⟨S16x32x8, .f32⟩ : BufTy).Contents (Elt F)),
    StableHlo.binary main_v14 main_v13 main_v15 (addf : (⟨S16x32x8, .f32⟩ : BufTy).Contents (Elt F) → (⟨S16x32x8, .f32⟩ : BufTy).Contents (Elt F) → (⟨S16x32x8, .f32⟩ : BufTy).Contents (Elt F)),
    StableHlo.nullary main_cst_2 (constant S_ .f32 0x3F800000#32),
    StableHlo.unary main_cst_2 main_v16 (broadcastInDim S16x32x8 ![] bcast_S_S16x32x8 : (⟨S_, .f32⟩ : BufTy).Contents (Elt F) → (⟨S16x32x8, .f32⟩ : BufTy).Contents (Elt F)),
    StableHlo.binary main_v16 main_v15 main_v17 (Host.divf : (⟨S16x32x8, .f32⟩ : BufTy).Contents (Elt F) → (⟨S16x32x8, .f32⟩ : BufTy).Contents (Elt F) → (⟨S16x32x8, .f32⟩ : BufTy).Contents (Elt F)),
    StableHlo.unary main_v17 main_v18 (broadcastInDim S16x32x8x1 ![0, 1, 2] bcast_S16x32x8_S16x32x8x1_0_1_2 : (⟨S16x32x8, .f32⟩ : BufTy).Contents (Elt F) → (⟨S16x32x8x1, .f32⟩ : BufTy).Contents (Elt F)),
    StableHlo.unary main_v18 main_v19 (broadcastInDim S16x32x8x4096 ![0, 1, 2, 3] bcast_S16x32x8x1_S16x32x8x4096_0_1_2_3 : (⟨S16x32x8x1, .f32⟩ : BufTy).Contents (Elt F) → (⟨S16x32x8x4096, .f32⟩ : BufTy).Contents (Elt F)),
    StableHlo.binary main_v1 main_v19 main_v20 (mulf : (⟨S16x32x8x4096, .f32⟩ : BufTy).Contents (Elt F) → (⟨S16x32x8x4096, .f32⟩ : BufTy).Contents (Elt F) → (⟨S16x32x8x4096, .f32⟩ : BufTy).Contents (Elt F)),
    StableHlo.nullary main_cst_3 (constant S_ .f32 0x00000000#32),
    StableHlo.binary main_v2 main_cst_3 main_v21 ((fun x v => Host.reduceAdd x v reducesTo_S16x32x8x4096_S16x32_d2_3 h_S_) : (⟨S16x32x8x4096, .f32⟩ : BufTy).Contents (Elt F) → (⟨S_, .f32⟩ : BufTy).Contents (Elt F) → (⟨S16x32, .f32⟩ : BufTy).Contents (Elt F)),
    StableHlo.unary main_v21 main_v22 (broadcastInDim S16x32x1x1 ![0, 1] bcast_S16x32_S16x32x1x1_0_1 : (⟨S16x32, .f32⟩ : BufTy).Contents (Elt F) → (⟨S16x32x1x1, .f32⟩ : BufTy).Contents (Elt F)),
    StableHlo.nullary main_cst_4 (constant S_ .f32 0x47000000#32),
    StableHlo.unary main_cst_4 main_v23 (broadcastInDim S16x32x1x1 ![] bcast_S_S16x32x1x1 : (⟨S_, .f32⟩ : BufTy).Contents (Elt F) → (⟨S16x32x1x1, .f32⟩ : BufTy).Contents (Elt F)),
    StableHlo.binary main_v22 main_v23 main_v24 (Host.divf : (⟨S16x32x1x1, .f32⟩ : BufTy).Contents (Elt F) → (⟨S16x32x1x1, .f32⟩ : BufTy).Contents (Elt F) → (⟨S16x32x1x1, .f32⟩ : BufTy).Contents (Elt F)),
    StableHlo.nullary main_c (constantI S_ 32 0#32),
    StableHlo.TRef.nullary main_call0.cst (constant S_ .f32 0x00000000#32),
    StableHlo.TRef.binary (.of main_v2 : StableHlo.TRef sig ⟨S16x32x8x4096, .f32⟩) main_call0.cst main_call0.v0 (fun x v => Host.reduceAdd x v reducesTo_S16x32x8x4096_S16x32_d2_3 h_S_),
    StableHlo.TRef.unary main_call0.v0 main_call0.v1 (broadcastInDim S16x32x1x1 ![0, 1] bcast_S16x32_S16x32x1x1_0_1),
    StableHlo.TRef.nullary main_call0.cst_0 (constant S_ .f32 0x47000000#32),
    StableHlo.TRef.unary main_call0.cst_0 main_call0.v2 (broadcastInDim S16x32x1x1 ![] bcast_S_S16x32x1x1),
    StableHlo.TRef.binary main_call0.v1 main_call0.v2 main_call0.v3 Host.divf,
    StableHlo.TRef.unary main_call0.v3 main_call0.v4 (broadcastInDim S16x32x8x4096 ![0, 1, 2, 3] bcast_S16x32x1x1_S16x32x8x4096_0_1_2_3),
    StableHlo.TRef.binary (.of main_v2 : StableHlo.TRef sig ⟨S16x32x8x4096, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16x32x8x4096_S16x32_d2_3 h_S_),
    StableHlo.TRef.unary main_call0.v9 main_call0.v10 (broadcastInDim S16x32x1x1 ![0, 1] bcast_S16x32_S16x32x1x1_0_1),
    StableHlo.TRef.unary main_call0.v8 main_call0.v11 (broadcastInDim S16x32x1x1 ![] bcast_S_S16x32x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16x32x1x1 ![] bcast_S_S16x32x1x1),
    StableHlo.TRef.ternary main_call0.v13 main_call0.v12 main_call0.call0.v1 main_call0.call0.v2 (fun p a b => select (broadcastInDim S16x32x1x1 ![] bcast_S_S16x32x1x1 p) a b),
    StableHlo.unary main_v24 main_v26 (broadcastInDim S16x32x8x4096 ![0, 1, 2, 3] bcast_S16x32x1x1_S16x32x8x4096_0_1_2_3 : (⟨S16x32x1x1, .f32⟩ : BufTy).Contents (Elt F) → (⟨S16x32x8x4096, .f32⟩ : BufTy).Contents (Elt F)),
    StableHlo.binary main_v2 main_v26 main_v27 (subf : (⟨S16x32x8x4096, .f32⟩ : BufTy).Contents (Elt F) → (⟨S16x32x8x4096, .f32⟩ : BufTy).Contents (Elt F) → (⟨S16x32x8x4096, .f32⟩ : BufTy).Contents (Elt F)),
    StableHlo.nullary main_cst_5 (constant S_ .f32 0x3727C5AC#32),
    StableHlo.unary main_cst_5 main_v28 (broadcastInDim S16x32x1x1 ![] bcast_S_S16x32x1x1 : (⟨S_, .f32⟩ : BufTy).Contents (Elt F) → (⟨S16x32x1x1, .f32⟩ : BufTy).Contents (Elt F)),
    StableHlo.binary main_v25 main_v28 main_v29 (addf : (⟨S16x32x1x1, .f32⟩ : BufTy).Contents (Elt F) → (⟨S16x32x1x1, .f32⟩ : BufTy).Contents (Elt F) → (⟨S16x32x1x1, .f32⟩ : BufTy).Contents (Elt F)),
    StableHlo.unary main_v29 main_v30 (Host.rsqrt : (⟨S16x32x1x1, .f32⟩ : BufTy).Contents (Elt F) → (⟨S16x32x1x1, .f32⟩ : BufTy).Contents (Elt F)),
    StableHlo.unary main_v30 main_v31 (broadcastInDim S16x32x8x4096 ![0, 1, 2, 3] bcast_S16x32x1x1_S16x32x8x4096_0_1_2_3 : (⟨S16x32x1x1, .f32⟩ : BufTy).Contents (Elt F) → (⟨S16x32x8x4096, .f32⟩ : BufTy).Contents (Elt F)),
    StableHlo.binary main_v27 main_v31 main_v32 (mulf : (⟨S16x32x8x4096, .f32⟩ : BufTy).Contents (Elt F) → (⟨S16x32x8x4096, .f32⟩ : BufTy).Contents (Elt F) → (⟨S16x32x8x4096, .f32⟩ : BufTy).Contents (Elt F)),
    StableHlo.unary main_arg5 main_v33 (broadcastInDim S1x32x8x1 ![1, 2] bcast_S32x8_S1x32x8x1_1_2 : (⟨S32x8, .f32⟩ : BufTy).Contents (Elt F) → (⟨S1x32x8x1, .f32⟩ : BufTy).Contents (Elt F)),
    StableHlo.unary main_v33 main_v34 (broadcastInDim S16x32x8x4096 ![0, 1, 2, 3] bcast_S1x32x8x1_S16x32x8x4096_0_1_2_3 : (⟨S1x32x8x1, .f32⟩ : BufTy).Contents (Elt F) → (⟨S16x32x8x4096, .f32⟩ : BufTy).Contents (Elt F)),
    StableHlo.binary main_v32 main_v34 main_v35 (mulf : (⟨S16x32x8x4096, .f32⟩ : BufTy).Contents (Elt F) → (⟨S16x32x8x4096, .f32⟩ : BufTy).Contents (Elt F) → (⟨S16x32x8x4096, .f32⟩ : BufTy).Contents (Elt F)),
    StableHlo.unary main_arg6 main_v36 (broadcastInDim S1x32x8x1 ![1, 2] bcast_S32x8_S1x32x8x1_1_2 : (⟨S32x8, .f32⟩ : BufTy).Contents (Elt F) → (⟨S1x32x8x1, .f32⟩ : BufTy).Contents (Elt F)),
    StableHlo.unary main_v36 main_v37 (broadcastInDim S16x32x8x4096 ![0, 1, 2, 3] bcast_S1x32x8x1_S16x32x8x4096_0_1_2_3 : (⟨S1x32x8x1, .f32⟩ : BufTy).Contents (Elt F) → (⟨S16x32x8x4096, .f32⟩ : BufTy).Contents (Elt F)),
    StableHlo.binary main_v35 main_v37 main_v38 (addf : (⟨S16x32x8x4096, .f32⟩ : BufTy).Contents (Elt F) → (⟨S16x32x8x4096, .f32⟩ : BufTy).Contents (Elt F) → (⟨S16x32x8x4096, .f32⟩ : BufTy).Contents (Elt F)),
    StableHlo.nullary main_cst_6 (constant S_ .f32 0x00000000#32),
    StableHlo.binary main_v38 main_cst_6 main_v39 ((fun x v => Host.reduceAdd x v reducesTo_S16x32x8x4096_S16x32x4096_d2 h_S_) : (⟨S16x32x8x4096, .f32⟩ : BufTy).Contents (Elt F) → (⟨S_, .f32⟩ : BufTy).Contents (Elt F) → (⟨S16x32x4096, .f32⟩ : BufTy).Contents (Elt F)),
    StableHlo.nullary main_cst_7 (constant S_ .f32 0x41000000#32),
    StableHlo.unary main_cst_7 main_v40 (broadcastInDim S16x32x4096 ![] bcast_S_S16x32x4096 : (⟨S_, .f32⟩ : BufTy).Contents (Elt F) → (⟨S16x32x4096, .f32⟩ : BufTy).Contents (Elt F)),
    StableHlo.binary main_v39 main_v40 main_v41 (Host.divf : (⟨S16x32x4096, .f32⟩ : BufTy).Contents (Elt F) → (⟨S16x32x4096, .f32⟩ : BufTy).Contents (Elt F) → (⟨S16x32x4096, .f32⟩ : BufTy).Contents (Elt F)),
    StableHlo.unary main_arg3 main_v42 (broadcastInDim S1x32x1 ![1] bcast_S32_S1x32x1_1 : (⟨S32, .f32⟩ : BufTy).Contents (Elt F) → (⟨S1x32x1, .f32⟩ : BufTy).Contents (Elt F)),
    StableHlo.unary main_v42 main_v43 (broadcastInDim S16x32x4096 ![0, 1, 2] bcast_S1x32x1_S16x32x4096_0_1_2 : (⟨S1x32x1, .f32⟩ : BufTy).Contents (Elt F) → (⟨S16x32x4096, .f32⟩ : BufTy).Contents (Elt F)),
    StableHlo.binary main_v41 main_v43 main_v44 (mulf : (⟨S16x32x4096, .f32⟩ : BufTy).Contents (Elt F) → (⟨S16x32x4096, .f32⟩ : BufTy).Contents (Elt F) → (⟨S16x32x4096, .f32⟩ : BufTy).Contents (Elt F)),
    StableHlo.unary main_arg4 main_v45 (broadcastInDim S1x32x1 ![1] bcast_S32_S1x32x1_1 : (⟨S32, .f32⟩ : BufTy).Contents (Elt F) → (⟨S1x32x1, .f32⟩ : BufTy).Contents (Elt F)),
    StableHlo.unary main_v45 main_v46 (broadcastInDim S16x32x4096 ![0, 1, 2] bcast_S1x32x1_S16x32x4096_0_1_2 : (⟨S1x32x1, .f32⟩ : BufTy).Contents (Elt F) → (⟨S16x32x4096, .f32⟩ : BufTy).Contents (Elt F)),
    StableHlo.binary main_v44 main_v46 main_v47 (addf : (⟨S16x32x4096, .f32⟩ : BufTy).Contents (Elt F) → (⟨S16x32x4096, .f32⟩ : BufTy).Contents (Elt F) → (⟨S16x32x4096, .f32⟩ : BufTy).Contents (Elt F)),
    StableHlo.unary main_v47 main_v48 (Host.negf : (⟨S16x32x4096, .f32⟩ : BufTy).Contents (Elt F) → (⟨S16x32x4096, .f32⟩ : BufTy).Contents (Elt F)),
    StableHlo.unary main_v48 main_v49 (Host.exp : (⟨S16x32x4096, .f32⟩ : BufTy).Contents (Elt F) → (⟨S16x32x4096, .f32⟩ : BufTy).Contents (Elt F)),
    StableHlo.nullary main_cst_8 (constant S_ .f32 0x3F800000#32),
    StableHlo.unary main_cst_8 main_v50 (broadcastInDim S16x32x4096 ![] bcast_S_S16x32x4096 : (⟨S_, .f32⟩ : BufTy).Contents (Elt F) → (⟨S16x32x4096, .f32⟩ : BufTy).Contents (Elt F)),
    StableHlo.binary main_v50 main_v49 main_v51 (addf : (⟨S16x32x4096, .f32⟩ : BufTy).Contents (Elt F) → (⟨S16x32x4096, .f32⟩ : BufTy).Contents (Elt F) → (⟨S16x32x4096, .f32⟩ : BufTy).Contents (Elt F)),
    StableHlo.nullary main_cst_9 (constant S_ .f32 0x3F800000#32),
    StableHlo.unary main_cst_9 main_v52 (broadcastInDim S16x32x4096 ![] bcast_S_S16x32x4096 : (⟨S_, .f32⟩ : BufTy).Contents (Elt F) → (⟨S16x32x4096, .f32⟩ : BufTy).Contents (Elt F)),
    StableHlo.binary main_v52 main_v51 main_v53 (Host.divf : (⟨S16x32x4096, .f32⟩ : BufTy).Contents (Elt F) → (⟨S16x32x4096, .f32⟩ : BufTy).Contents (Elt F) → (⟨S16x32x4096, .f32⟩ : BufTy).Contents (Elt F)),
    StableHlo.unary main_v53 main_v54 (broadcastInDim S16x32x1x4096 ![0, 1, 3] bcast_S16x32x4096_S16x32x1x4096_0_1_3 : (⟨S16x32x4096, .f32⟩ : BufTy).Contents (Elt F) → (⟨S16x32x1x4096, .f32⟩ : BufTy).Contents (Elt F)),
    StableHlo.unary main_v54 main_v55 (broadcastInDim S16x32x8x4096 ![0, 1, 2, 3] bcast_S16x32x1x4096_S16x32x8x4096_0_1_2_3 : (⟨S16x32x1x4096, .f32⟩ : BufTy).Contents (Elt F) → (⟨S16x32x8x4096, .f32⟩ : BufTy).Contents (Elt F)),
    StableHlo.binary main_v2 main_v55 main_v56 (mulf : (⟨S16x32x8x4096, .f32⟩ : BufTy).Contents (Elt F) → (⟨S16x32x8x4096, .f32⟩ : BufTy).Contents (Elt F) → (⟨S16x32x8x4096, .f32⟩ : BufTy).Contents (Elt F)),
    StableHlo.binary main_v20 main_v56 main_v57 ((fun a b => concatenate S16x32x16x4096 2 [⟨S16x32x8x4096, a⟩, ⟨S16x32x8x4096, b⟩] concatenates_S16x32x8x4096_S16x32x8x4096_S16x32x16x4096_d2) : (⟨S16x32x8x4096, .f32⟩ : BufTy).Contents (Elt F) → (⟨S16x32x8x4096, .f32⟩ : BufTy).Contents (Elt F) → (⟨S16x32x16x4096, .f32⟩ : BufTy).Contents (Elt F)),
    StableHlo.unary main_v57 main_v58 ((transpose S16x16x32x4096 [0, 2, 1, 3] · transposes_S16x32x16x4096_S16x16x32x4096_0_2_1_3) : (⟨S16x32x16x4096, .f32⟩ : BufTy).Contents (Elt F) → (⟨S16x16x32x4096, .f32⟩ : BufTy).Contents (Elt F)),
    StableHlo.reshape main_v58 main_v59 rfl shapeCasts_S16x16x32x4096_S16x512x4096 ]

set_option maxRecDepth 4096 in
set_option maxHeartbeats 4000000 in
/-- @main is that line: the two windows and the two function bodies unfold to it, and the sequencing of a
    straight line reassociates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., unary_bufs_sub .., nullary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., unary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., unary_bufs_sub .., unary_bufs_sub ..,
    binary_bufs_sub .., binary_bufs_sub .., unary_bufs_sub .., reshape_bufs_sub ..⟩

/-- From any memory with zero counters every weakly fair execution of @main terminates, and every buffer
    ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.LibHostSum4.lean ====
/-
  The host's sums over trailing axes of an `[a, b, c, d]` array, read at an entry.

  A `stablehlo.reduce` with an `add` body is, on the extended reals, the initial value plus the sum of the operand
  elements whose kept coordinates are the entry's. For a rank-4 operand:
    • over axes 2 and 3 into `[a, b]`: entry `(p, q)` is `init + ∑ r s, x (p, q, r, s)`;
    • over axis 3 into `[a, b, c]`: entry `(p, q, r)` is `init + ∑ s, x (p, q, r, s)`;
    • over axis 2 into `[a, b, d]`: entry `(p, q, s)` is `init + ∑ r, x (p, q, r, s)`.
  The same three for the host operation started from the zero word, where the initial value vanishes.
  Every extent is generic.
-/
import Idealize.ShloMosaic.PureOps.Ideal.Laws
import Idealize.ShloMosaic.Lib.ValueIdx
import Idealize.ShloMosaic.Lib.IdealHost

namespace HostSumRank4

open Idealize.ShloMosaic Idealize.ShloMosaic.ValueIdx
open scoped BigOperators

variable {a b c d : ℕ}

/-! ## Two axes -/

/-- The sum over axes 2 and 3, at entry `(p, q)`. -/
theorem hostSum23_apply (x : (⟨4, ![a, b, c, d]⟩ : Shape).Idx → EReal) (init : EReal)
    (h : Shape.ReducesTo ⟨4, ![a, b, c, d]⟩ [2, 3] ⟨2, ![a, b]⟩) (p : Fin a) (q : Fin b) :
    Ideal.hostReduceAdd h x init (ix2 p q) = init + ∑ r : Fin c, ∑ s : Fin d, x (ix4 p q r s) := by
  unfold Ideal.hostReduceAdd
  refine congrArg (init + ·) ?_
  rw [← Fintype.sum_prod_type']
  refine Finset.sum_bij' (fun i _ => ((i 2 : Fin c), (i 3 : Fin d))) (fun rs _ => ix4 p q rs.1 rs.2)
    (fun _ _ => Finset.mem_univ _) ?_ ?_ (fun _ _ => rfl) ?_
  · intro rs _
    rw [Finset.mem_filter]
    refine ⟨Finset.mem_univ _, ?_⟩
    funext e
    match e with
    | ⟨0, _⟩ => exact Fin.ext rfl
    | ⟨1, _⟩ => exact Fin.ext rfl
  · intro i hi
    rw [Finset.mem_filter] at hi
    have h0 : (i 0).val = p.val := congrArg (fun j => (j 0).val) hi.2
    have h1 : (i 1).val = q.val := congrArg (fun j => (j 1).val) hi.2
    funext e
    apply Fin.ext
    match e with
    | ⟨0, _⟩ => exact h0.symm
    | ⟨1, _⟩ => exact h1.symm
    | ⟨2, _⟩ => rfl
    | ⟨3, _⟩ => rfl
  · intro i hi
    rw [Finset.mem_filter] at hi
    have h0 : (i 0).val = p.val := congrArg (fun j => (j 0).val) hi.2
    have h1 : (i 1).val = q.val := congrArg (fun j => (j 1).val) hi.2
    refine congrArg x ?_
    funext e
    apply Fin.ext
    match e with
    | ⟨0, _⟩ => exact h0
    | ⟨1, _⟩ => exact h1
    | ⟨2, _⟩ => rfl
    | ⟨3, _⟩ => rfl

/-! ## One axis -/

/-- Entry `(p, q, r)` with the last coordinate `s` put back is `(p, q, r, s)`. -/
theorem lift_axis3 (h : Shape.Reduces ⟨4, ![a, b, c, d]⟩ [3] ⟨3, ![a, b, c]⟩) (p : Fin a) (q : Fin b) (r : Fin c)
    (s : Fin d) : h.lift (ix3 p q r) s = ix4 p q r s := by
  funext e
  apply Fin.ext
  match e with
  | ⟨0, _⟩ => rfl
  | ⟨1, _⟩ => rfl
  | ⟨2, _⟩ => rfl
  | ⟨3, _⟩ => rfl

/-- Entry `(p, q, s)` with the third coordinate `r` put back is `(p, q, r, s)`. -/
theorem lift_axis2 (h : Shape.Reduces ⟨4, ![a, b, c, d]⟩ [2] ⟨3, ![a, b, d]⟩) (p : Fin a) (q : Fin b) (s : Fin d)
    (r : Fin c) : h.lift (ix3 p q s) r = ix4 p q r s := by
  funext e
  apply Fin.ext
  match e with
  | ⟨0, _⟩ => rfl
  | ⟨1, _⟩ => rfl
  | ⟨2, _⟩ => rfl
  | ⟨3, _⟩ => rfl

/-- The sum over axis 3, at entry `(p, q, r)`. -/
theorem hostSum3_apply (x : (⟨4, ![a, b, c, d]⟩ : Shape).Idx → EReal) (init : EReal)
    (h' : Shape.ReducesTo ⟨4, ![a, b, c, d]⟩ [3] ⟨3, ![a, b, c]⟩) (p : Fin a) (q : Fin b) (r : Fin c) :
    Ideal.hostReduceAdd h' x init (ix3 p q r) = init + ∑ s : Fin d, x (ix4 p q r s) := by
  have h : Shape.Reduces ⟨4, ![a, b, c, d]⟩ [3] ⟨3, ![a, b, c]⟩ := ⟨h'.1, Nat.succ_pos 2, h'.2⟩
  refine (Ideal.hostReduceAdd_single h' h x init (ix3 p q r)).trans ?_
  exact congrArg (init + ·) (Finset.sum_congr rfl fun s _ => congrArg x (lift_axis3 h p q r s))

/-- The sum over axis 2, at entry `(p, q, s)`. -/
theorem hostSum2_apply (x : (⟨4, ![a, b, c, d]⟩ : Shape).Idx → EReal) (init : EReal)
    (h' : Shape.ReducesTo ⟨4, ![a, b, c, d]⟩ [2] ⟨3, ![a, b, d]⟩) (p : Fin a) (q : Fin b) (s : Fin d) :
    Ideal.hostReduceAdd h' x init (ix3 p q s) = init + ∑ r : Fin c, x (ix4 p q r s) := by
  have h : Shape.Reduces ⟨4, ![a, b, c, d]⟩ [2] ⟨3, ![a, b, d]⟩ := ⟨h'.1, Nat.succ_pos 2, h'.2⟩
  refine (Ideal.hostReduceAdd_single h' h x init (ix3 p q s)).trans ?_
  exact congrArg (init + ·) (Finset.sum_congr rfl fun r _ => congrArg x (lift_axis2 h p q s r))

/-! ## The host operation from the zero word -/

/-- The host's sum over axes 2 and 3 from the zero word: at `(p, q)` the double sum. -/
theorem hostReduceAdd23_zero_apply {u : Shape} (x : FVec Ideal ⟨4, ![a, b, c, d]⟩ .f32)
    (h' : Shape.ReducesTo ⟨4, ![a, b, c, d]⟩ [2, 3] ⟨2, ![a, b]⟩) (hu : 0 < u.numel) (p : Fin a) (q : Fin b) :
    Host.reduceAdd x (constant u .f32 0x00000000#32) h' hu (ix2 p q) = ∑ r : Fin c, ∑ s : Fin d, x (ix4 p q r s) := by
  refine (hostReduceAdd_apply x _ h' hu (ix2 p q)).trans ?_
  refine (hostSum23_apply x _ h' p q).trans ?_
  show Ideal.ofBits .f32 0x00000000#32 + _ = _
  rw [Ideal.ofBits_zero_f32, zero_add]

/-- The host's sum over axis 3 from the zero word: at `(p, q, r)` the sum over the last coordinate. -/
theorem hostReduceAdd3_zero_apply {u : Shape} (x : FVec Ideal ⟨4, ![a, b, c, d]⟩ .f32)
    (h' : Shape.ReducesTo ⟨4, ![a, b, c, d]⟩ [3] ⟨3, ![a, b, c]⟩) (hu : 0 < u.numel) (p : Fin a) (q : Fin b) (r : Fin c) :
    Host.reduceAdd x (constant u .f32 0x00000000#32) h' hu (ix3 p q r) = ∑ s : Fin d, x (ix4 p q r s) := by
  refine (hostReduceAdd_apply x _ h' hu (ix3 p q r)).trans ?_
  refine (hostSum3_apply x _ h' p q r).trans ?_
  show Ideal.ofBits .f32 0x00000000#32 + _ = _
  rw [Ideal.ofBits_zero_f32, zero_add]

/-- The host's sum over axis 2 from the zero word: at `(p, q, s)` the sum over the third coordinate. -/
theorem hostReduceAdd2_zero_apply {u : Shape} (x : FVec Ideal ⟨4, ![a, b, c, d]⟩ .f32)
    (h' : Shape.ReducesTo ⟨4, ![a, b, c, d]⟩ [2] ⟨3, ![a, b, d]⟩) (hu : 0 < u.numel) (p : Fin a) (q : Fin b) (s : Fin d) :
    Host.reduceAdd x (constant u .f32 0x00000000#32) h' hu (ix3 p q s) = ∑ r : Fin c, x (ix4 p q r s) := by
  refine (hostReduceAdd_apply x _ h' hu (ix3 p q s)).trans ?_
  refine (hostSum2_apply x _ h' p q s).trans ?_
  show Ideal.ofBits .f32 0x00000000#32 + _ = _
  rw [Ideal.ofBits_zero_f32, zero_add]

end HostSumRank4
-- ==== Proof.RefRead.lean ====
/-
  The reference program's result as a function of its seven arguments, stage by stage, and each stage read at an
  entry on the extended reals.

  The reference reshapes x to [16, 32, 16, 4096] (sample, group, slot, position), cuts the slots into two halves of
  eight, and gates each half:
    • slots 0..7 by the logistic of the slot's mean over the positions, scaled and shifted per group;
    • slots 8..15 by the logistic, at each position, of the mean over the eight slots of the normalised entries
      (mean and variance over the eight slots and all positions; scaled and shifted per group and slot), scaled and
      shifted per group.
  It then joins the halves along the slot axis, swaps the group and slot axes and flattens them to 512 channels.
  Below, each stage is one definition in the program's own operations, and one lemma reads it at explicit coordinates
  as the corresponding function of `Cert.GroupGate`. The variance is computed by an outlined function that divides by
  32768 − 0 and selects the quotient where that divisor is positive, a not-a-number word otherwise; 32768 is positive,
  so the quotient is selected.
-/
import proofs.«147669_j46557445489505_2_alg».proof.Proof.Gen.ReferenceIdeal
import proofs.«147669_j46557445489505_2_alg».proof.Proof.GroupGate
import proofs.«147669_j46557445489505_2_alg».proof.Proof.LibHostSum4
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.HandValue

open Cert.ReferenceIdeal Cert.ReferenceIdeal.Gen Idealize.ShloMosaic Idealize.ShloMosaic.ValueIdx
open scoped BigOperators

/-- The argument and working array types. -/
abbrev X3 := FVec Ideal S16x512x4096 .f32
abbrev V32 := FVec Ideal S32 .f32
abbrev M32x8 := FVec Ideal S32x8 .f32
abbrev R4 := FVec Ideal S16x32x8x4096 .f32
abbrev G11 := FVec Ideal S16x32x1x1 .f32

/-! ## The stages -/

/-- x as [sample, group, slot, position]. -/
def xg (x : X3) : FVec Ideal S16x32x16x4096 .f32 := shapeCast S16x32x16x4096 x shapeCasts_S16x512x4096_S16x32x16x4096
/-- Slots 0..7. -/
def x1 (x : X3) : R4 :=
  extractStridedSlice S16x32x8x4096 ![0, 0, 0, 0] (xg x) slices_S16x32x16x4096_S16x32x8x4096_0_0_0_0
/-- Slots 8..15. -/
def x2 (x : X3) : R4 :=
  extractStridedSlice S16x32x8x4096 ![0, 0, 8, 0] (xg x) slices_S16x32x16x4096_S16x32x8x4096_0_0_8_0

/-- The logistic spelt as one over one plus the exponential of the negation, at any shape. -/
def sigmoidAt (S : Shape) (hS : S_.BroadcastsInDim S (![] : Fin 0 → Fin S.rank)) (z : FVec Ideal S .f32) : FVec Ideal S .f32 :=
  Host.divf (broadcastInDim S ![] hS (constant (F := Ideal) S_ .f32 0x3F800000#32))
    (addf (broadcastInDim S ![] hS (constant (F := Ideal) S_ .f32 0x3F800000#32)) (Host.exp (Host.negf z)))

/-- The mean over the positions of each slot of the first half. -/
def chanMeanR (x : X3) : FVec Ideal S16x32x8 .f32 :=
  Host.divf (Host.reduceAdd (x1 x) (constant (F := Ideal) S_ .f32 0x00000000#32) reducesTo_S16x32x8x4096_S16x32x8_d3 h_S_)
    (broadcastInDim S16x32x8 ![] bcast_S_S16x32x8 (constant (F := Ideal) S_ .f32 0x45800000#32))
/-- A per-group vector spread over [sample, group, slot]. -/
def perGroup8 (v : V32) : FVec Ideal S16x32x8 .f32 :=
  broadcastInDim S16x32x8 ![0, 1, 2] bcast_S1x32x1_S16x32x8_0_1_2 (broadcastInDim S1x32x1 ![1] bcast_S32_S1x32x1_1 v)
/-- The first half's gate. -/
def gate1R (x : X3) (cww cwb : V32) : FVec Ideal S16x32x8 .f32 :=
  sigmoidAt S16x32x8 bcast_S_S16x32x8 (addf (mulf (chanMeanR x) (perGroup8 cww)) (perGroup8 cwb))
/-- The first half, gated. -/
def firstHalf (x : X3) (cww cwb : V32) : R4 :=
  mulf (x1 x) (broadcastInDim S16x32x8x4096 ![0, 1, 2, 3] bcast_S16x32x8x1_S16x32x8x4096_0_1_2_3
    (broadcastInDim S16x32x8x1 ![0, 1, 2] bcast_S16x32x8_S16x32x8x1_0_1_2 (gate1R x cww cwb)))

/-- The sum over the eight slots and all positions, per sample and group, with two unit axes. -/
def groupSum (v : R4) : G11 :=
  broadcastInDim S16x32x1x1 ![0, 1] bcast_S16x32_S16x32x1x1_0_1
    (Host.reduceAdd v (constant (F := Ideal) S_ .f32 0x00000000#32) reducesTo_S16x32x8x4096_S16x32_d2_3 h_S_)
/-- The group mean. -/
def muR (v : R4) : G11 :=
  Host.divf (groupSum v) (broadcastInDim S16x32x1x1 ![] bcast_S_S16x32x1x1 (constant (F := Ideal) S_ .f32 0x47000000#32))
/-- A per-sample-and-group value spread over slots and positions. -/
def perGroup (w : G11) : R4 := broadcastInDim S16x32x8x4096 ![0, 1, 2, 3] bcast_S16x32x1x1_S16x32x8x4096_0_1_2_3 w
/-- The deviations from the group mean. -/
def centred (v : R4) : R4 := subf v (perGroup (muR v))
/-- The variance function's divisor: 32768 minus the integer 0 converted. -/
def countR : FVec Ideal S_ .f32 :=
  subf (constant (F := Ideal) S_ .f32 0x47000000#32) (sitofp .f32 (constantI S_ 32 0#32))
/-- The mean of the squared deviations. -/
def varQ (v : R4) : G11 :=
  Host.divf (groupSum (mulf (centred v) (centred v))) (broadcastInDim S16x32x1x1 ![] bcast_S_S16x32x1x1 countR)
/-- The variance: that mean where the divisor is positive, the not-a-number word elsewhere. -/
def varR (v : R4) : G11 :=
  select (broadcastInDim S16x32x1x1 ![] bcast_S_S16x32x1x1 (cmpf .ogt countR (constant (F := Ideal) S_ .f32 0x00000000#32)))
    (varQ v) (broadcastInDim S16x32x1x1 ![] bcast_S_S16x32x1x1 (constant (F := Ideal) S_ .f32 0x7FC00000#32))
/-- One over the square root of the variance plus epsilon. -/
def invStdR (v : R4) : G11 :=
  Host.rsqrt (addf (varR v) (broadcastInDim S16x32x1x1 ![] bcast_S_S16x32x1x1 (constant (F := Ideal) S_ .f32 0x3727C5AC#32)))
/-- A per-group-and-slot matrix spread over samples and positions. -/
def perSlot (w : M32x8) : R4 :=
  broadcastInDim S16x32x8x4096 ![0, 1, 2, 3] bcast_S1x32x8x1_S16x32x8x4096_0_1_2_3
    (broadcastInDim S1x32x8x1 ![1, 2] bcast_S32x8_S1x32x8x1_1_2 w)
/-- The normalised, scaled and shifted second half. -/
def normedR (x : X3) (gnw gnb : M32x8) : R4 :=
  addf (mulf (mulf (centred (x2 x)) (perGroup (invStdR (x2 x)))) (perSlot gnw)) (perSlot gnb)
/-- Its mean over the eight slots. -/
def posMeanR (x : X3) (gnw gnb : M32x8) : FVec Ideal S16x32x4096 .f32 :=
  Host.divf (Host.reduceAdd (normedR x gnw gnb) (constant (F := Ideal) S_ .f32 0x00000000#32) reducesTo_S16x32x8x4096_S16x32x4096_d2 h_S_)
    (broadcastInDim S16x32x4096 ![] bcast_S_S16x32x4096 (constant (F := Ideal) S_ .f32 0x41000000#32))
/-- A per-group vector spread over [sample, group, position]. -/
def perGroupL (v : V32) : FVec Ideal S16x32x4096 .f32 :=
  broadcastInDim S16x32x4096 ![0, 1, 2] bcast_S1x32x1_S16x32x4096_0_1_2 (broadcastInDim S1x32x1 ![1] bcast_S32_S1x32x1_1 v)
/-- The second half's gate. -/
def gate2R (x : X3) (sww swb : V32) (gnw gnb : M32x8) : FVec Ideal S16x32x4096 .f32 :=
  sigmoidAt S16x32x4096 bcast_S_S16x32x4096 (addf (mulf (posMeanR x gnw gnb) (perGroupL sww)) (perGroupL swb))
/-- The second half, gated. -/
def secondHalf (x : X3) (sww swb : V32) (gnw gnb : M32x8) : R4 :=
  mulf (x2 x) (broadcastInDim S16x32x8x4096 ![0, 1, 2, 3] bcast_S16x32x1x4096_S16x32x8x4096_0_1_2_3
    (broadcastInDim S16x32x1x4096 ![0, 1, 3] bcast_S16x32x4096_S16x32x1x4096_0_1_3 (gate2R x sww swb gnw gnb)))
/-- The result: the halves joined along the slot axis, group and slot axes swapped, flattened to channels. -/
def refOut (x : X3) (cww cwb sww swb : V32) (gnw gnb : M32x8) : X3 :=
  shapeCast S16x512x4096
    (transpose S16x16x32x4096 [0, 2, 1, 3]
      (concatenate S16x32x16x4096 2 [⟨S16x32x8x4096, firstHalf x cww cwb⟩, ⟨S16x32x8x4096, secondHalf x sww swb gnw gnb⟩]
        concatenates_S16x32x8x4096_S16x32x8x4096_S16x32x16x4096_d2)
      transposes_S16x32x16x4096_S16x16x32x4096_0_2_1_3)
    shapeCasts_S16x16x32x4096_S16x512x4096

/-! ## Literals -/

/-- The word 0x47000000 is 32768. -/
theorem ofBits_32768 : Ideal.ofBits .f32 0x47000000#32 = ((32768 : ℝ) : EReal) := by
  simp [Ideal.ofBits, Ideal.ieee, -EReal.coe_mul]; norm_num

/-- The count is positive. -/
theorem cnt_pos : (0 : EReal) < Cert.GroupGate.cnt := by
  unfold Cert.GroupGate.cnt
  rw [ofBits_32768]
  exact EReal.coe_pos.mpr (by norm_num)

/-- The variance function's divisor is the count. -/
theorem countR_eq : countR ix0 = Cert.GroupGate.cnt := by
  show Ideal.ofBits .f32 0x47000000#32 - (((0#32 : BitVec 32).toInt : ℝ) : EReal) = Ideal.ofBits .f32 0x47000000#32
  simp

/-! ## The stages at an entry -/

open Cert.GroupGate (chan lo hi)

theorem xg_apply (x : X3) (b : Fin 16) (g : Fin 32) (k : Fin 16) (l : Fin 4096) :
    xg x (ix4 b g k l) = x (ix3 b (chan g k) l) := by
  unfold xg
  refine shapeCast_apply x _ (ix4 b g k l) (ix3 b (chan g k) l) ?_
  rw [Shape.rowMajor_val_three, Shape.rowMajor_val_four]
  show (b.val * 512 + (g.val * 16 + k.val)) * 4096 + l.val = ((b.val * 32 + g.val) * 16 + k.val) * 4096 + l.val
  omega

theorem x1_apply (x : X3) (b : Fin 16) (g : Fin 32) (h : Fin 8) (l : Fin 4096) :
    x1 x (ix4 b g h l) = x (ix3 b (chan g (lo h)) l) := by
  unfold x1
  refine (extractStridedSlice_apply _ (xg x) _ (ix4 b g h l) (ix4 b g (lo h) l) fun a => ?_).trans (xg_apply x b g _ l)
  match a with
  | ⟨0, _⟩ => exact (Nat.zero_add b.val).symm
  | ⟨1, _⟩ => exact (Nat.zero_add g.val).symm
  | ⟨2, _⟩ => exact (Nat.zero_add h.val).symm
  | ⟨3, _⟩ => exact (Nat.zero_add l.val).symm

theorem x2_apply (x : X3) (b : Fin 16) (g : Fin 32) (h : Fin 8) (l : Fin 4096) :
    x2 x (ix4 b g h l) = x (ix3 b (chan g (hi h)) l) := by
  unfold x2
  refine (extractStridedSlice_apply _ (xg x) _ (ix4 b g h l) (ix4 b g (hi h) l) fun a => ?_).trans (xg_apply x b g _ l)
  match a with
  | ⟨0, _⟩ => exact (Nat.zero_add b.val).symm
  | ⟨1, _⟩ => exact (Nat.zero_add g.val).symm
  | ⟨2, _⟩ => rfl
  | ⟨3, _⟩ => exact (Nat.zero_add l.val).symm

/-- The spelt-out logistic is the logistic. -/
theorem sigmoidAt_apply (S : Shape) (hS : S_.BroadcastsInDim S (![] : Fin 0 → Fin S.rank)) (z : FVec Ideal S .f32) (i : S.Idx) :
    sigmoidAt S hS z i = Ideal.logistic (z i) := by
  show Ideal.div (broadcastInDim S ![] hS (constant (F := Ideal) S_ .f32 0x3F800000#32) i)
      (broadcastInDim S ![] hS (constant (F := Ideal) S_ .f32 0x3F800000#32) i + Ideal.exp (-(z i))) = _
  rw [broadcastInDim_scalar_apply]
  show Ideal.div (Ideal.ofBits .f32 0x3F800000#32) (Ideal.ofBits .f32 0x3F800000#32 + Ideal.exp (-(z i))) = _
  rw [Ideal.ofBits_one_f32]
  rfl

theorem chanMeanR_apply (x : X3) (b : Fin 16) (g : Fin 32) (h : Fin 8) :
    chanMeanR x (ix3 b g h) = Cert.GroupGate.chanMean x b g h := by
  show Ideal.div (Host.reduceAdd (x1 x) (constant (F := Ideal) S_ .f32 0x00000000#32) reducesTo_S16x32x8x4096_S16x32x8_d3 h_S_ (ix3 b g h))
      (broadcastInDim S16x32x8 ![] bcast_S_S16x32x8 (constant (F := Ideal) S_ .f32 0x45800000#32) (ix3 b g h)) = _
  rw [HostSumRank4.hostReduceAdd3_zero_apply, broadcastInDim_scalar_apply]
  exact congrArg (Ideal.div · _) (Finset.sum_congr rfl fun l _ => x1_apply x b g h l)

theorem perGroup8_apply (v : V32) (b : Fin 16) (g : Fin 32) (h : Fin 8) : perGroup8 v (ix3 b g h) = v (ix1 g) := by
  unfold perGroup8
  refine (broadcastInDim_apply _ _ _ (ix3 b g h) (ix3 (0 : Fin 1) g (0 : Fin 1)) fun a => ?_).trans
    (broadcastInDim_apply _ _ v _ (ix1 g) fun a => ?_)
  · match a with
    | ⟨0, _⟩ => rfl
    | ⟨1, _⟩ => rfl
    | ⟨2, _⟩ => rfl
  · match a with
    | ⟨0, _⟩ => rfl

theorem gate1R_apply (x : X3) (cww cwb : V32) (b : Fin 16) (g : Fin 32) (h : Fin 8) :
    gate1R x cww cwb (ix3 b g h) = Cert.GroupGate.gate1 x cww cwb b g h := by
  unfold gate1R Cert.GroupGate.gate1
  rw [sigmoidAt_apply, addf_apply, mulf_apply, chanMeanR_apply, perGroup8_apply, perGroup8_apply]

theorem firstHalf_apply (x : X3) (cww cwb : V32) (b : Fin 16) (g : Fin 32) (h : Fin 8) (l : Fin 4096) :
    firstHalf x cww cwb (ix4 b g h l) = x (ix3 b (chan g (lo h)) l) * Cert.GroupGate.gate1 x cww cwb b g h := by
  unfold firstHalf
  rw [mulf_apply, x1_apply]
  refine congrArg (_ * ·) ?_
  refine (broadcastInDim_apply _ _ _ (ix4 b g h l) (ix4 b g h (0 : Fin 1)) fun a => ?_).trans
    ((broadcastInDim_apply _ _ _ _ (ix3 b g h) fun a => ?_).trans (gate1R_apply x cww cwb b g h))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem groupSum_apply (v : R4) (b : Fin 16) (g : Fin 32) (u u' : Fin 1) :
    groupSum v (ix4 b g u u') = ∑ h : Fin 8, ∑ l : Fin 4096, v (ix4 b g h l) := by
  unfold groupSum
  refine (broadcastInDim_apply _ _ _ (ix4 b g u u') (ix2 b g) fun a => ?_).trans
    (HostSumRank4.hostReduceAdd23_zero_apply v _ h_S_ b g)
  match a with
  | ⟨0, _⟩ => rfl
  | ⟨1, _⟩ => rfl

theorem perGroup_apply (w : G11) (b : Fin 16) (g : Fin 32) (h : Fin 8) (l : Fin 4096) :
    perGroup w (ix4 b g h l) = w (ix4 b g (0 : Fin 1) (0 : Fin 1)) := by
  unfold perGroup
  refine broadcastInDim_apply _ _ w (ix4 b g h l) (ix4 b g (0 : Fin 1) (0 : Fin 1)) fun a => ?_
  match a with
  | ⟨0, _⟩ => rfl
  | ⟨1, _⟩ => rfl
  | ⟨2, _⟩ => rfl
  | ⟨3, _⟩ => rfl

theorem mu_apply (x : X3) (b : Fin 16) (g : Fin 32) (u u' : Fin 1) :
    muR (x2 x) (ix4 b g u u') = Cert.GroupGate.mu x b g := by
  show Ideal.div (groupSum (x2 x) (ix4 b g u u'))
      (broadcastInDim S16x32x1x1 ![] bcast_S_S16x32x1x1 (constant (F := Ideal) S_ .f32 0x47000000#32) (ix4 b g u u')) = _
  rw [groupSum_apply, broadcastInDim_scalar_apply]
  exact congrArg (Ideal.div · _) (Finset.sum_congr rfl fun h _ => Finset.sum_congr rfl fun l _ => x2_apply x b g h l)

theorem centred_apply (x : X3) (b : Fin 16) (g : Fin 32) (h : Fin 8) (l : Fin 4096) :
    centred (x2 x) (ix4 b g h l) = x (ix3 b (chan g (hi h)) l) - Cert.GroupGate.mu x b g := by
  unfold centred
  rw [subf_apply, perGroup_apply, mu_apply, x2_apply]

theorem varQ_apply (x : X3) (b : Fin 16) (g : Fin 32) (u u' : Fin 1) :
    varQ (x2 x) (ix4 b g u u') = Cert.GroupGate.var x b g := by
  show Ideal.div (groupSum (mulf (centred (x2 x)) (centred (x2 x))) (ix4 b g u u'))
      (broadcastInDim S16x32x1x1 ![] bcast_S_S16x32x1x1 countR (ix4 b g u u')) = _
  rw [groupSum_apply, broadcastInDim_scalar_apply, countR_eq]
  refine congrArg (Ideal.div · _) (Finset.sum_congr rfl fun h _ => Finset.sum_congr rfl fun l _ => ?_)
  rw [mulf_apply, centred_apply]

theorem var_apply (x : X3) (b : Fin 16) (g : Fin 32) (u u' : Fin 1) :
    varR (x2 x) (ix4 b g u u') = Cert.GroupGate.var x b g := by
  unfold varR
  rw [select_apply, broadcastInDim_scalar_apply, cmpf_apply, Ideal.cmpf_def]
  have hc : Ideal.cmp .ogt (countR ix0) (constant (F := Ideal) S_ .f32 0x00000000#32 ix0) = 1#1 := by
    show BitVec.ofBool (decide (Ideal.ofBits .f32 0x00000000#32 < countR ix0)) = 1#1
    rw [Ideal.ofBits_zero_f32, countR_eq, decide_eq_true cnt_pos]
    rfl
  rw [hc, select_one, varQ_apply]

theorem invStd_apply (x : X3) (b : Fin 16) (g : Fin 32) (u u' : Fin 1) :
    invStdR (x2 x) (ix4 b g u u') = Cert.GroupGate.invStd x b g := by
  show Ideal.rsqrt (varR (x2 x) (ix4 b g u u')
      + broadcastInDim S16x32x1x1 ![] bcast_S_S16x32x1x1 (constant (F := Ideal) S_ .f32 0x3727C5AC#32) (ix4 b g u u')) = _
  rw [var_apply, broadcastInDim_scalar_apply]
  rfl

theorem perSlot_apply (w : M32x8) (b : Fin 16) (g : Fin 32) (h : Fin 8) (l : Fin 4096) :
    perSlot w (ix4 b g h l) = w (ix2 g h) := by
  unfold perSlot
  refine (broadcastInDim_apply _ _ _ (ix4 b g h l) (ix4 (0 : Fin 1) g h (0 : Fin 1)) fun a => ?_).trans
    (broadcastInDim_apply _ _ w _ (ix2 g h) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl

theorem normed_apply (x : X3) (gnw gnb : M32x8) (b : Fin 16) (g : Fin 32) (h : Fin 8) (l : Fin 4096) :
    normedR x gnw gnb (ix4 b g h l) = Cert.GroupGate.normed x gnw gnb b g h l := by
  unfold normedR Cert.GroupGate.normed
  rw [addf_apply, mulf_apply, mulf_apply, centred_apply, perGroup_apply, invStd_apply, perSlot_apply, perSlot_apply]

theorem posMean_apply (x : X3) (gnw gnb : M32x8) (b : Fin 16) (g : Fin 32) (l : Fin 4096) :
    posMeanR x gnw gnb (ix3 b g l) = Cert.GroupGate.posMean x gnw gnb b g l := by
  show Ideal.div (Host.reduceAdd (normedR x gnw gnb) (constant (F := Ideal) S_ .f32 0x00000000#32) reducesTo_S16x32x8x4096_S16x32x4096_d2 h_S_ (ix3 b g l))
      (broadcastInDim S16x32x4096 ![] bcast_S_S16x32x4096 (constant (F := Ideal) S_ .f32 0x41000000#32) (ix3 b g l)) = _
  rw [HostSumRank4.hostReduceAdd2_zero_apply, broadcastInDim_scalar_apply]
  exact congrArg (Ideal.div · _) (Finset.sum_congr rfl fun h _ => normed_apply x gnw gnb b g h l)

theorem perGroupL_apply (v : V32) (b : Fin 16) (g : Fin 32) (l : Fin 4096) : perGroupL v (ix3 b g l) = v (ix1 g) := by
  unfold perGroupL
  refine (broadcastInDim_apply _ _ _ (ix3 b g l) (ix3 (0 : Fin 1) g (0 : Fin 1)) fun a => ?_).trans
    (broadcastInDim_apply _ _ v _ (ix1 g) fun a => ?_)
  · match a with
    | ⟨0, _⟩ => rfl
    | ⟨1, _⟩ => rfl
    | ⟨2, _⟩ => rfl
  · match a with
    | ⟨0, _⟩ => rfl

theorem gate2R_apply (x : X3) (sww swb : V32) (gnw gnb : M32x8) (b : Fin 16) (g : Fin 32) (l : Fin 4096) :
    gate2R x sww swb gnw gnb (ix3 b g l) = Cert.GroupGate.gate2 x sww swb gnw gnb b g l := by
  unfold gate2R Cert.GroupGate.gate2
  rw [sigmoidAt_apply, addf_apply, mulf_apply, posMean_apply, perGroupL_apply, perGroupL_apply]

theorem secondHalf_apply (x : X3) (sww swb : V32) (gnw gnb : M32x8) (b : Fin 16) (g : Fin 32) (h : Fin 8) (l : Fin 4096) :
    secondHalf x sww swb gnw gnb (ix4 b g h l)
      = x (ix3 b (chan g (hi h)) l) * Cert.GroupGate.gate2 x sww swb gnw gnb b g l := by
  unfold secondHalf
  rw [mulf_apply, x2_apply]
  refine congrArg (_ * ·) ?_
  refine (broadcastInDim_apply _ _ _ (ix4 b g h l) (ix4 b g (0 : Fin 1) l) fun a => ?_).trans
    ((broadcastInDim_apply _ _ _ _ (ix3 b g l) fun a => ?_).trans (gate2R_apply x sww swb gnw gnb b g l))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-! ## The result at an entry, and as a whole -/

theorem refOut_apply (x : X3) (cww cwb sww swb : V32) (gnw gnb : M32x8) (b : Fin 16) (r : Fin 512) (l : Fin 4096) :
    refOut x cww cwb sww swb gnw gnb (ix3 b r l) = Cert.GroupGate.outAt x cww cwb sww swb gnw gnb b r l := by
  have hr := r.isLt
  have hk16 : r.val / 32 < 16 := by omega
  have hg32 : r.val % 32 < 32 := Nat.mod_lt _ (by norm_num)
  unfold refOut
  refine (shapeCast_apply _ _ (ix3 b r l) (ix4 b (⟨r.val / 32, hk16⟩ : Fin 16) (⟨r.val % 32, hg32⟩ : Fin 32) l) ?_).trans ?_
  · rw [Shape.rowMajor_val_three, Shape.rowMajor_val_four]
    show ((b.val * 16 + r.val / 32) * 32 + r.val % 32) * 4096 + l.val = (b.val * 512 + r.val) * 4096 + l.val
    omega
  refine (transpose_apply _ _ _ (ix4 b (⟨r.val / 32, hk16⟩ : Fin 16) (⟨r.val % 32, hg32⟩ : Fin 32) l)
    (ix4 b (⟨r.val % 32, hg32⟩ : Fin 32) (⟨r.val / 32, hk16⟩ : Fin 16) l) fun a => ?_).trans ?_
  · match a with
    | ⟨0, _⟩ => rfl
    | ⟨1, _⟩ => rfl
    | ⟨2, _⟩ => rfl
    | ⟨3, _⟩ => rfl
  unfold Cert.GroupGate.outAt Cert.GroupGate.gated
  by_cases hk : r.val / 32 < 8
  · rw [dif_pos hk]
    refine (concatenate_pair_apply_left (t := S16x32x16x4096) (s₁ := S16x32x8x4096) (s₂ := S16x32x8x4096) (2 : Fin 4)
      (firstHalf x cww cwb) (secondHalf x sww swb gnw gnb) concatenates_S16x32x8x4096_S16x32x8x4096_S16x32x16x4096_d2
      (ix4 b (⟨r.val % 32, hg32⟩ : Fin 32) (⟨r.val / 32, hk16⟩ : Fin 16) l) rfl
      (ix4 b (⟨r.val % 32, hg32⟩ : Fin 32) (⟨r.val / 32, hk⟩ : Fin 8) l) fun e => ?_).trans
      (firstHalf_apply x cww cwb b _ _ l)
    match e with
    | ⟨0, _⟩ => rfl
    | ⟨1, _⟩ => rfl
    | ⟨2, _⟩ => rfl
    | ⟨3, _⟩ => rfl
  · rw [dif_neg hk]
    have hk8 : r.val / 32 - 8 < 8 := by omega
    have hhi : hi (⟨r.val / 32 - 8, hk8⟩ : Fin 8) = (⟨r.val / 32, hk16⟩ : Fin 16) :=
      Fin.ext (by show 8 + (r.val / 32 - 8) = r.val / 32; omega)
    refine (concatenate_pair_apply_right (t := S16x32x16x4096) (s₁ := S16x32x8x4096) (s₂ := S16x32x8x4096) (2 : Fin 4)
      (firstHalf x cww cwb) (secondHalf x sww swb gnw gnb) concatenates_S16x32x8x4096_S16x32x8x4096_S16x32x16x4096_d2
      (ix4 b (⟨r.val % 32, hg32⟩ : Fin 32) (⟨r.val / 32, hk16⟩ : Fin 16) l) rfl rfl
      (ix4 b (⟨r.val % 32, hg32⟩ : Fin 32) (⟨r.val / 32 - 8, hk8⟩ : Fin 8) l) (fun e he => ?_) ?_).trans
      ((secondHalf_apply x sww swb gnw gnb b _ _ l).trans ?_)
    · match e, he with
      | ⟨0, _⟩, _ => rfl
      | ⟨1, _⟩, _ => rfl
      | ⟨2, _⟩, he => exact absurd rfl he
      | ⟨3, _⟩, _ => rfl
    · show r.val / 32 - 8 + 8 = r.val / 32
      omega
    · rw [hhi]

/-- The reference's result is the specified function of its arguments. -/
theorem refOut_eq (x : X3) (cww cwb sww swb : V32) (gnw gnb : M32x8) :
    refOut x cww cwb sww swb gnw gnb = Cert.GroupGate.out x cww cwb sww swb gnw gnb := by
  funext i
  obtain ⟨b, r, l, rfl⟩ : ∃ (b : Fin 16) (r : Fin 512) (l : Fin 4096), i = ix3 b r l := ⟨i 0, i 1, i 2, eq_ix3 i⟩
  rw [Cert.GroupGate.out_ix3]
  exact refOut_apply x cww cwb sww swb gnw gnb b r l

end Cert.ReferenceIdeal.HandValue

end
-- ==== Proof.RefValue.lean ====
/-
  The reference program's run, with its result stated as the specified function of the arguments.

  The fold of the program's 94 operations at the result buffer is, operation by operation, the staged term `refOut` of the
  seven argument buffers' contents (the sums are kept folded meanwhile: the equation never looks inside them), and
  no operation writes an argument buffer. `refOut` is `Cert.GroupGate.out` entry by entry (`refOut_eq`). So every
  weakly fair execution ends with the result buffer at `Cert.GroupGate.out` of the launch contents of the
  arguments, and the arguments unchanged.
-/
import proofs.«147669_j46557445489505_2_alg».proof.Proof.RefRun
import proofs.«147669_j46557445489505_2_alg».proof.Proof.RefRead
import proofs.«147669_j46557445489505_2_alg».proof.Proof.GroupGate

noncomputable section

namespace Cert.ReferenceIdeal.HandValue

open Cert.ReferenceIdeal Cert.ReferenceIdeal.Gen Idealize.ShloMosaic Idealize.ShloMosaic.TcCoe Idealize.SL.Sem Idealize.ShloMosaic.StableHlo
open Cert.ReferenceIdeal.HandRun (ops run_all)

attribute [local irreducible] Host.reduceAdd in
set_option maxRecDepth 16384 in
set_option maxHeartbeats 4000000 in
/-- The fold at the result buffer is the staged term of the arguments' contents. -/
theorem out_eq (V : Valuation τ sig (Elt Ideal)) :
    after (ops (F := Ideal)) V (main_v59 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

set_option maxRecDepth 16384 in
set_option maxHeartbeats 4000000 in
/-- No operation writes argument 0. -/
theorem arg0_eq (V : Valuation τ sig (Elt Ideal)) :
    after (ops (F := Ideal)) V (main_arg0 : DevRef τ sig) = V (main_arg0 : DevRef τ sig) := by
  after_results_simp

set_option maxRecDepth 16384 in
set_option maxHeartbeats 4000000 in
/-- No operation writes argument 1. -/
theorem arg1_eq (V : Valuation τ sig (Elt Ideal)) :
    after (ops (F := Ideal)) V (main_arg1 : DevRef τ sig) = V (main_arg1 : DevRef τ sig) := by
  after_results_simp

set_option maxRecDepth 16384 in
set_option maxHeartbeats 4000000 in
/-- No operation writes argument 2. -/
theorem arg2_eq (V : Valuation τ sig (Elt Ideal)) :
    after (ops (F := Ideal)) V (main_arg2 : DevRef τ sig) = V (main_arg2 : DevRef τ sig) := by
  after_results_simp

set_option maxRecDepth 16384 in
set_option maxHeartbeats 4000000 in
/-- No operation writes argument 3. -/
theorem arg3_eq (V : Valuation τ sig (Elt Ideal)) :
    after (ops (F := Ideal)) V (main_arg3 : DevRef τ sig) = V (main_arg3 : DevRef τ sig) := by
  after_results_simp

set_option maxRecDepth 16384 in
set_option maxHeartbeats 4000000 in
/-- No operation writes argument 4. -/
theorem arg4_eq (V : Valuation τ sig (Elt Ideal)) :
    after (ops (F := Ideal)) V (main_arg4 : DevRef τ sig) = V (main_arg4 : DevRef τ sig) := by
  after_results_simp

set_option maxRecDepth 16384 in
set_option maxHeartbeats 4000000 in
/-- No operation writes argument 5. -/
theorem arg5_eq (V : Valuation τ sig (Elt Ideal)) :
    after (ops (F := Ideal)) V (main_arg5 : DevRef τ sig) = V (main_arg5 : DevRef τ sig) := by
  after_results_simp

set_option maxRecDepth 16384 in
set_option maxHeartbeats 4000000 in
/-- No operation writes argument 6. -/
theorem arg6_eq (V : Valuation τ sig (Elt Ideal)) :
    after (ops (F := Ideal)) V (main_arg6 : DevRef τ sig) = V (main_arg6 : DevRef τ sig) := by
  after_results_simp

/-- From any memory with zero counters every weakly fair execution of the reference terminates with its result
    the specified function of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59) = Cert.GroupGate.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c =>
    ⟨(h c main_v59).trans ((out_eq _).trans (refOut_eq _ _ _ _ _ _ _)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_all (F := Ideal) m ρ)

end Cert.ReferenceIdeal.HandValue

end
-- ==== Proof.lean ====
/-
  The kernel gates each group of 16 channels: the first 8 by a per-channel logistic of the channel's mean over the
  length, the last 8 by a per-position logistic of the group-normalised entries averaged over the 8 channels, and
  writes the result with the channels shuffled (slot k of group g to channel k·32 + g). One grid point handles one
  sample, in four chunks of 1024 positions, accumulating its sums in three small scratch buffers; the reference
  computes the same quantities on whole arrays.

  Both programs are shown to compute ONE function of the seven argument arrays, Cert.GroupGate.out
  (Proof/GroupGate.lean), entry by entry on the extended reals:

  * the kernel: the scratch accumulators are the sums over the whole length, regrouped (Proof/KernelStats*.lean);
    the clamp max(var, 0) is the identity because a mean of squares is non-negative; each chunk's store is the
    specification on its positions (Proof/KernelForms.lean, KernelChunk.lean); the four stores tile the block
    (KernelBlock.lean) and the 16 blocks tile the array (KernelFinal.lean);
  * the reference: its host operations listed and run (Proof/RefRun.lean) and read entry by entry
    (Proof/RefRead.lean, RefValue.lean); the guard 32768 − 0 > 0 of its variance routine holds, so the guarded value is
    the quotient itself.

  No finiteness of the inputs is used: only commutativity and associativity of addition on the extended reals,
  and the definitions. The idealized kernel is the kernel's own text read on the extended reals (no rewrite), so
  nothing is owed for it beyond the frames.
-/
import proofs.«147669_j46557445489505_2_alg».proof.Defs
import proofs.«147669_j46557445489505_2_alg».proof.Proof.Gen.Kernel
import proofs.«147669_j46557445489505_2_alg».proof.Proof.Gen.Kernel.Frame
import proofs.«147669_j46557445489505_2_alg».proof.Proof.Gen.KernelIdeal
import proofs.«147669_j46557445489505_2_alg».proof.Proof.Gen.KernelIdeal.Frame
import proofs.«147669_j46557445489505_2_alg».proof.Proof.Gen.ReferenceIdeal
import proofs.«147669_j46557445489505_2_alg».proof.Proof.Gen.Pre_finite_inputs
import proofs.«147669_j46557445489505_2_alg».proof.Proof.KernelFinal
import proofs.«147669_j46557445489505_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.HandValue.run m ρ)

/-- The idealized kernel is the kernel's own text: no rewrite to account for. -/
theorem preserves : Cert.preserves_Kernel_KernelIdeal := trivial

/-- Both runs end with the result at the same function of arguments that agree. -/
theorem algebraic : Cert.algebraic_KernelIdeal_ReferenceIdeal := by
  intro m ρ m' ρ' _ hagree
  refine ⟨fun c => Cert.GroupGate.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Final.run m ρ, ?_⟩
  refine (θ_run Cert.ReferenceIdeal.defs _ _).mono (fun _ h c => ⟨(h c).1.trans ?_, (h c).2⟩)
    (Cert.ReferenceIdeal.HandValue.run m' ρ')
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
